-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S16x128 : Shape := ⟨2, ![16, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S16x128 .f32) (main_arg3 : FVec F S128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S16x128 : Shape := ⟨2, ![16, 128]⟩
abbrev S128 : Shape := ⟨1, ![128]⟩
abbrev S1x128 : Shape := ⟨2, ![1, 128]⟩
abbrev S400x10000 : Shape := ⟨2, ![400, 10000]⟩
abbrev S8x128 : Shape := ⟨2, ![8, 128]⟩
abbrev S16x16 : Shape := ⟨2, ![16, 16]⟩
abbrev S128x16 : Shape := ⟨2, ![128, 16]⟩
abbrev S128x128 : Shape := ⟨2, ![128, 128]⟩
abbrev S400x128 : Shape := ⟨2, ![400, 128]⟩
abbrev S1000x128 : Shape := ⟨2, ![1000, 128]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S16x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S10000x128, .f32⟩
  | .local _ .vmem, ⟨0, _⟩ => ⟨S10000x128, .f32⟩
  | .local _ .vmem, ⟨1, _⟩ => ⟨S16x128, .f32⟩
  | .local _ .vmem, ⟨2, _⟩ => ⟨S1x128, .f32⟩
  | .local _ .vmem, ⟨3, _⟩ => ⟨S1x128, .f32⟩
  | .local _ .vmem, ⟨4, _⟩ => ⟨S400x10000, .f32⟩
  | .local _ .vmem, ⟨5, _⟩ => ⟨S400x10000, .f32⟩
  | .local _ .vmem, ⟨6, _⟩ => ⟨S10000x128, .f32⟩
  | .local _ .vmem, ⟨7, _⟩ => ⟨S10000x128, .f32⟩
  | .local _ .vmem, ⟨8, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S128_S1x128 : S128.ShapeCasts S1x128
  inb_S16x128_S16x128_0_0 : ∀ a, (![0, 0] : Fin 2 → Nat) a + S16x128.size a ≤ S16x128.size a
  h_S16x128 : 0 < S16x128.numel
  slices_S16x128_o0_0_S16x16 : S16x128.Slices ![0, 0] S16x16
  slices_S16x128_o0_16_S16x16 : S16x128.Slices ![0, 16] S16x16
  slices_S16x128_o0_32_S16x16 : S16x128.Slices ![0, 32] S16x16
  slices_S16x128_o0_48_S16x16 : S16x128.Slices ![0, 48] S16x16
  slices_S16x128_o0_64_S16x16 : S16x128.Slices ![0, 64] S16x16
  slices_S16x128_o0_80_S16x16 : S16x128.Slices ![0, 80] S16x16
  slices_S16x128_o0_96_S16x16 : S16x128.Slices ![0, 96] S16x16
  slices_S16x128_o0_112_S16x16 : S16x128.Slices ![0, 112] S16x16
  concatenates_S16x16_S16x16_S16x16_S16x16_S16x16_S16x16_S16x16_S16x16_S128x16_d0 : Shape.Concatenates [S16x16, S16x16, S16x16, S16x16, S16x16, S16x16, S16x16, S16x16] S128x16 0
  concatenates_S128x16_S128x16_S128x16_S128x16_S128x16_S128x16_S128x16_S128x16_S128x128_d1 : Shape.Concatenates [S128x16, S128x16, S128x16, S128x16, S128x16, S128x16, S128x16, S128x16] S128x128 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S400x10000_S400x10000_0_0 : ∀ a, (![0, 0] : Fin 2 → Nat) a + S400x10000.size a ≤ S400x10000.size a
  h_S400x10000 : 0 < S400x10000.numel
  h_S400x128 : 0 < S400x128.numel
  inb_S8x128_S1x128_0_0 : ∀ a, (![0, 0] : Fin 2 → Nat) a + S1x128.size a ≤ S8x128.size a
  h_S1x128 : 0 < S1x128.numel
  reduces_S400x128_S128 : S400x128.Reduces [0] S128
  shapeCasts_S1x128_S1x128 : S1x128.ShapeCasts S1x128
  inb_S8x128_S1x128_1_0 : ∀ a, (![1, 0] : Fin 2 → Nat) a + S1x128.size a ≤ S8x128.size a
  inb_S1x128_S1x128_0_0 : ∀ a, (![0, 0] : Fin 2 → Nat) a + S1x128.size a ≤ S1x128.size a
  inb_S10000x128_S1000x128_0_0 : ∀ a, (![0, 0] : Fin 2 → Nat) a + S1000x128.size a ≤ S10000x128.size a
  h_S1000x128 : 0 < S1000x128.numel
  shapeCasts_S1000x128_S1000x128 : S1000x128.ShapeCasts S1000x128
  broadcasts_S1x128_S1000x128 : S1x128.Broadcasts S1000x128
  inb_S10000x128_S1000x128_1000_0 : ∀ a, (![1000, 0] : Fin 2 → Nat) a + S1000x128.size a ≤ S10000x128.size a
  inb_S10000x128_S1000x128_2000_0 : ∀ a, (![2000, 0] : Fin 2 → Nat) a + S1000x128.size a ≤ S10000x128.size a
  inb_S10000x128_S1000x128_3000_0 : ∀ a, (![3000, 0] : Fin 2 → Nat) a + S1000x128.size a ≤ S10000x128.size a
  inb_S10000x128_S1000x128_4000_0 : ∀ a, (![4000, 0] : Fin 2 → Nat) a + S1000x128.size a ≤ S10000x128.size a
  inb_S10000x128_S1000x128_5000_0 : ∀ a, (![5000, 0] : Fin 2 → Nat) a + S1000x128.size a ≤ S10000x128.size a
  inb_S10000x128_S1000x128_6000_0 : ∀ a, (![6000, 0] : Fin 2 → Nat) a + S1000x128.size a ≤ S10000x128.size a
  inb_S10000x128_S1000x128_7000_0 : ∀ a, (![7000, 0] : Fin 2 → Nat) a + S1000x128.size a ≤ S10000x128.size a
  inb_S10000x128_S1000x128_8000_0 : ∀ a, (![8000, 0] : Fin 2 → Nat) a + S1000x128.size a ≤ S10000x128.size a
  inb_S10000x128_S1000x128_9000_0 : ∀ a, (![9000, 0] : Fin 2 → Nat) a + S1000x128.size a ≤ S10000x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .f32 = 32 ∨ (Rect.block (s := S10000x128) S10000x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S16x128 : Shape := ⟨2, ![16, 128]⟩
abbrev S128 : Shape := ⟨1, ![128]⟩
abbrev S16x16 : Shape := ⟨2, ![16, 16]⟩
abbrev S128x16 : Shape := ⟨2, ![128, 16]⟩
abbrev S128x128 : Shape := ⟨2, ![128, 128]⟩
abbrev S_ : Shape := ⟨0, ![]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S16x128, .f32⟩
  | .hbm, ⟨3, _⟩ => ⟨S128, .f32⟩
  | .hbm, ⟨4, _⟩ => ⟨S128, .f32⟩
  | .hbm, ⟨5, _⟩ => ⟨S16x16, .f32⟩
  | .hbm, ⟨6, _⟩ => ⟨S16x16, .f32⟩
  | .hbm, ⟨7, _⟩ => ⟨S16x16, .f32⟩
  | .hbm, ⟨8, _⟩ => ⟨S16x16, .f32⟩
  | .hbm, ⟨9, _⟩ => ⟨S16x16, .f32⟩
  | .hbm, ⟨10, _⟩ => ⟨S16x16, .f32⟩
  | .hbm, ⟨11, _⟩ => ⟨S16x16, .f32⟩
  | .hbm, ⟨12, _⟩ => ⟨S16x16, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S16x16, .f32⟩
  | .hbm, ⟨17, _⟩ => ⟨S16x16, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S16x16, .f32⟩
  | .hbm, ⟨24, _⟩ => ⟨S16x16, .f32⟩
  | .hbm, ⟨25, _⟩ => ⟨S16x16, .f32⟩
  | .hbm, ⟨26, _⟩ => ⟨S16x16, .f32⟩
  | .hbm, ⟨27, _⟩ => ⟨S16x16, .f32⟩
  | .hbm, ⟨28, _⟩ => ⟨S16x16, .f32⟩
  | .hbm, ⟨29, _⟩ => ⟨S16x16, .f32⟩
  | .hbm, ⟨30, _⟩ => ⟨S16x16, .f32⟩
  | .hbm, ⟨31, _⟩ => ⟨S16x16, .f32⟩
  | .hbm, ⟨32, _⟩ => ⟨S16x16, .f32⟩
  | .hbm, ⟨33, _⟩ => ⟨S16x16, .f32⟩
  | .hbm, ⟨34, _⟩ => ⟨S16x16, .f32⟩
  | .hbm, ⟨35, _⟩ => ⟨S16x16, .f32⟩
  | .hbm, ⟨36, _⟩ => ⟨S16x16, .f32⟩
  | .hbm, ⟨37, _⟩ => ⟨S16x16, .f32⟩
  | .hbm, ⟨38, _⟩ => ⟨S16x16, .f32⟩
  | .hbm, ⟨39, _⟩ => ⟨S16x16, .f32⟩
  | .hbm, ⟨40, _⟩ => ⟨S16x16, .f32⟩
  | .hbm, ⟨41, _⟩ => ⟨S128x16, .f32⟩
  | .hbm, ⟨42, _⟩ => ⟨S128x16, .f32⟩
  | .hbm, ⟨43, _⟩ => ⟨S128x16, .f32⟩
  | .hbm, ⟨44, _⟩ => ⟨S128x16, .f32⟩
  | .hbm, ⟨45, _⟩ => ⟨S128x16, .f32⟩
  | .hbm, ⟨46, _⟩ => ⟨S128x16, .f32⟩
  | .hbm, ⟨47, _⟩ => ⟨S128x16, .f32⟩
  | .hbm, ⟨48, _⟩ => ⟨S128x16, .f32⟩
  | .hbm, ⟨49, _⟩ => ⟨S128x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S_, .i1⟩
  | .hbm, ⟨76, _⟩ => ⟨S_, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S10000x128, .f32⟩
  | .hbm, ⟨82, _⟩ => ⟨S10000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S10000x128, .f32⟩
  | .hbm, ⟨89, _⟩ => ⟨S10000x128, .f32⟩
  | .hbm, ⟨90, _⟩ => ⟨S1x128, .f32⟩
  | .hbm, ⟨91, _⟩ => ⟨S10000x128, .f32⟩
  | .hbm, ⟨92, _⟩ => ⟨S10000x128, .f32⟩
  | .hbm, ⟨93, _⟩ => ⟨S1x128, .f32⟩
  | .hbm, ⟨94, _⟩ => ⟨S10000x128, .f32⟩
  | .hbm, ⟨95, _⟩ => ⟨S10000x128, .f32⟩
  | .hbm, ⟨96, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst : Ref sig .tc := ⟨.hbm, 52, rfl⟩
abbrev main_v47 : Ref sig .tc := ⟨.hbm, 53, rfl⟩
abbrev main_cst_0 : Ref sig .tc := ⟨.hbm, 54, rfl⟩
abbrev main_v48 : Ref sig .tc := ⟨.hbm, 55, rfl⟩
abbrev main_v49 : Ref sig .tc := ⟨.hbm, 56, rfl⟩
abbrev main_c : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_1 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]

class Facts₀ : Prop where
  slices_S16x128_S16x16_0_0 : S16x128.Slices ![0, 0] S16x16
  slices_S16x128_S16x16_0_16 : S16x128.Slices ![0, 16] S16x16
  slices_S16x128_S16x16_0_32 : S16x128.Slices ![0, 32] S16x16
  slices_S16x128_S16x16_0_48 : S16x128.Slices ![0, 48] S16x16
  slices_S16x128_S16x16_0_64 : S16x128.Slices ![0, 64] S16x16
  slices_S16x128_S16x16_0_80 : S16x128.Slices ![0, 80] S16x16
  slices_S16x128_S16x16_0_96 : S16x128.Slices ![0, 96] S16x16
  slices_S16x128_S16x16_0_112 : S16x128.Slices ![0, 112] S16x16
  concatenates_S16x16_S16x16_S16x16_S16x16_S16x16_S16x16_S16x16_S16x16_S128x16_d0 : Shape.Concatenates [S16x16, S16x16, S16x16, S16x16, S16x16, S16x16, S16x16, S16x16] S128x16 0
  concatenates_S128x16_S128x16_S128x16_S128x16_S128x16_S128x16_S128x16_S128x16_S128x128_d1 : Shape.Concatenates [S128x16, S128x16, S128x16, S128x16, S128x16, S128x16, S128x16, S128x16] S128x128 1
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsSetup.lean ====
/-
  The graph layer's kernel body, shared set-up. The grid has 25 points, one per block of 400 adjacency rows.
  Two tests on the point steer the body: at the FIRST point it builds the Hamilton matrix, multiplies the
  features by it into a scratch (the "support", kept for every later point) and clears the column statistics;
  at EVERY point it multiplies the point's 400 adjacency rows by the support, stores those 400 rows of the
  product into the resident output buffer and adds their column sums and column sums of squares to the
  statistics; at the LAST point it turns the statistics into a scale and a shift per column and rewrites the
  whole output buffer, 1000 rows at a time, as tanh(row · scale + shift).
  Here: the two tests decided over the grid, the staging memrefs the body is called with at a point, and the
  scoped buffers (the two scratch operands) as owned memrefs.
-/
import proofs.«152943_g16630113370191_cont_week2b_735_29_alg».proof.Proof.Gen.Kernel.Frame
import proofs.«152943_g16630113370191_cont_week2b_735_29_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The body's first test: the point's coordinate is 0. -/
abbrev atFirst (i : grid0.Coords) : Prop := (Scalar.cmpi .ne (Scalar.extui (Scalar.cmpi .eq (BitVec.ofNat 32 (i 0).val) 0#32)) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- The body's second test: the point's coordinate is 24. -/
abbrev atLast (i : grid0.Coords) : Prop := (Scalar.cmpi .ne (Scalar.extui (Scalar.cmpi .eq (BitVec.ofNat 32 (i 0).val) 24#32)) 0#32) = 1#1
/-- It holds at point 24 only. -/
theorem atLast_iff : ∀ t : Fin cfg0.N, atLast (grid0.coords t) ↔ t.val = 24 :=
  (by decide +kernel : ∀ t : Fin grid0.N, atLast (grid0.coords t) ↔ t.val = 24)

/-- Each window's current staging memref at point `t`, as the pipeline passes it, and its wholeness. -/
abbrev sm0 (t : Fin cfg0.N) : Memref sig .tc .vmem S10000x128 .f32 := win0_0.stage (cfg0.slots t 0)
abbrev hsm0 (t : Fin cfg0.N) : (sm0 t).IsWhole := hstage0_0 ((cfg0.slots t 0).cast nbuf0_0)
abbrev sm1 (t : Fin cfg0.N) : Memref sig .tc .vmem S16x128 .f32 := win0_1.stage (cfg0.slots t 1)
abbrev hsm1 (t : Fin cfg0.N) : (sm1 t).IsWhole := hstage0_1 ((cfg0.slots t 1).cast nbuf0_1)
abbrev sm2 (t : Fin cfg0.N) : Memref sig .tc .vmem S1x128 .f32 := win0_2.stage (cfg0.slots t 2)
abbrev hsm2 (t : Fin cfg0.N) : (sm2 t).IsWhole := hstage0_2 ((cfg0.slots t 2).cast nbuf0_2)
abbrev sm3 (t : Fin cfg0.N) : Memref sig .tc .vmem S1x128 .f32 := win0_3.stage (cfg0.slots t 3)
abbrev hsm3 (t : Fin cfg0.N) : (sm3 t).IsWhole := hstage0_3 ((cfg0.slots t 3).cast nbuf0_3)
abbrev sm4 (t : Fin cfg0.N) : Memref sig .tc .vmem S400x10000 .f32 := win0_4.stage (cfg0.slots t 4)
abbrev hsm4 (t : Fin cfg0.N) : (sm4 t).IsWhole := hstage0_4 ((cfg0.slots t 4).cast nbuf0_4)
abbrev sm5 (t : Fin cfg0.N) : Memref sig .tc .vmem S10000x128 .f32 := win0_5.stage (cfg0.slots t 5)
abbrev hsm5 (t : Fin cfg0.N) : (sm5 t).IsWhole := hstage0_5 ((cfg0.slots t 5).cast nbuf0_5)
/-- The scratch operands: the support (features times the Hamilton matrix) and the column statistics. -/
abbrev supM : Memref sig .tc .vmem S10000x128 .f32 := Memref.whole cc0_scratch0
abbrev statM : Memref sig .tc .vmem S8x128 .f32 := Memref.whole cc0_scratch1

/-- What the launch lends the body besides the windows: the two scratch operands, each owned at some contents,
    and the generator register at some state. -/
theorem scoped_eq (c : Dev nD) :
    (Pipeline.ΦA spec0 c : sProp 𝕄)
      = iprop(iprop((∃ d, owns (c : Thread nD τ) supM fullShare d) ∗ (∃ d, owns (c : Thread nD τ) statM fullShare d)) ∗ (∃ r, prngReg c r)) := by
  unfold Pipeline.ΦA; rw [scopedRest0_eq]; simp only [supM, statM, owns_whole]; try rfl

end Cert.Kernel.Layer

end
-- ==== Proof.BitsRunFirst.lean ====
/-
  The body at the FIRST grid point, run once on arbitrary whole memrefs: the five inputs at their blocks, the
  output buffer at whatever it holds, both scratch buffers at anything. It ends with the inputs as they were,
  the output buffer with rows 0..399 overwritten by the first 400 rows of adjacency·support, the support
  scratch stored whole, and the statistics scratch cleared and then given the first block's column sums.
  The stores are found by the symbolic run, as lists of pieces (last store first).
-/
import proofs.«152943_g16630113370191_cont_week2b_735_29_alg».proof.Proof.BitsSetup

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The first point's stores (output, support, statistics) with the run that leaves them. -/
noncomputable def runFirst (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : atFirst i) (hc1 : ¬atLast i)
    (x0 : Vec F S10000x128 .f32) (x1 : Vec F S16x128 .f32) (x2 : Vec F S1x128 .f32) (x3 : Vec F S1x128 .f32) (x4 : Vec F S400x10000 .f32) (x5 : Vec F S10000x128 .f32) :
    Σ' (L5 : List (View.Piece (Elt F) S10000x128 .f32)) (LS0 : List (View.Piece (Elt F) S10000x128 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread x5) L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, ?_, ?_, fun E K => ?run⟩
  case run =>
    simp only [cc0_fused_eq_skeleton]; unfold cc0_fused_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexists _; iexact HS0
    iexists _; iexact HS1

end Cert.Kernel.Layer

end
-- ==== Proof.BitsRunMid.lean ====
/-
  The body at a MIDDLE grid point (neither the first nor the last), run once on arbitrary whole memrefs: the
  inputs at their blocks, the output buffer at whatever it holds, the support scratch and the statistics scratch
  at what the point before left. It stores the point's 400 rows of adjacency·support into the output buffer at
  the point's row offset and adds their column sums and column sums of squares to the statistics. The support
  scratch is only read.
-/
import proofs.«152943_g16630113370191_cont_week2b_735_29_alg».proof.Proof.BitsSetup

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The point's stores (output, statistics) with the run that leaves them. -/
noncomputable def runMid (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : ¬atLast i)
    (x0 : Vec F S10000x128 .f32) (x1 : Vec F S16x128 .f32) (x2 : Vec F S1x128 .f32) (x3 : Vec F S1x128 .f32) (x4 : Vec F S400x10000 .f32) (x5 : Vec F S10000x128 .f32) (xs0 : Vec F S10000x128 .f32) (xs1 : Vec F S8x128 .f32) :
    Σ' (L5 : List (View.Piece (Elt F) S10000x128 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread x5) L5) ∗ owns (c : Thread nD τ) arg7 fullShare xs0 ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, ?_, fun E K => ?run⟩
  case run =>
    simp only [cc0_fused_eq_skeleton]; unfold cc0_fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    iexact HS1

end Cert.Kernel.Layer

end
-- ==== Proof.BitsRunLast.lean ====
/-
  The body at the LAST grid point, run once on arbitrary whole memrefs: the inputs at their blocks, the output
  buffer at whatever it holds, the support scratch and the statistics scratch at what the point before left.
  It stores the last 400 rows of adjacency·support into the output buffer, adds their column sums to the
  statistics, then reads the statistics back, forms the scale and the shift, and overwrites the output buffer
  in ten slabs of 1000 rows with tanh(row · scale + shift), each slab read from the buffer just before it is
  rewritten. The support scratch is only read.
-/
import proofs.«152943_g16630113370191_cont_week2b_735_29_alg».proof.Proof.BitsSetup

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The point's stores (output, statistics) with the run that leaves them. -/
noncomputable def runLast (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : atLast i)
    (x0 : Vec F S10000x128 .f32) (x1 : Vec F S16x128 .f32) (x2 : Vec F S1x128 .f32) (x3 : Vec F S1x128 .f32) (x4 : Vec F S400x10000 .f32) (x5 : Vec F S10000x128 .f32) (xs0 : Vec F S10000x128 .f32) (xs1 : Vec F S8x128 .f32) :
    Σ' (L5 : List (View.Piece (Elt F) S10000x128 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread x5) L5) ∗ owns (c : Thread nD τ) arg7 fullShare xs0 ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, ?_, fun E K => ?run⟩
  case run =>
    simp only [cc0_fused_eq_skeleton]; unfold cc0_fused_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    iexact HS1

end Cert.Kernel.Layer

end
-- ==== Proof.BitsData.lean ====
/-
  What the body leaves, point by point. The support scratch is written once, at the first point, and read at
  every point; the statistics scratch is cleared at the first point and grows by one block's column sums and
  column sums of squares at every point: both are NAMED after each point, by recursion on the point, through
  the stores the three runs found. The stores into the scratch buffers never read the output buffer, so there
  the runs are taken at a fixed array in its place (the feature block, which has the output's shape).
  The output buffer is resident: fetched never, written back after the last point only. At the first point it
  holds anything and only 400 of its rows are stored, so what it holds after a point cannot be named as a
  function of the launch memory alone; it is CONSTRAINED instead: what the body leaves is what it was handed
  with the point's stores written over it.
-/
import proofs.«152943_g16630113370191_cont_week2b_735_29_alg».proof.Proof.BitsRunFirst
import proofs.«152943_g16630113370191_cont_week2b_735_29_alg».proof.Proof.BitsRunMid
import proofs.«152943_g16630113370191_cont_week2b_735_29_alg».proof.Proof.BitsRunLast

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

/-- The first point's run at point `t` (which is 0), the output buffer handed in at `Y`. -/
abbrev firstAt (c : Dev nD) (t : Fin cfg0.N) (h0 : t.val = 0) (Y : Vec F S10000x128 .f32) :=
  runFirst c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) ((atFirst_iff t).mpr h0) (fun h => absurd ((atLast_iff t).mp h) (by omega)) (iblk m c 0 t) (iblk m c 1 t) (iblk m c 2 t) (iblk m c 3 t) (iblk m c 4 t) Y

/-- A middle point's run at point `t`, the output buffer handed in at `Y`, the scratch buffers at `s0`, `s1`. -/
abbrev midAt (c : Dev nD) (t : Fin cfg0.N) (h0 : t.val ≠ 0) (h1 : t.val ≠ 24) (Y : Vec F S10000x128 .f32) (s0 : Vec F S10000x128 .f32) (s1 : Vec F S8x128 .f32) :=
  runMid c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) (fun h => h0 ((atFirst_iff t).mp h)) (fun h => h1 ((atLast_iff t).mp h)) (iblk m c 0 t) (iblk m c 1 t) (iblk m c 2 t) (iblk m c 3 t) (iblk m c 4 t) Y s0 s1

/-- The last point's run at point `t` (which is 24). -/
abbrev lastAt (c : Dev nD) (t : Fin cfg0.N) (h0 : t.val ≠ 0) (h1 : t.val = 24) (Y : Vec F S10000x128 .f32) (s0 : Vec F S10000x128 .f32) (s1 : Vec F S8x128 .f32) :=
  runLast c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) (fun h => h0 ((atFirst_iff t).mp h)) ((atLast_iff t).mpr h1) (iblk m c 0 t) (iblk m c 1 t) (iblk m c 2 t) (iblk m c 3 t) (iblk m c 4 t) Y s0 s1

/-- The stores into the scratch buffers do not read the output buffer. -/
theorem firstAt_sup_indep (c : Dev nD) (t : Fin cfg0.N) (h0 : t.val = 0) (Y Y' : Vec F S10000x128 .f32) :
    (firstAt m c t h0 Y).2.1 = (firstAt m c t h0 Y').2.1 := by
  unfold firstAt runFirst; dsimp only
theorem firstAt_stat_indep (c : Dev nD) (t : Fin cfg0.N) (h0 : t.val = 0) (Y Y' : Vec F S10000x128 .f32) :
    (firstAt m c t h0 Y).2.2.1 = (firstAt m c t h0 Y').2.2.1 := by
  unfold firstAt runFirst; dsimp only
theorem midAt_stat_indep (c : Dev nD) (t : Fin cfg0.N) (h0 : t.val ≠ 0) (h1 : t.val ≠ 24) (Y Y' : Vec F S10000x128 .f32) (s0 : Vec F S10000x128 .f32) (s1 : Vec F S8x128 .f32) :
    (midAt m c t h0 h1 Y s0 s1).2.1 = (midAt m c t h0 h1 Y' s0 s1).2.1 := by
  unfold midAt runMid; dsimp only
theorem lastAt_stat_indep (c : Dev nD) (t : Fin cfg0.N) (h0 : t.val ≠ 0) (h1 : t.val = 24) (Y Y' : Vec F S10000x128 .f32) (s0 : Vec F S10000x128 .f32) (s1 : Vec F S8x128 .f32) :
    (lastAt m c t h0 h1 Y s0 s1).2.1 = (lastAt m c t h0 h1 Y' s0 s1).2.1 := by
  unfold lastAt runLast; dsimp only

/-! ## The scratch buffers after each point -/

/-- After point `n`: what the support scratch and the statistics scratch hold. The support is stored whole at
    point 0 and kept; the statistics are cleared and given block 0's sums at point 0, and given one more
    block's sums at every later point, over what the point before left. -/
def scrAt (c : Dev nD) : (n : ℕ) → n < cfg0.N → Vec F S10000x128 .f32 × Vec F S8x128 .f32
  | 0, hn =>
    (supM.view.read (Elt F) (supM.view.writes (Elt F) supM.view.junk (firstAt m c ⟨0, hn⟩ rfl (iblk m c 0 ⟨0, hn⟩)).2.1),
     statM.view.read (Elt F) (statM.view.writes (Elt F) statM.view.junk (firstAt m c ⟨0, hn⟩ rfl (iblk m c 0 ⟨0, hn⟩)).2.2.1))
  | n + 1, hn =>
    if h1 : n + 1 = 24 then
      ((scrAt c n (Nat.lt_of_succ_lt hn)).1,
       statM.view.read (Elt F) (statM.view.writes (Elt F) ((Memref.isWhole_whole _ : statM.IsWhole).unread (scrAt c n (Nat.lt_of_succ_lt hn)).2)
         (lastAt m c ⟨n + 1, hn⟩ (Nat.succ_ne_zero n) h1 (iblk m c 0 ⟨n + 1, hn⟩) (scrAt c n (Nat.lt_of_succ_lt hn)).1 (scrAt c n (Nat.lt_of_succ_lt hn)).2).2.1))
    else
      ((scrAt c n (Nat.lt_of_succ_lt hn)).1,
       statM.view.read (Elt F) (statM.view.writes (Elt F) ((Memref.isWhole_whole _ : statM.IsWhole).unread (scrAt c n (Nat.lt_of_succ_lt hn)).2)
         (midAt m c ⟨n + 1, hn⟩ (Nat.succ_ne_zero n) h1 (iblk m c 0 ⟨n + 1, hn⟩) (scrAt c n (Nat.lt_of_succ_lt hn)).1 (scrAt c n (Nat.lt_of_succ_lt hn)).2).2.1))

/-- The scratch contents the point before `t` left (for `t` not the first point). -/
abbrev prevScr (c : Dev nD) (t : Fin cfg0.N) : Vec F S10000x128 .f32 × Vec F S8x128 .f32 :=
  scrAt m c (t.val - 1) (Nat.lt_of_le_of_lt (Nat.sub_le _ _) t.isLt)

theorem scrAt_first (c : Dev nD) (t : Fin cfg0.N) (h0 : t.val = 0) :
    scrAt m c t.val t.isLt =
      (supM.view.read (Elt F) (supM.view.writes (Elt F) supM.view.junk (firstAt m c t h0 (iblk m c 0 t)).2.1),
       statM.view.read (Elt F) (statM.view.writes (Elt F) statM.view.junk (firstAt m c t h0 (iblk m c 0 t)).2.2.1)) := by
  obtain ⟨n, hn⟩ := t
  cases n with
  | zero => rfl
  | succ n => exact absurd h0 (Nat.succ_ne_zero n)

theorem scrAt_mid (c : Dev nD) (t : Fin cfg0.N) (h0 : t.val ≠ 0) (h1 : t.val ≠ 24) :
    scrAt m c t.val t.isLt =
      ((prevScr m c t).1,
       statM.view.read (Elt F) (statM.view.writes (Elt F) ((Memref.isWhole_whole _ : statM.IsWhole).unread (prevScr m c t).2)
         (midAt m c t h0 h1 (iblk m c 0 t) (prevScr m c t).1 (prevScr m c t).2).2.1)) := by
  obtain ⟨n, hn⟩ := t
  cases n with
  | zero => exact absurd rfl h0
  | succ n => exact (dif_neg h1).trans rfl

theorem scrAt_last (c : Dev nD) (t : Fin cfg0.N) (h0 : t.val ≠ 0) (h1 : t.val = 24) :
    scrAt m c t.val t.isLt =
      ((prevScr m c t).1,
       statM.view.read (Elt F) (statM.view.writes (Elt F) ((Memref.isWhole_whole _ : statM.IsWhole).unread (prevScr m c t).2)
         (lastAt m c t h0 h1 (iblk m c 0 t) (prevScr m c t).1 (prevScr m c t).2).2.1)) := by
  obtain ⟨n, hn⟩ := t
  cases n with
  | zero => exact absurd rfl h0
  | succ n => exact (dif_pos h1).trans rfl

/-- The first point's single store into the support scratch is the whole buffer. -/
theorem sup_cover (c : Dev nD) (t : Fin cfg0.N) (h0 : t.val = 0) (Y : Vec F S10000x128 .f32) (y : S10000x128.Idx) :
    ∃ pc ∈ (firstAt m c t h0 Y).2.1, y ∈ pc.1.set :=
  View.cover_of_tiledL (firstAt m c t h0 Y).2.1 S10000x128.size (by sl_kernel_rfl) y

/-- Among the first point's stores into the statistics scratch is one of the whole buffer (the clearing). -/
theorem stat_cover (c : Dev nD) (t : Fin cfg0.N) (h0 : t.val = 0) (Y : Vec F S10000x128 .f32) (y : S8x128.Idx) :
    ∃ pc ∈ (firstAt m c t h0 Y).2.2.1, y ∈ pc.1.set :=
  View.cover_of_wholeMem (firstAt m c t h0 Y).2.2.1 (by sl_whole_mem) y

/-! ## The invariant -/

/-- Before point `n`: at the first point what the launch lends (both scratch buffers at anything); afterwards the
    scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) supM fullShare ((scrAt m c n hn).1) ∗ owns (c : Thread nD τ) statM fullShare ((scrAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) supM fullShare ((scrAt m c n hn).1) ∗ owns (c : Thread nD τ) statM fullShare ((scrAt m c n hn).2)) ∗ (∃ r, prngReg c r)) := rfl

theorem PhiS_pos (c : Dev nD) (n : ℕ) (h : n ≤ cfg0.N) (hz : n ≠ 0) :
    PhiS m c n h = iprop(iprop(owns (c : Thread nD τ) supM fullShare ((scrAt m c (n - 1) (by omega)).1) ∗ owns (c : Thread nD τ) statM fullShare ((scrAt m c (n - 1) (by omega)).2)) ∗ (∃ r, prngReg c r)) := by
  cases n with
  | zero => exact absurd rfl hz
  | succ n => rfl

/-! ## The proof data -/

/-- The exact part of the data: the arrays as the region finds them; after the body each input's buffer at its
    block; the invariant; nothing owed; full shares. (The output window's entry here is a placeholder that nothing
    reads: its contents are constrained by `outRel` below.) -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The output buffer, constrained -/

/-- The stores of point `t` into the output buffer, when it is handed in at `Y`. -/
def outStores (c : Dev nD) (t : Fin cfg0.N) (Y : Vec F S10000x128 .f32) : List (View.Piece (Elt F) S10000x128 .f32) :=
  if h0 : t.val = 0 then (firstAt m c t h0 Y).1
  else if h1 : t.val = 24 then (lastAt m c t h0 h1 Y (prevScr m c t).1 (prevScr m c t).2).1
  else (midAt m c t h0 h1 Y (prevScr m c t).1 (prevScr m c t).2).1

/-- What the body may leave in the output buffer at point `t` (`X`), handed `Y`: `Y` with the point's stores
    written over it. -/
def outRel (c : Dev nD) (t : Fin cfg0.N) (Y X : Vec F S10000x128 .f32) : Prop :=
  X = (sm5 t).view.read (Elt F) ((sm5 t).view.writes (Elt F) ((hsm5 t).unread Y) (outStores m c t Y))

/-- The proof data: the exact data read relationally, the output window's relation replaced by `outRel`. -/
def rdat (c : Dev nD) : RDat τ (Elt F) Unit ℕ (UR sig nD τ) ℕ cfg0 c :=
  (dats m 0 c).toR.override fun w => match w with
    | ⟨0, _⟩ => none
    | ⟨1, _⟩ => none
    | ⟨2, _⟩ => none
    | ⟨3, _⟩ => none
    | ⟨4, _⟩ => none
    | ⟨5, _⟩ => some (outRel m c)

theorem rdat_A (c : Dev nD) (w : Fin cfg0.W) : (rdat m c).A w = V m c (Pipeline.arrRef spec0 w) := by
  show (dats m 0 c).A w = _; exact A_eq m c w

end Cert.Kernel.Layer

end
-- ==== Proof.BitsBody.lean ====
/-
  The body obligation. At a point the pipeline hands the body its windows' current staging buffers: each input's
  holds the input's block, the output's holds whatever the points before left (anything at the first point). By
  the point's place in the grid one of the three runs applies; it gives back the inputs as they were, the scratch
  buffers at the point's named contents, and the output buffer at what it was handed with the point's stores
  written over it, which is what the output window's relation asks.
-/
import proofs.«152943_g16630113370191_cont_week2b_735_29_alg».proof.Proof.BitsData

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch contents after the first point, through the run taken at ANY handed output contents. -/
theorem scrAt_first' (c : Dev nD) (t : Fin cfg0.N) (h0 : t.val = 0) (Y : Vec F S10000x128 .f32) :
    scrAt m c t.val t.isLt =
      (supM.view.read (Elt F) (supM.view.writes (Elt F) supM.view.junk (firstAt m c t h0 Y).2.1),
       statM.view.read (Elt F) (statM.view.writes (Elt F) statM.view.junk (firstAt m c t h0 Y).2.2.1)) :=
  (scrAt_first m c t h0).trans (congrArg₂ Prod.mk
    (congrArg (fun L => supM.view.read (Elt F) (supM.view.writes (Elt F) supM.view.junk L)) (firstAt_sup_indep m c t h0 (iblk m c 0 t) Y))
    (congrArg (fun L => statM.view.read (Elt F) (statM.view.writes (Elt F) statM.view.junk L)) (firstAt_stat_indep m c t h0 (iblk m c 0 t) Y)))

/-- Components of a pair named by an equation. -/
theorem fst_of_eq {α β : Type} {p : α × β} {a : α} {b : β} (h : p = (a, b)) : p.1 = a := by subst h; rfl
theorem snd_of_eq {α β : Type} {p : α × β} {a : α} {b : β} (h : p = (a, b)) : p.2 = b := by subst h; rfl

theorem scrAt_first_sup (c : Dev nD) (t : Fin cfg0.N) (h0 : t.val = 0) (Y : Vec F S10000x128 .f32) :
    (scrAt m c t.val t.isLt).1 = supM.view.read (Elt F) (supM.view.writes (Elt F) supM.view.junk (firstAt m c t h0 Y).2.1) :=
  fst_of_eq (scrAt_first' m c t h0 Y)

theorem scrAt_first_stat (c : Dev nD) (t : Fin cfg0.N) (h0 : t.val = 0) (Y : Vec F S10000x128 .f32) :
    (scrAt m c t.val t.isLt).2 = statM.view.read (Elt F) (statM.view.writes (Elt F) statM.view.junk (firstAt m c t h0 Y).2.2.1) :=
  snd_of_eq (scrAt_first' m c t h0 Y)

theorem scrAt_mid' (c : Dev nD) (t : Fin cfg0.N) (h0 : t.val ≠ 0) (h1 : t.val ≠ 24) (Y : Vec F S10000x128 .f32) :
    scrAt m c t.val t.isLt =
      ((prevScr m c t).1,
       statM.view.read (Elt F) (statM.view.writes (Elt F) ((Memref.isWhole_whole _ : statM.IsWhole).unread (prevScr m c t).2)
         (midAt m c t h0 h1 Y (prevScr m c t).1 (prevScr m c t).2).2.1)) := by
  rw [scrAt_mid m c t h0 h1, midAt_stat_indep m c t h0 h1 (iblk m c 0 t) Y]

theorem scrAt_last' (c : Dev nD) (t : Fin cfg0.N) (h0 : t.val ≠ 0) (h1 : t.val = 24) (Y : Vec F S10000x128 .f32) :
    scrAt m c t.val t.isLt =
      ((prevScr m c t).1,
       statM.view.read (Elt F) (statM.view.writes (Elt F) ((Memref.isWhole_whole _ : statM.IsWhole).unread (prevScr m c t).2)
         (lastAt m c t h0 h1 Y (prevScr m c t).1 (prevScr m c t).2).2.1)) := by
  rw [scrAt_last m c t h0 h1, lastAt_stat_indep m c t h0 h1 (iblk m c 0 t) Y]

/-- What the body is called with at point `t`, the output buffer at `Y5`. -/
def bodyPre (c : Dev nD) (t : Fin cfg0.N) (Y5 : Vec F S10000x128 .f32) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ owns (c : Thread nD τ) (sm5 t) fullShare Y5)

/-- and what it returns. -/
def bodyPost (c : Dev nD) (t : Fin cfg0.N) (Y5 : Vec F S10000x128 .f32) : sProp 𝕄 :=
  iprop((dats m 0 c).Φ t.succ ∗ (dats m 0 c).owesAt () t.succ
    ∗ owns (c : Thread nD τ) (sm0 t) fullShare ((dats m 0 c).after 0 t)
    ∗ owns (c : Thread nD τ) (sm1 t) fullShare ((dats m 0 c).after 1 t)
    ∗ owns (c : Thread nD τ) (sm2 t) fullShare ((dats m 0 c).after 2 t)
    ∗ owns (c : Thread nD τ) (sm3 t) fullShare ((dats m 0 c).after 3 t)
    ∗ owns (c : Thread nD τ) (sm4 t) fullShare ((dats m 0 c).after 4 t)
    ∗ (∃ X, ⌜outRel m c t Y5 X⌝ ∗ owns (c : Thread nD τ) (sm5 t) fullShare X))

set_option maxHeartbeats 9600000 in
/-- The body at any point, the output buffer handed in at any contents. -/
theorem sound_body (c : Dev nD) (t : Fin cfg0.N) (Y5 : Vec F S10000x128 .f32) :
    bodyPre m c t Y5 ⊢ wp frame (wpE (defs₀ (F := F)) Variants.none c none) Set.univ (bodyAt0 t) (fun _ => bodyPost m c t Y5) := by
  unfold bodyPre bodyPost bodyAt0
  simp only [before0, before1, before2, before3, before4]
  rw [show (dats m 0 c).owesAt () t.succ = (dats m 0 c).owesAt () t.castSucc from rfl,
    after0, after1, after2, after3, after4]
  rw [show (dats m 0 c).Φ t.succ = PhiS m c (t.val + 1) t.isLt from rfl, PhiS_succ]
  have hN : t.val < 25 := lt_of_lt_of_eq t.isLt (show cfg0.N = 25 from N_0)
  by_cases h0 : t.val = 0
  · rw [scrAt_first_sup m c t h0 Y5, scrAt_first_stat m c t h0 Y5,
      PhiS_castSucc m c t, PhiS_zero m c _ _ h0, scoped_eq]
    have eO : outStores m c t Y5 = (firstAt m c t h0 Y5).1 := by unfold outStores; rw [dif_pos h0]
    iintro ⟨⟨⟨HS0, HS1⟩, Hg⟩, Ho, ⟨%d0, H0⟩, ⟨%d1, H1⟩, ⟨%d2, H2⟩, ⟨%d3, H3⟩, ⟨%d4, H4⟩, H5⟩
    iapply ((firstAt m c t h0 Y5).2.2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (sup_cover m c t h0 Y5)
        unfold owns; iexists _; isplitr
        swap; · iexact HS1
        ipureintro; exact View.read_writes_of_cover _ _ _ _ _ (stat_cover m c t h0 Y5)
      iexact Hg
    isplitl [Ho]; · iexact Ho
    isplitl [H0]; · iexact H0
    isplitl [H1]; · iexact H1
    isplitl [H2]; · iexact H2
    isplitl [H3]; · iexact H3
    isplitl [H4]; · iexact H4
    iexists _; isplitr
    · ipureintro; unfold outRel; rw [eO]
    unfold owns; iexists _; isplitr
    swap; · iexact H5
    ipureintro; rfl
  · by_cases h1 : t.val = 24
    · rw [scrAt_last' m c t h0 h1 Y5, PhiS_castSucc m c t, PhiS_pos m c _ _ h0]
      have eO : outStores m c t Y5 = (lastAt m c t h0 h1 Y5 (prevScr m c t).1 (prevScr m c t).2).1 := by
        unfold outStores; rw [dif_neg h0, dif_pos h1]
      iintro ⟨⟨⟨HS0, HS1⟩, Hg⟩, Ho, ⟨%d0, H0⟩, ⟨%d1, H1⟩, ⟨%d2, H2⟩, ⟨%d3, H3⟩, ⟨%d4, H4⟩, H5⟩
      iapply ((lastAt m c t h0 h1 Y5 (prevScr m c t).1 (prevScr m c t).2).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; isplitr
      · ipureintro; unfold outRel; rw [eO]
      unfold owns; iexists _; isplitr
      swap; · iexact H5
      ipureintro; rfl
    · rw [scrAt_mid' m c t h0 h1 Y5, PhiS_castSucc m c t, PhiS_pos m c _ _ h0]
      have eO : outStores m c t Y5 = (midAt m c t h0 h1 Y5 (prevScr m c t).1 (prevScr m c t).2).1 := by
        unfold outStores; rw [dif_neg h0, dif_neg h1]
      iintro ⟨⟨⟨HS0, HS1⟩, Hg⟩, Ho, ⟨%d0, H0⟩, ⟨%d1, H1⟩, ⟨%d2, H2⟩, ⟨%d3, H3⟩, ⟨%d4, H4⟩, H5⟩
      iapply ((midAt m c t h0 h1 Y5 (prevScr m c t).1 (prevScr m c t).2).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; isplitr
      · ipureintro; unfold outRel; rw [eO]
      unfold owns; iexists _; isplitr
      swap; · iexact H5
      ipureintro; rfl

end Cert.Kernel.Layer

end
-- ==== Proof.BitsFrame.lean ====
/-
  The launch. The body obligation in the relational form the pipeline rule takes: whatever the windows' current
  buffers may hold when the body is called — an input's buffer holds its block; the output's holds something the
  points before may have left — the body runs to the next point's invariant and leaves each buffer in its window's
  relation to what it was handed. Then the run of the whole program: every weakly fair execution terminates, the
  argument arrays end unchanged, and the result array holds some contents the relation allows after the one
  write-back.
-/
import proofs.«152943_g16630113370191_cont_week2b_735_29_alg».proof.Proof.BitsBody

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's relation is the exact one: its buffer is left at the input's block. -/
theorem rdat_after_in (c : Dev nD) (w : Fin 6) (hw : w.val < 5) (t : Fin cfg0.N) (Y) : (rdat m c).after w t Y ((dats m 0 c).after w t) := by
  have e : (rdat m c).after w = (dats m 0 c).toR.after w := by
    match w, hw with
    | ⟨0, _⟩, _ => exact (dats m 0 c).toR.override_after_of_eq_none rfl
    | ⟨1, _⟩, _ => exact (dats m 0 c).toR.override_after_of_eq_none rfl
    | ⟨2, _⟩, _ => exact (dats m 0 c).toR.override_after_of_eq_none rfl
    | ⟨3, _⟩, _ => exact (dats m 0 c).toR.override_after_of_eq_none rfl
    | ⟨4, _⟩, _ => exact (dats m 0 c).toR.override_after_of_eq_none rfl
  rw [e]
  show (dats m 0 c).Leaves w t _
  exact (Pipeline.Dat.Leaves.live_iff (dats m 0 c) (Or.inl rfl)).mpr rfl

/-- The output window's relation is `outRel`. -/
theorem rdat_after_out (c : Dev nD) : (rdat m c).after 5 = outRel m c :=
  (dats m 0 c).toR.override_after_of_eq_some rfl

set_option maxHeartbeats 4000000 in
/-- The body obligation, relational. -/
theorem body_obligation (c : Dev nD) : (rdat m c).BodyObligation (defs₀ (F := F)) Variants.none () Set.univ := fun t Y hY => by
  obtain ⟨d0, hd0⟩ := (dats m 0 c).toR_finds 0 t (Y 0) (((dats m 0 c).toR.override_finds (w := (0 : Fin 6)) rfl t (Y 0)).mp (hY 0))
  obtain ⟨d1, hd1⟩ := (dats m 0 c).toR_finds 1 t (Y 1) (((dats m 0 c).toR.override_finds (w := (1 : Fin 6)) rfl t (Y 1)).mp (hY 1))
  obtain ⟨d2, hd2⟩ := (dats m 0 c).toR_finds 2 t (Y 2) (((dats m 0 c).toR.override_finds (w := (2 : Fin 6)) rfl t (Y 2)).mp (hY 2))
  obtain ⟨d3, hd3⟩ := (dats m 0 c).toR_finds 3 t (Y 3) (((dats m 0 c).toR.override_finds (w := (3 : Fin 6)) rfl t (Y 3)).mp (hY 3))
  obtain ⟨d4, hd4⟩ := (dats m 0 c).toR_finds 4 t (Y 4) (((dats m 0 c).toR.override_finds (w := (4 : Fin 6)) rfl t (Y 4)).mp (hY 4))
  have hpre : iprop((dats m 0 c).Φ t.castSucc ∗ (dats m 0 c).owesAt () t.castSucc
        ∗ bigSep Finset.univ fun w : Fin cfg0.W => owns c ((cfg0.win w).stage (cfg0.slots t w)) fullShare (Y w))
      ⊢ bodyPre m c t (Y 5) := by
    rw [bigSep_W0]; unfold bodyPre
    iintro ⟨HΦ, Ho, H0, H1, H2, H3, H4, H5⟩
    isplitl [HΦ]; · iexact HΦ
    isplitl [Ho]; · iexact Ho
    isplitl [H0]; · iexists d0; rw [← hd0]; iexact H0
    isplitl [H1]; · iexists d1; rw [← hd1]; iexact H1
    isplitl [H2]; · iexists d2; rw [← hd2]; iexact H2
    isplitl [H3]; · iexists d3; rw [← hd3]; iexact H3
    isplitl [H4]; · iexists d4; rw [← hd4]; iexact H4
    iexact H5
  have hpost : ∀ x : PUnit, bodyPost m c t (Y 5)
      ⊢ iprop((dats m 0 c).Φ t.succ ∗ (dats m 0 c).owesAt () t.succ
          ∗ bigSep Finset.univ fun w : Fin cfg0.W =>
              iprop(∃ X, ⌜(rdat m c).after w t (Y w) X⌝ ∗ owns c ((cfg0.win w).stage (cfg0.slots t w)) fullShare X)) := fun _ => by
    rw [bigSep_W0]; unfold bodyPost
    iintro ⟨HΦ, Ho, H0, H1, H2, H3, H4, ⟨%X, %hX, H5⟩⟩
    isplitl [HΦ]; · iexact HΦ
    isplitl [Ho]; · iexact Ho
    isplitl [H0]
    · iexists _; isplitr; · ipureintro; exact rdat_after_in m c 0 (by decide) t (Y 0)
      iexact H0
    isplitl [H1]
    · iexists _; isplitr; · ipureintro; exact rdat_after_in m c 1 (by decide) t (Y 1)
      iexact H1
    isplitl [H2]
    · iexists _; isplitr; · ipureintro; exact rdat_after_in m c 2 (by decide) t (Y 2)
      iexact H2
    isplitl [H3]
    · iexists _; isplitr; · ipureintro; exact rdat_after_in m c 3 (by decide) t (Y 3)
      iexact H3
    isplitl [H4]
    · iexists _; isplitr; · ipureintro; exact rdat_after_in m c 4 (by decide) t (Y 4)
      iexact H4
    iexists X; isplitr
    · ipureintro; rw [rdat_after_out m c]; exact hX
    iexact H5
  exact hpre.trans ((sound_body m c t (Y 5)).trans (wp_mono _ _ _ hpost))

/-- What the launch hands the region is the invariant before the first point. -/
theorem hin (c : Dev nD) : Pipeline.ΦA spec0 c ⊢ (rdat m c).Φ 0 := by
  show _ ⊢ PhiS m c 0 (Nat.zero_le _)
  rw [PhiS_zero m c 0 _ rfl]
  try exact Idealize.SL.BI.Entails.refl _

/-- After the last point the invariant gives the scoped buffers back, their named contents forgotten. -/
theorem hout (c : Dev nD) : (rdat m c).Φ (Fin.last cfg0.N) ⊢ Pipeline.ΦA spec0 c := by
  show PhiS m c (Fin.last cfg0.N).val (Nat.le_of_lt_succ (Fin.last cfg0.N).isLt) ⊢ _
  rw [PhiS_pos m c _ _ (by rw [Fin.val_last]; have : cfg0.N = 25 := N_0; omega), scoped_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every weakly fair execution of the program terminates; each windowed array ends at contents its
    window's relation allows after the write-backs (an input: as launched), every other buffer as the region
    found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Eq.mp (congrFun ((rdat m c).ArrAt_in 0 rfl _) _) ((h c).1 0)).trans ((rdat_A m c 0).trans (V_main_arg0 m c)),
      (Eq.mp (congrFun ((rdat m c).ArrAt_in 4 rfl _) _) ((h c).1 4)).trans ((rdat_A m c 4).trans (V_main_arg1 m c)),
      (Eq.mp (congrFun ((rdat m c).ArrAt_in 1 rfl _) _) ((h c).1 1)).trans ((rdat_A m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Layer

end
-- ==== Proof.IdealSetup.lean ====
/-
  The graph layer's kernel body, shared set-up. The grid has 25 points, one per block of 400 adjacency rows.
  Two tests on the point steer the body: at the FIRST point it builds the Hamilton matrix, multiplies the
  features by it into a scratch (the "support", kept for every later point) and clears the column statistics;
  at EVERY point it multiplies the point's 400 adjacency rows by the support, stores those 400 rows of the
  product into the resident output buffer and adds their column sums and column sums of squares to the
  statistics; at the LAST point it turns the statistics into a scale and a shift per column and rewrites the
  whole output buffer, 1000 rows at a time, as tanh(row · scale + shift).
  Here: the two tests decided over the grid, the staging memrefs the body is called with at a point, and the
  scoped buffers (the two scratch operands) as owned memrefs.
-/
import proofs.«152943_g16630113370191_cont_week2b_735_29_alg».proof.Proof.Gen.KernelIdeal.Frame
import proofs.«152943_g16630113370191_cont_week2b_735_29_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The body's first test: the point's coordinate is 0. -/
abbrev atFirst (i : grid0.Coords) : Prop := (Scalar.cmpi .ne (Scalar.extui (Scalar.cmpi .eq (BitVec.ofNat 32 (i 0).val) 0#32)) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- The body's second test: the point's coordinate is 24. -/
abbrev atLast (i : grid0.Coords) : Prop := (Scalar.cmpi .ne (Scalar.extui (Scalar.cmpi .eq (BitVec.ofNat 32 (i 0).val) 24#32)) 0#32) = 1#1
/-- It holds at point 24 only. -/
theorem atLast_iff : ∀ t : Fin cfg0.N, atLast (grid0.coords t) ↔ t.val = 24 :=
  (by decide +kernel : ∀ t : Fin grid0.N, atLast (grid0.coords t) ↔ t.val = 24)

/-- Each window's current staging memref at point `t`, as the pipeline passes it, and its wholeness. -/
abbrev sm0 (t : Fin cfg0.N) : Memref sig .tc .vmem S10000x128 .f32 := win0_0.stage (cfg0.slots t 0)
abbrev hsm0 (t : Fin cfg0.N) : (sm0 t).IsWhole := hstage0_0 ((cfg0.slots t 0).cast nbuf0_0)
abbrev sm1 (t : Fin cfg0.N) : Memref sig .tc .vmem S16x128 .f32 := win0_1.stage (cfg0.slots t 1)
abbrev hsm1 (t : Fin cfg0.N) : (sm1 t).IsWhole := hstage0_1 ((cfg0.slots t 1).cast nbuf0_1)
abbrev sm2 (t : Fin cfg0.N) : Memref sig .tc .vmem S1x128 .f32 := win0_2.stage (cfg0.slots t 2)
abbrev hsm2 (t : Fin cfg0.N) : (sm2 t).IsWhole := hstage0_2 ((cfg0.slots t 2).cast nbuf0_2)
abbrev sm3 (t : Fin cfg0.N) : Memref sig .tc .vmem S1x128 .f32 := win0_3.stage (cfg0.slots t 3)
abbrev hsm3 (t : Fin cfg0.N) : (sm3 t).IsWhole := hstage0_3 ((cfg0.slots t 3).cast nbuf0_3)
abbrev sm4 (t : Fin cfg0.N) : Memref sig .tc .vmem S400x10000 .f32 := win0_4.stage (cfg0.slots t 4)
abbrev hsm4 (t : Fin cfg0.N) : (sm4 t).IsWhole := hstage0_4 ((cfg0.slots t 4).cast nbuf0_4)
abbrev sm5 (t : Fin cfg0.N) : Memref sig .tc .vmem S10000x128 .f32 := win0_5.stage (cfg0.slots t 5)
abbrev hsm5 (t : Fin cfg0.N) : (sm5 t).IsWhole := hstage0_5 ((cfg0.slots t 5).cast nbuf0_5)
/-- The scratch operands: the support (features times the Hamilton matrix) and the column statistics. -/
abbrev supM : Memref sig .tc .vmem S10000x128 .f32 := Memref.whole cc0_scratch0
abbrev statM : Memref sig .tc .vmem S8x128 .f32 := Memref.whole cc0_scratch1

/-- What the launch lends the body besides the windows: the two scratch operands, each owned at some contents,
    and the generator register at some state. -/
theorem scoped_eq (c : Dev nD) :
    (Pipeline.ΦA spec0 c : sProp 𝕄)
      = iprop(iprop((∃ d, owns (c : Thread nD τ) supM fullShare d) ∗ (∃ d, owns (c : Thread nD τ) statM fullShare d)) ∗ (∃ r, prngReg c r)) := by
  unfold Pipeline.ΦA; rw [scopedRest0_eq]; simp only [supM, statM, owns_whole]; try rfl

end Cert.KernelIdeal.Layer

end
-- ==== Proof.IdealRunFirst.lean ====
/-
  The body at the FIRST grid point, run once on arbitrary whole memrefs: the five inputs at their blocks, the
  output buffer at whatever it holds, both scratch buffers at anything. It ends with the inputs as they were,
  the output buffer with rows 0..399 overwritten by the first 400 rows of adjacency·support, the support
  scratch stored whole, and the statistics scratch cleared and then given the first block's column sums.
  The stores are found by the symbolic run, as lists of pieces (last store first).
-/
import proofs.«152943_g16630113370191_cont_week2b_735_29_alg».proof.Proof.IdealSetup

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point's stores (output, support, statistics) with the run that leaves them. -/
noncomputable def runFirst (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : atFirst i) (hc1 : ¬atLast i)
    (x0 : Vec F S10000x128 .f32) (x1 : Vec F S16x128 .f32) (x2 : Vec F S1x128 .f32) (x3 : Vec F S1x128 .f32) (x4 : Vec F S400x10000 .f32) (x5 : Vec F S10000x128 .f32) :
    Σ' (L5 : List (View.Piece (Elt F) S10000x128 .f32)) (LS0 : List (View.Piece (Elt F) S10000x128 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread x5) L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, ?_, ?_, fun E K => ?run⟩
  case run =>
    simp only [cc0_fused_eq_skeleton]; unfold cc0_fused_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexists _; iexact HS0
    iexists _; iexact HS1

end Cert.KernelIdeal.Layer

end
-- ==== Proof.IdealRunMid.lean ====
/-
  The body at a MIDDLE grid point (neither the first nor the last), run once on arbitrary whole memrefs: the
  inputs at their blocks, the output buffer at whatever it holds, the support scratch and the statistics scratch
  at what the point before left. It stores the point's 400 rows of adjacency·support into the output buffer at
  the point's row offset and adds their column sums and column sums of squares to the statistics. The support
  scratch is only read.
-/
import proofs.«152943_g16630113370191_cont_week2b_735_29_alg».proof.Proof.IdealSetup

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The point's stores (output, statistics) with the run that leaves them. -/
noncomputable def runMid (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : ¬atLast i)
    (x0 : Vec F S10000x128 .f32) (x1 : Vec F S16x128 .f32) (x2 : Vec F S1x128 .f32) (x3 : Vec F S1x128 .f32) (x4 : Vec F S400x10000 .f32) (x5 : Vec F S10000x128 .f32) (xs0 : Vec F S10000x128 .f32) (xs1 : Vec F S8x128 .f32) :
    Σ' (L5 : List (View.Piece (Elt F) S10000x128 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread x5) L5) ∗ owns (c : Thread nD τ) arg7 fullShare xs0 ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, ?_, fun E K => ?run⟩
  case run =>
    simp only [cc0_fused_eq_skeleton]; unfold cc0_fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    iexact HS1

end Cert.KernelIdeal.Layer

end
-- ==== Proof.IdealRunLast.lean ====
/-
  The body at the LAST grid point, run once on arbitrary whole memrefs: the inputs at their blocks, the output
  buffer at whatever it holds, the support scratch and the statistics scratch at what the point before left.
  It stores the last 400 rows of adjacency·support into the output buffer, adds their column sums to the
  statistics, then reads the statistics back, forms the scale and the shift, and overwrites the output buffer
  in ten slabs of 1000 rows with tanh(row · scale + shift), each slab read from the buffer just before it is
  rewritten. The support scratch is only read.
-/
import proofs.«152943_g16630113370191_cont_week2b_735_29_alg».proof.Proof.IdealSetup

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The point's stores (output, statistics) with the run that leaves them. -/
noncomputable def runLast (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : atLast i)
    (x0 : Vec F S10000x128 .f32) (x1 : Vec F S16x128 .f32) (x2 : Vec F S1x128 .f32) (x3 : Vec F S1x128 .f32) (x4 : Vec F S400x10000 .f32) (x5 : Vec F S10000x128 .f32) (xs0 : Vec F S10000x128 .f32) (xs1 : Vec F S8x128 .f32) :
    Σ' (L5 : List (View.Piece (Elt F) S10000x128 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread x5) L5) ∗ owns (c : Thread nD τ) arg7 fullShare xs0 ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, ?_, fun E K => ?run⟩
  case run =>
    simp only [cc0_fused_eq_skeleton]; unfold cc0_fused_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    iexact HS1

end Cert.KernelIdeal.Layer

end
-- ==== Proof.IdealData.lean ====
/-
  What the body leaves, point by point. The support scratch is written once, at the first point, and read at
  every point; the statistics scratch is cleared at the first point and grows by one block's column sums and
  column sums of squares at every point: both are NAMED after each point, by recursion on the point, through
  the stores the three runs found. The stores into the scratch buffers never read the output buffer, so there
  the runs are taken at a fixed array in its place (the feature block, which has the output's shape).
  The output buffer is resident: fetched never, written back after the last point only. At the first point it
  holds anything and only 400 of its rows are stored, so what it holds after a point cannot be named as a
  function of the launch memory alone; it is CONSTRAINED instead: what the body leaves is what it was handed
  with the point's stores written over it.
-/
import proofs.«152943_g16630113370191_cont_week2b_735_29_alg».proof.Proof.IdealRunFirst
import proofs.«152943_g16630113370191_cont_week2b_735_29_alg».proof.Proof.IdealRunMid
import proofs.«152943_g16630113370191_cont_week2b_735_29_alg».proof.Proof.IdealRunLast

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

/-- The first point's run at point `t` (which is 0), the output buffer handed in at `Y`. -/
abbrev firstAt (c : Dev nD) (t : Fin cfg0.N) (h0 : t.val = 0) (Y : Vec F S10000x128 .f32) :=
  runFirst c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) ((atFirst_iff t).mpr h0) (fun h => absurd ((atLast_iff t).mp h) (by omega)) (iblk m c 0 t) (iblk m c 1 t) (iblk m c 2 t) (iblk m c 3 t) (iblk m c 4 t) Y

/-- A middle point's run at point `t`, the output buffer handed in at `Y`, the scratch buffers at `s0`, `s1`. -/
abbrev midAt (c : Dev nD) (t : Fin cfg0.N) (h0 : t.val ≠ 0) (h1 : t.val ≠ 24) (Y : Vec F S10000x128 .f32) (s0 : Vec F S10000x128 .f32) (s1 : Vec F S8x128 .f32) :=
  runMid c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) (fun h => h0 ((atFirst_iff t).mp h)) (fun h => h1 ((atLast_iff t).mp h)) (iblk m c 0 t) (iblk m c 1 t) (iblk m c 2 t) (iblk m c 3 t) (iblk m c 4 t) Y s0 s1

/-- The last point's run at point `t` (which is 24). -/
abbrev lastAt (c : Dev nD) (t : Fin cfg0.N) (h0 : t.val ≠ 0) (h1 : t.val = 24) (Y : Vec F S10000x128 .f32) (s0 : Vec F S10000x128 .f32) (s1 : Vec F S8x128 .f32) :=
  runLast c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) (fun h => h0 ((atFirst_iff t).mp h)) ((atLast_iff t).mpr h1) (iblk m c 0 t) (iblk m c 1 t) (iblk m c 2 t) (iblk m c 3 t) (iblk m c 4 t) Y s0 s1

/-- The stores into the scratch buffers do not read the output buffer. -/
theorem firstAt_sup_indep (c : Dev nD) (t : Fin cfg0.N) (h0 : t.val = 0) (Y Y' : Vec F S10000x128 .f32) :
    (firstAt m c t h0 Y).2.1 = (firstAt m c t h0 Y').2.1 := by
  unfold firstAt runFirst; dsimp only
theorem firstAt_stat_indep (c : Dev nD) (t : Fin cfg0.N) (h0 : t.val = 0) (Y Y' : Vec F S10000x128 .f32) :
    (firstAt m c t h0 Y).2.2.1 = (firstAt m c t h0 Y').2.2.1 := by
  unfold firstAt runFirst; dsimp only
theorem midAt_stat_indep (c : Dev nD) (t : Fin cfg0.N) (h0 : t.val ≠ 0) (h1 : t.val ≠ 24) (Y Y' : Vec F S10000x128 .f32) (s0 : Vec F S10000x128 .f32) (s1 : Vec F S8x128 .f32) :
    (midAt m c t h0 h1 Y s0 s1).2.1 = (midAt m c t h0 h1 Y' s0 s1).2.1 := by
  unfold midAt runMid; dsimp only
theorem lastAt_stat_indep (c : Dev nD) (t : Fin cfg0.N) (h0 : t.val ≠ 0) (h1 : t.val = 24) (Y Y' : Vec F S10000x128 .f32) (s0 : Vec F S10000x128 .f32) (s1 : Vec F S8x128 .f32) :
    (lastAt m c t h0 h1 Y s0 s1).2.1 = (lastAt m c t h0 h1 Y' s0 s1).2.1 := by
  unfold lastAt runLast; dsimp only

/-! ## The scratch buffers after each point -/

/-- After point `n`: what the support scratch and the statistics scratch hold. The support is stored whole at
    point 0 and kept; the statistics are cleared and given block 0's sums at point 0, and given one more
    block's sums at every later point, over what the point before left. -/
def scrAt (c : Dev nD) : (n : ℕ) → n < cfg0.N → Vec F S10000x128 .f32 × Vec F S8x128 .f32
  | 0, hn =>
    (supM.view.read (Elt F) (supM.view.writes (Elt F) supM.view.junk (firstAt m c ⟨0, hn⟩ rfl (iblk m c 0 ⟨0, hn⟩)).2.1),
     statM.view.read (Elt F) (statM.view.writes (Elt F) statM.view.junk (firstAt m c ⟨0, hn⟩ rfl (iblk m c 0 ⟨0, hn⟩)).2.2.1))
  | n + 1, hn =>
    if h1 : n + 1 = 24 then
      ((scrAt c n (Nat.lt_of_succ_lt hn)).1,
       statM.view.read (Elt F) (statM.view.writes (Elt F) ((Memref.isWhole_whole _ : statM.IsWhole).unread (scrAt c n (Nat.lt_of_succ_lt hn)).2)
         (lastAt m c ⟨n + 1, hn⟩ (Nat.succ_ne_zero n) h1 (iblk m c 0 ⟨n + 1, hn⟩) (scrAt c n (Nat.lt_of_succ_lt hn)).1 (scrAt c n (Nat.lt_of_succ_lt hn)).2).2.1))
    else
      ((scrAt c n (Nat.lt_of_succ_lt hn)).1,
       statM.view.read (Elt F) (statM.view.writes (Elt F) ((Memref.isWhole_whole _ : statM.IsWhole).unread (scrAt c n (Nat.lt_of_succ_lt hn)).2)
         (midAt m c ⟨n + 1, hn⟩ (Nat.succ_ne_zero n) h1 (iblk m c 0 ⟨n + 1, hn⟩) (scrAt c n (Nat.lt_of_succ_lt hn)).1 (scrAt c n (Nat.lt_of_succ_lt hn)).2).2.1))

/-- The scratch contents the point before `t` left (for `t` not the first point). -/
abbrev prevScr (c : Dev nD) (t : Fin cfg0.N) : Vec F S10000x128 .f32 × Vec F S8x128 .f32 :=
  scrAt m c (t.val - 1) (Nat.lt_of_le_of_lt (Nat.sub_le _ _) t.isLt)

theorem scrAt_first (c : Dev nD) (t : Fin cfg0.N) (h0 : t.val = 0) :
    scrAt m c t.val t.isLt =
      (supM.view.read (Elt F) (supM.view.writes (Elt F) supM.view.junk (firstAt m c t h0 (iblk m c 0 t)).2.1),
       statM.view.read (Elt F) (statM.view.writes (Elt F) statM.view.junk (firstAt m c t h0 (iblk m c 0 t)).2.2.1)) := by
  obtain ⟨n, hn⟩ := t
  cases n with
  | zero => rfl
  | succ n => exact absurd h0 (Nat.succ_ne_zero n)

theorem scrAt_mid (c : Dev nD) (t : Fin cfg0.N) (h0 : t.val ≠ 0) (h1 : t.val ≠ 24) :
    scrAt m c t.val t.isLt =
      ((prevScr m c t).1,
       statM.view.read (Elt F) (statM.view.writes (Elt F) ((Memref.isWhole_whole _ : statM.IsWhole).unread (prevScr m c t).2)
         (midAt m c t h0 h1 (iblk m c 0 t) (prevScr m c t).1 (prevScr m c t).2).2.1)) := by
  obtain ⟨n, hn⟩ := t
  cases n with
  | zero => exact absurd rfl h0
  | succ n => exact (dif_neg h1).trans rfl

theorem scrAt_last (c : Dev nD) (t : Fin cfg0.N) (h0 : t.val ≠ 0) (h1 : t.val = 24) :
    scrAt m c t.val t.isLt =
      ((prevScr m c t).1,
       statM.view.read (Elt F) (statM.view.writes (Elt F) ((Memref.isWhole_whole _ : statM.IsWhole).unread (prevScr m c t).2)
         (lastAt m c t h0 h1 (iblk m c 0 t) (prevScr m c t).1 (prevScr m c t).2).2.1)) := by
  obtain ⟨n, hn⟩ := t
  cases n with
  | zero => exact absurd rfl h0
  | succ n => exact (dif_pos h1).trans rfl

/-- The first point's single store into the support scratch is the whole buffer. -/
theorem sup_cover (c : Dev nD) (t : Fin cfg0.N) (h0 : t.val = 0) (Y : Vec F S10000x128 .f32) (y : S10000x128.Idx) :
    ∃ pc ∈ (firstAt m c t h0 Y).2.1, y ∈ pc.1.set :=
  View.cover_of_tiledL (firstAt m c t h0 Y).2.1 S10000x128.size (by sl_kernel_rfl) y

/-- Among the first point's stores into the statistics scratch is one of the whole buffer (the clearing). -/
theorem stat_cover (c : Dev nD) (t : Fin cfg0.N) (h0 : t.val = 0) (Y : Vec F S10000x128 .f32) (y : S8x128.Idx) :
    ∃ pc ∈ (firstAt m c t h0 Y).2.2.1, y ∈ pc.1.set :=
  View.cover_of_wholeMem (firstAt m c t h0 Y).2.2.1 (by sl_whole_mem) y

/-! ## The invariant -/

/-- Before point `n`: at the first point what the launch lends (both scratch buffers at anything); afterwards the
    scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) supM fullShare ((scrAt m c n hn).1) ∗ owns (c : Thread nD τ) statM fullShare ((scrAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) supM fullShare ((scrAt m c n hn).1) ∗ owns (c : Thread nD τ) statM fullShare ((scrAt m c n hn).2)) ∗ (∃ r, prngReg c r)) := rfl

theorem PhiS_pos (c : Dev nD) (n : ℕ) (h : n ≤ cfg0.N) (hz : n ≠ 0) :
    PhiS m c n h = iprop(iprop(owns (c : Thread nD τ) supM fullShare ((scrAt m c (n - 1) (by omega)).1) ∗ owns (c : Thread nD τ) statM fullShare ((scrAt m c (n - 1) (by omega)).2)) ∗ (∃ r, prngReg c r)) := by
  cases n with
  | zero => exact absurd rfl hz
  | succ n => rfl

/-! ## The proof data -/

/-- The exact part of the data: the arrays as the region finds them; after the body each input's buffer at its
    block; the invariant; nothing owed; full shares. (The output window's entry here is a placeholder that nothing
    reads: its contents are constrained by `outRel` below.) -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The output buffer, constrained -/

/-- The stores of point `t` into the output buffer, when it is handed in at `Y`. -/
def outStores (c : Dev nD) (t : Fin cfg0.N) (Y : Vec F S10000x128 .f32) : List (View.Piece (Elt F) S10000x128 .f32) :=
  if h0 : t.val = 0 then (firstAt m c t h0 Y).1
  else if h1 : t.val = 24 then (lastAt m c t h0 h1 Y (prevScr m c t).1 (prevScr m c t).2).1
  else (midAt m c t h0 h1 Y (prevScr m c t).1 (prevScr m c t).2).1

/-- What the body may leave in the output buffer at point `t` (`X`), handed `Y`: `Y` with the point's stores
    written over it. -/
def outRel (c : Dev nD) (t : Fin cfg0.N) (Y X : Vec F S10000x128 .f32) : Prop :=
  X = (sm5 t).view.read (Elt F) ((sm5 t).view.writes (Elt F) ((hsm5 t).unread Y) (outStores m c t Y))

/-- The proof data: the exact data read relationally, the output window's relation replaced by `outRel`. -/
def rdat (c : Dev nD) : RDat τ (Elt F) Unit ℕ (UR sig nD τ) ℕ cfg0 c :=
  (dats m 0 c).toR.override fun w => match w with
    | ⟨0, _⟩ => none
    | ⟨1, _⟩ => none
    | ⟨2, _⟩ => none
    | ⟨3, _⟩ => none
    | ⟨4, _⟩ => none
    | ⟨5, _⟩ => some (outRel m c)

theorem rdat_A (c : Dev nD) (w : Fin cfg0.W) : (rdat m c).A w = V m c (Pipeline.arrRef spec0 w) := by
  show (dats m 0 c).A w = _; exact A_eq m c w

end Cert.KernelIdeal.Layer

end
-- ==== Proof.IdealBody.lean ====
/-
  The body obligation. At a point the pipeline hands the body its windows' current staging buffers: each input's
  holds the input's block, the output's holds whatever the points before left (anything at the first point). By
  the point's place in the grid one of the three runs applies; it gives back the inputs as they were, the scratch
  buffers at the point's named contents, and the output buffer at what it was handed with the point's stores
  written over it, which is what the output window's relation asks.
-/
import proofs.«152943_g16630113370191_cont_week2b_735_29_alg».proof.Proof.IdealData

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch contents after the first point, through the run taken at ANY handed output contents. -/
theorem scrAt_first' (c : Dev nD) (t : Fin cfg0.N) (h0 : t.val = 0) (Y : Vec F S10000x128 .f32) :
    scrAt m c t.val t.isLt =
      (supM.view.read (Elt F) (supM.view.writes (Elt F) supM.view.junk (firstAt m c t h0 Y).2.1),
       statM.view.read (Elt F) (statM.view.writes (Elt F) statM.view.junk (firstAt m c t h0 Y).2.2.1)) :=
  (scrAt_first m c t h0).trans (congrArg₂ Prod.mk
    (congrArg (fun L => supM.view.read (Elt F) (supM.view.writes (Elt F) supM.view.junk L)) (firstAt_sup_indep m c t h0 (iblk m c 0 t) Y))
    (congrArg (fun L => statM.view.read (Elt F) (statM.view.writes (Elt F) statM.view.junk L)) (firstAt_stat_indep m c t h0 (iblk m c 0 t) Y)))

/-- Components of a pair named by an equation. -/
theorem fst_of_eq {α β : Type} {p : α × β} {a : α} {b : β} (h : p = (a, b)) : p.1 = a := by subst h; rfl
theorem snd_of_eq {α β : Type} {p : α × β} {a : α} {b : β} (h : p = (a, b)) : p.2 = b := by subst h; rfl

theorem scrAt_first_sup (c : Dev nD) (t : Fin cfg0.N) (h0 : t.val = 0) (Y : Vec F S10000x128 .f32) :
    (scrAt m c t.val t.isLt).1 = supM.view.read (Elt F) (supM.view.writes (Elt F) supM.view.junk (firstAt m c t h0 Y).2.1) :=
  fst_of_eq (scrAt_first' m c t h0 Y)

theorem scrAt_first_stat (c : Dev nD) (t : Fin cfg0.N) (h0 : t.val = 0) (Y : Vec F S10000x128 .f32) :
    (scrAt m c t.val t.isLt).2 = statM.view.read (Elt F) (statM.view.writes (Elt F) statM.view.junk (firstAt m c t h0 Y).2.2.1) :=
  snd_of_eq (scrAt_first' m c t h0 Y)

theorem scrAt_mid' (c : Dev nD) (t : Fin cfg0.N) (h0 : t.val ≠ 0) (h1 : t.val ≠ 24) (Y : Vec F S10000x128 .f32) :
    scrAt m c t.val t.isLt =
      ((prevScr m c t).1,
       statM.view.read (Elt F) (statM.view.writes (Elt F) ((Memref.isWhole_whole _ : statM.IsWhole).unread (prevScr m c t).2)
         (midAt m c t h0 h1 Y (prevScr m c t).1 (prevScr m c t).2).2.1)) := by
  rw [scrAt_mid m c t h0 h1, midAt_stat_indep m c t h0 h1 (iblk m c 0 t) Y]

theorem scrAt_last' (c : Dev nD) (t : Fin cfg0.N) (h0 : t.val ≠ 0) (h1 : t.val = 24) (Y : Vec F S10000x128 .f32) :
    scrAt m c t.val t.isLt =
      ((prevScr m c t).1,
       statM.view.read (Elt F) (statM.view.writes (Elt F) ((Memref.isWhole_whole _ : statM.IsWhole).unread (prevScr m c t).2)
         (lastAt m c t h0 h1 Y (prevScr m c t).1 (prevScr m c t).2).2.1)) := by
  rw [scrAt_last m c t h0 h1, lastAt_stat_indep m c t h0 h1 (iblk m c 0 t) Y]

/-- What the body is called with at point `t`, the output buffer at `Y5`. -/
def bodyPre (c : Dev nD) (t : Fin cfg0.N) (Y5 : Vec F S10000x128 .f32) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ owns (c : Thread nD τ) (sm5 t) fullShare Y5)

/-- and what it returns. -/
def bodyPost (c : Dev nD) (t : Fin cfg0.N) (Y5 : Vec F S10000x128 .f32) : sProp 𝕄 :=
  iprop((dats m 0 c).Φ t.succ ∗ (dats m 0 c).owesAt () t.succ
    ∗ owns (c : Thread nD τ) (sm0 t) fullShare ((dats m 0 c).after 0 t)
    ∗ owns (c : Thread nD τ) (sm1 t) fullShare ((dats m 0 c).after 1 t)
    ∗ owns (c : Thread nD τ) (sm2 t) fullShare ((dats m 0 c).after 2 t)
    ∗ owns (c : Thread nD τ) (sm3 t) fullShare ((dats m 0 c).after 3 t)
    ∗ owns (c : Thread nD τ) (sm4 t) fullShare ((dats m 0 c).after 4 t)
    ∗ (∃ X, ⌜outRel m c t Y5 X⌝ ∗ owns (c : Thread nD τ) (sm5 t) fullShare X))

set_option maxHeartbeats 9600000 in
/-- The body at any point, the output buffer handed in at any contents. -/
theorem sound_body (c : Dev nD) (t : Fin cfg0.N) (Y5 : Vec F S10000x128 .f32) :
    bodyPre m c t Y5 ⊢ wp frame (wpE (defs₀ (F := F)) Variants.none c none) Set.univ (bodyAt0 t) (fun _ => bodyPost m c t Y5) := by
  unfold bodyPre bodyPost bodyAt0
  simp only [before0, before1, before2, before3, before4]
  rw [show (dats m 0 c).owesAt () t.succ = (dats m 0 c).owesAt () t.castSucc from rfl,
    after0, after1, after2, after3, after4]
  rw [show (dats m 0 c).Φ t.succ = PhiS m c (t.val + 1) t.isLt from rfl, PhiS_succ]
  have hN : t.val < 25 := lt_of_lt_of_eq t.isLt (show cfg0.N = 25 from N_0)
  by_cases h0 : t.val = 0
  · rw [scrAt_first_sup m c t h0 Y5, scrAt_first_stat m c t h0 Y5,
      PhiS_castSucc m c t, PhiS_zero m c _ _ h0, scoped_eq]
    have eO : outStores m c t Y5 = (firstAt m c t h0 Y5).1 := by unfold outStores; rw [dif_pos h0]
    iintro ⟨⟨⟨HS0, HS1⟩, Hg⟩, Ho, ⟨%d0, H0⟩, ⟨%d1, H1⟩, ⟨%d2, H2⟩, ⟨%d3, H3⟩, ⟨%d4, H4⟩, H5⟩
    iapply ((firstAt m c t h0 Y5).2.2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (sup_cover m c t h0 Y5)
        unfold owns; iexists _; isplitr
        swap; · iexact HS1
        ipureintro; exact View.read_writes_of_cover _ _ _ _ _ (stat_cover m c t h0 Y5)
      iexact Hg
    isplitl [Ho]; · iexact Ho
    isplitl [H0]; · iexact H0
    isplitl [H1]; · iexact H1
    isplitl [H2]; · iexact H2
    isplitl [H3]; · iexact H3
    isplitl [H4]; · iexact H4
    iexists _; isplitr
    · ipureintro; unfold outRel; rw [eO]
    unfold owns; iexists _; isplitr
    swap; · iexact H5
    ipureintro; rfl
  · by_cases h1 : t.val = 24
    · rw [scrAt_last' m c t h0 h1 Y5, PhiS_castSucc m c t, PhiS_pos m c _ _ h0]
      have eO : outStores m c t Y5 = (lastAt m c t h0 h1 Y5 (prevScr m c t).1 (prevScr m c t).2).1 := by
        unfold outStores; rw [dif_neg h0, dif_pos h1]
      iintro ⟨⟨⟨HS0, HS1⟩, Hg⟩, Ho, ⟨%d0, H0⟩, ⟨%d1, H1⟩, ⟨%d2, H2⟩, ⟨%d3, H3⟩, ⟨%d4, H4⟩, H5⟩
      iapply ((lastAt m c t h0 h1 Y5 (prevScr m c t).1 (prevScr m c t).2).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; isplitr
      · ipureintro; unfold outRel; rw [eO]
      unfold owns; iexists _; isplitr
      swap; · iexact H5
      ipureintro; rfl
    · rw [scrAt_mid' m c t h0 h1 Y5, PhiS_castSucc m c t, PhiS_pos m c _ _ h0]
      have eO : outStores m c t Y5 = (midAt m c t h0 h1 Y5 (prevScr m c t).1 (prevScr m c t).2).1 := by
        unfold outStores; rw [dif_neg h0, dif_neg h1]
      iintro ⟨⟨⟨HS0, HS1⟩, Hg⟩, Ho, ⟨%d0, H0⟩, ⟨%d1, H1⟩, ⟨%d2, H2⟩, ⟨%d3, H3⟩, ⟨%d4, H4⟩, H5⟩
      iapply ((midAt m c t h0 h1 Y5 (prevScr m c t).1 (prevScr m c t).2).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; isplitr
      · ipureintro; unfold outRel; rw [eO]
      unfold owns; iexists _; isplitr
      swap; · iexact H5
      ipureintro; rfl

end Cert.KernelIdeal.Layer

end
-- ==== Proof.IdealFrame.lean ====
/-
  The launch. The body obligation in the relational form the pipeline rule takes: whatever the windows' current
  buffers may hold when the body is called — an input's buffer holds its block; the output's holds something the
  points before may have left — the body runs to the next point's invariant and leaves each buffer in its window's
  relation to what it was handed. Then the run of the whole program: every weakly fair execution terminates, the
  argument arrays end unchanged, and the result array holds some contents the relation allows after the one
  write-back.
-/
import proofs.«152943_g16630113370191_cont_week2b_735_29_alg».proof.Proof.IdealBody

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's relation is the exact one: its buffer is left at the input's block. -/
theorem rdat_after_in (c : Dev nD) (w : Fin 6) (hw : w.val < 5) (t : Fin cfg0.N) (Y) : (rdat m c).after w t Y ((dats m 0 c).after w t) := by
  have e : (rdat m c).after w = (dats m 0 c).toR.after w := by
    match w, hw with
    | ⟨0, _⟩, _ => exact (dats m 0 c).toR.override_after_of_eq_none rfl
    | ⟨1, _⟩, _ => exact (dats m 0 c).toR.override_after_of_eq_none rfl
    | ⟨2, _⟩, _ => exact (dats m 0 c).toR.override_after_of_eq_none rfl
    | ⟨3, _⟩, _ => exact (dats m 0 c).toR.override_after_of_eq_none rfl
    | ⟨4, _⟩, _ => exact (dats m 0 c).toR.override_after_of_eq_none rfl
  rw [e]
  show (dats m 0 c).Leaves w t _
  exact (Pipeline.Dat.Leaves.live_iff (dats m 0 c) (Or.inl rfl)).mpr rfl

/-- The output window's relation is `outRel`. -/
theorem rdat_after_out (c : Dev nD) : (rdat m c).after 5 = outRel m c :=
  (dats m 0 c).toR.override_after_of_eq_some rfl

set_option maxHeartbeats 4000000 in
/-- The body obligation, relational. -/
theorem body_obligation (c : Dev nD) : (rdat m c).BodyObligation (defs₀ (F := F)) Variants.none () Set.univ := fun t Y hY => by
  obtain ⟨d0, hd0⟩ := (dats m 0 c).toR_finds 0 t (Y 0) (((dats m 0 c).toR.override_finds (w := (0 : Fin 6)) rfl t (Y 0)).mp (hY 0))
  obtain ⟨d1, hd1⟩ := (dats m 0 c).toR_finds 1 t (Y 1) (((dats m 0 c).toR.override_finds (w := (1 : Fin 6)) rfl t (Y 1)).mp (hY 1))
  obtain ⟨d2, hd2⟩ := (dats m 0 c).toR_finds 2 t (Y 2) (((dats m 0 c).toR.override_finds (w := (2 : Fin 6)) rfl t (Y 2)).mp (hY 2))
  obtain ⟨d3, hd3⟩ := (dats m 0 c).toR_finds 3 t (Y 3) (((dats m 0 c).toR.override_finds (w := (3 : Fin 6)) rfl t (Y 3)).mp (hY 3))
  obtain ⟨d4, hd4⟩ := (dats m 0 c).toR_finds 4 t (Y 4) (((dats m 0 c).toR.override_finds (w := (4 : Fin 6)) rfl t (Y 4)).mp (hY 4))
  have hpre : iprop((dats m 0 c).Φ t.castSucc ∗ (dats m 0 c).owesAt () t.castSucc
        ∗ bigSep Finset.univ fun w : Fin cfg0.W => owns c ((cfg0.win w).stage (cfg0.slots t w)) fullShare (Y w))
      ⊢ bodyPre m c t (Y 5) := by
    rw [bigSep_W0]; unfold bodyPre
    iintro ⟨HΦ, Ho, H0, H1, H2, H3, H4, H5⟩
    isplitl [HΦ]; · iexact HΦ
    isplitl [Ho]; · iexact Ho
    isplitl [H0]; · iexists d0; rw [← hd0]; iexact H0
    isplitl [H1]; · iexists d1; rw [← hd1]; iexact H1
    isplitl [H2]; · iexists d2; rw [← hd2]; iexact H2
    isplitl [H3]; · iexists d3; rw [← hd3]; iexact H3
    isplitl [H4]; · iexists d4; rw [← hd4]; iexact H4
    iexact H5
  have hpost : ∀ x : PUnit, bodyPost m c t (Y 5)
      ⊢ iprop((dats m 0 c).Φ t.succ ∗ (dats m 0 c).owesAt () t.succ
          ∗ bigSep Finset.univ fun w : Fin cfg0.W =>
              iprop(∃ X, ⌜(rdat m c).after w t (Y w) X⌝ ∗ owns c ((cfg0.win w).stage (cfg0.slots t w)) fullShare X)) := fun _ => by
    rw [bigSep_W0]; unfold bodyPost
    iintro ⟨HΦ, Ho, H0, H1, H2, H3, H4, ⟨%X, %hX, H5⟩⟩
    isplitl [HΦ]; · iexact HΦ
    isplitl [Ho]; · iexact Ho
    isplitl [H0]
    · iexists _; isplitr; · ipureintro; exact rdat_after_in m c 0 (by decide) t (Y 0)
      iexact H0
    isplitl [H1]
    · iexists _; isplitr; · ipureintro; exact rdat_after_in m c 1 (by decide) t (Y 1)
      iexact H1
    isplitl [H2]
    · iexists _; isplitr; · ipureintro; exact rdat_after_in m c 2 (by decide) t (Y 2)
      iexact H2
    isplitl [H3]
    · iexists _; isplitr; · ipureintro; exact rdat_after_in m c 3 (by decide) t (Y 3)
      iexact H3
    isplitl [H4]
    · iexists _; isplitr; · ipureintro; exact rdat_after_in m c 4 (by decide) t (Y 4)
      iexact H4
    iexists X; isplitr
    · ipureintro; rw [rdat_after_out m c]; exact hX
    iexact H5
  exact hpre.trans ((sound_body m c t (Y 5)).trans (wp_mono _ _ _ hpost))

/-- What the launch hands the region is the invariant before the first point. -/
theorem hin (c : Dev nD) : Pipeline.ΦA spec0 c ⊢ (rdat m c).Φ 0 := by
  show _ ⊢ PhiS m c 0 (Nat.zero_le _)
  rw [PhiS_zero m c 0 _ rfl]
  try exact Idealize.SL.BI.Entails.refl _

/-- After the last point the invariant gives the scoped buffers back, their named contents forgotten. -/
theorem hout (c : Dev nD) : (rdat m c).Φ (Fin.last cfg0.N) ⊢ Pipeline.ΦA spec0 c := by
  show PhiS m c (Fin.last cfg0.N).val (Nat.le_of_lt_succ (Fin.last cfg0.N).isLt) ⊢ _
  rw [PhiS_pos m c _ _ (by rw [Fin.val_last]; have : cfg0.N = 25 := N_0; omega), scoped_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every weakly fair execution of the program terminates; each windowed array ends at contents its
    window's relation allows after the write-backs (an input: as launched), every other buffer as the region
    found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Eq.mp (congrFun ((rdat m c).ArrAt_in 0 rfl _) _) ((h c).1 0)).trans ((rdat_A m c 0).trans (V_main_arg0 m c)),
      (Eq.mp (congrFun ((rdat m c).ArrAt_in 4 rfl _) _) ((h c).1 4)).trans ((rdat_A m c 4).trans (V_main_arg1 m c)),
      (Eq.mp (congrFun ((rdat m c).ArrAt_in 1 rfl _) _) ((h c).1 1)).trans ((rdat_A m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Layer

end
-- ==== Proof.IdealBlocks.lean ====
/-
  The kernel program's window blocks, read at an index.

  The pipeline hands the kernel, at grid point t, one block of each windowed array. Five windows stage inputs: the
  features, the weights, the gain and the offset (each the whole array at every point, the last two through a
  reshape of the 128-vector to one row of 128) and the adjacency matrix (rows 400·t … 400·t + 399 at point t). A
  block's element sits in its array, on each axis, at the block index times the block's extent plus its own
  coordinate; the block indices are constant zero for the whole-array windows and (t, 0) for the adjacency's.
  The result window's block is the whole result array, so writing a block back through it replaces the array.
-/
import proofs.«152943_g16630113370191_cont_week2b_735_29_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The block indices over the grid -/

/-- The printed index maps, decided over the 25 grid points: the whole-array windows sit at block (0, 0) at every
    point, the adjacency's window at block (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- A grid point's number is below 25. -/
theorem point_lt (t : Fin cfg0.N) : t.val < 25 := lt_of_lt_of_eq t.isLt N_0

/-- Row q of the block at point t is a row of the 10000. -/
theorem row_lt (t : Fin cfg0.N) (q : Fin 400) : 400 * t.val + q.val < 10000 := by
  have := point_lt t; have := q.isLt; omega

/-! ## The whole-array input windows -/

/-- The features' block at any point is the features as launched. -/
theorem blk0_apply (c : Dev nD) (t : Fin cfg0.N) (x : S10000x128.Idx) :
    (iblk m c 0 t : S10000x128.Idx → Elt F .f32) x = (m ((c : Thread nD τ).loc main_arg0) : S10000x128.Idx → Elt F .f32) x := by
  obtain ⟨e0, e1, -⟩ := idx_facts t
  unfold iblk
  rw [View.read_apply]
  show V m c main_arg0 (((cfg0.win 0).blk t).view.emb x) = _
  rw [V_main_arg0]
  refine congrArg (m ((c : Thread nD τ).loc main_arg0) : S10000x128.Idx → Elt F .f32) (funext fun a => Fin.ext ?_)
  match a with
  | ⟨0, _⟩ => show win0_0.index t (0 : Fin 2) * 10000 + 1 * (x 0).val = (x 0).val; rw [e0]; omega
  | ⟨1, _⟩ => show win0_0.index t (1 : Fin 2) * 128 + 1 * (x 1).val = (x 1).val; rw [e1]; omega

/-- The weights' block at any point is the weights as launched. -/
theorem blk1_apply (c : Dev nD) (t : Fin cfg0.N) (x : S16x128.Idx) :
    (iblk m c 1 t : S16x128.Idx → Elt F .f32) x = (m ((c : Thread nD τ).loc main_arg2) : S16x128.Idx → Elt F .f32) x := by
  obtain ⟨-, -, e0, e1, -⟩ := idx_facts t
  unfold iblk
  rw [View.read_apply]
  show V m c main_arg2 (((cfg0.win 1).blk t).view.emb x) = _
  rw [V_main_arg2]
  refine congrArg (m ((c : Thread nD τ).loc main_arg2) : S16x128.Idx → Elt F .f32) (funext fun a => Fin.ext ?_)
  match a with
  | ⟨0, _⟩ => show win0_1.index t (0 : Fin 2) * 16 + 1 * (x 0).val = (x 0).val; rw [e0]; omega
  | ⟨1, _⟩ => show win0_1.index t (1 : Fin 2) * 128 + 1 * (x 1).val = (x 1).val; rw [e1]; omega

/-- The features' block, as a function. -/
theorem blk0 (c : Dev nD) (t : Fin cfg0.N) :
    (iblk m c 0 t : S10000x128.Idx → Elt F .f32) = m ((c : Thread nD τ).loc main_arg0) :=
  funext fun x => blk0_apply m c t x

/-- The weights' block, as a function. -/
theorem blk1 (c : Dev nD) (t : Fin cfg0.N) :
    (iblk m c 1 t : S16x128.Idx → Elt F .f32) = m ((c : Thread nD τ).loc main_arg2) :=
  funext fun x => blk1_apply m c t x

/-! ## The gain and the offset: a 128-vector reshaped to one row -/

/-- The gain's row as the region finds it: the launched 128-vector reshaped to 1×128. -/
theorem V_main_v0 (c : Dev nD) :
    (V m c main_v0 : S1x128.Idx → Elt F .f32)
      = shapeCast S1x128 (m ((c : Thread nD τ).loc main_arg3) : S128.Idx → Elt F .f32) shapeCasts_S128_S1x128 := by
  dsimp only [Gen.V, Gen.hostOps0]
  after_results
  rfl

/-- The offset's row as the region finds it: the launched 128-vector reshaped to 1×128. -/
theorem V_main_v1 (c : Dev nD) :
    (V m c main_v1 : S1x128.Idx → Elt F .f32)
      = shapeCast S1x128 (m ((c : Thread nD τ).loc main_arg4) : S128.Idx → Elt F .f32) shapeCasts_S128_S1x128 := by
  dsimp only [Gen.V, Gen.hostOps0]
  after_results
  rfl

/-- The gain's block at any point, at (0, col), is the launched gain at col. -/
theorem blk2 (c : Dev nD) (t : Fin cfg0.N) (col : Fin 128) :
    (iblk m c 2 t : S1x128.Idx → Elt F .f32) (ix2 (0 : Fin 1) col)
      = (m ((c : Thread nD τ).loc main_arg3) : S128.Idx → Elt F .f32) (ix1 col) := by
  obtain ⟨-, -, -, -, e0, e1, -⟩ := idx_facts t
  unfold iblk
  rw [View.read_apply]
  show (V m c main_v0 : S1x128.Idx → Elt F .f32) (((cfg0.win 2).blk t).view.emb (ix2 (0 : Fin 1) col)) = _
  have he : ((cfg0.win 2).blk t).view.emb (ix2 (0 : Fin 1) col) = (ix2 (0 : Fin 1) col : S1x128.Idx) := by
    funext a; apply Fin.ext
    match a with
    | ⟨0, _⟩ => show win0_2.index t (0 : Fin 2) * 1 + 1 * 0 = 0; rw [e0]
    | ⟨1, _⟩ => show win0_2.index t (1 : Fin 2) * 128 + 1 * col.val = col.val; rw [e1]; omega
  rw [he, V_main_v0, shapeCast_a_1a_apply]

/-- The offset's block at any point, at (0, col), is the launched offset at col. -/
theorem blk3 (c : Dev nD) (t : Fin cfg0.N) (col : Fin 128) :
    (iblk m c 3 t : S1x128.Idx → Elt F .f32) (ix2 (0 : Fin 1) col)
      = (m ((c : Thread nD τ).loc main_arg4) : S128.Idx → Elt F .f32) (ix1 col) := by
  obtain ⟨-, -, -, -, -, -, e0, e1, -⟩ := idx_facts t
  unfold iblk
  rw [View.read_apply]
  show (V m c main_v1 : S1x128.Idx → Elt F .f32) (((cfg0.win 3).blk t).view.emb (ix2 (0 : Fin 1) col)) = _
  have he : ((cfg0.win 3).blk t).view.emb (ix2 (0 : Fin 1) col) = (ix2 (0 : Fin 1) col : S1x128.Idx) := by
    funext a; apply Fin.ext
    match a with
    | ⟨0, _⟩ => show win0_3.index t (0 : Fin 2) * 1 + 1 * 0 = 0; rw [e0]
    | ⟨1, _⟩ => show win0_3.index t (1 : Fin 2) * 128 + 1 * col.val = col.val; rw [e1]; omega
  rw [he, V_main_v1, shapeCast_a_1a_apply]

/-! ## The adjacency window: 400 rows per point -/

/-- The adjacency's block at point t, at (q, k), is the launched adjacency at row 400·t + q, column k. -/
theorem blk4 (c : Dev nD) (t : Fin cfg0.N) (q : Fin 400) (k : Fin 10000) :
    (iblk m c 4 t : S400x10000.Idx → Elt F .f32) (ix2 q k)
      = (m ((c : Thread nD τ).loc main_arg1) : S10000x10000.Idx → Elt F .f32)
          (ix2 (⟨400 * t.val + q.val, row_lt t q⟩ : Fin 10000) k) := by
  obtain ⟨-, -, -, -, -, -, -, -, e0, e1, -⟩ := idx_facts t
  unfold iblk
  rw [View.read_apply]
  show V m c main_arg1 (((cfg0.win 4).blk t).view.emb (ix2 q k)) = _
  rw [V_main_arg1]
  refine congrArg (m ((c : Thread nD τ).loc main_arg1) : S10000x10000.Idx → Elt F .f32) (funext fun a => Fin.ext ?_)
  match a with
  | ⟨0, _⟩ => show win0_4.index t (0 : Fin 2) * 400 + 1 * q.val = 400 * t.val + q.val; rw [e0]; omega
  | ⟨1, _⟩ => show win0_4.index t (1 : Fin 2) * 10000 + 1 * k.val = k.val; rw [e1]; omega

/-! ## The result window: its block is the whole array -/

/-- Writing a block back through the result window at any point, over any contents of the result array, leaves the
    array holding the block: at every index of the array the written array reads the block there. -/
theorem out_whole_apply (c : Dev nD) (t : Fin cfg0.N)
    (G₀ : Buf (Elt F) ((cfg0.win 5).arr.view.loc (c.tc : Thread nD τ)))
    (X : (cfg0.win 5).block.Idx → Elt F (cfg0.win 5).elt) (i : S10000x128.Idx) :
    (((cfg0.win 5).blk t).view.write (Elt F) G₀ ((cfg0.win 5).cut (cfg0.grid.coords t) X) Finset.univ : S10000x128.Idx → Elt F .f32) i
      = (X : S10000x128.Idx → Elt F .f32) i := by
  obtain ⟨-, -, -, -, -, -, -, -, -, -, e0, e1⟩ := idx_facts t
  have he : ((cfg0.win 5).blk t).view.emb (i : ((cfg0.win 5).xblock (cfg0.grid.coords t)).Idx) = (i : S10000x128.Idx) := by
    funext a; apply Fin.ext
    match a with
    | ⟨0, _⟩ => show win0_5.index t (0 : Fin 2) * 10000 + 1 * (i 0).val = (i 0).val; rw [e0]; omega
    | ⟨1, _⟩ => show win0_5.index t (1 : Fin 2) * 128 + 1 * (i 1).val = (i 1).val; rw [e1]; omega
  have hw := View.write_emb_of_mem (v := ((cfg0.win 5).blk t).view) (Val := Elt F) G₀
    ((cfg0.win 5).cut (cfg0.grid.coords t) X) (M := Finset.univ) (x := (i : ((cfg0.win 5).xblock (cfg0.grid.coords t)).Idx)) (Finset.mem_univ _)
  rw [he] at hw
  exact hw.trans rfl

/-- The same as an equation of arrays: the written array is the block. -/
theorem out_whole (c : Dev nD) (t : Fin cfg0.N)
    (G₀ : Buf (Elt F) ((cfg0.win 5).arr.view.loc (c.tc : Thread nD τ)))
    (X : (cfg0.win 5).block.Idx → Elt F (cfg0.win 5).elt) :
    (((cfg0.win 5).blk t).view.write (Elt F) G₀ ((cfg0.win 5).cut (cfg0.grid.coords t) X) Finset.univ : S10000x128.Idx → Elt F .f32)
      = (X : S10000x128.Idx → Elt F .f32) :=
  funext fun i => out_whole_apply c t G₀ X i

end Cert.KernelIdeal.Blocks

end
-- ==== Proof.IdealOutBuffer.lean ====
/-
  The output buffer across the grid.

  The result window's staging buffer is resident: never fetched, written back once, after the last point. At each of
  the 25 grid points the body stores 400 rows into it, rows 400·t … 400·t + 399 at point t: the point's block of the
  adjacency matrix times the support, which the first point computed and every later point reads back unchanged.
  So when the body is called at point t the buffer holds, in rows below 400·t, exactly the rows the earlier points
  stored, whatever it held at the start; and the array after the run is what the last point leaves in the buffer.
-/
import proofs.«152943_g16630113370191_cont_week2b_735_29_alg».proof.Proof.IdealData
import proofs.«152943_g16630113370191_cont_week2b_735_29_alg».proof.Proof.IdealBlocks
import Idealize.ShloMosaic.Lib.WholeRead
import Idealize.ShloMosaic.Lib.WritesUnit
import Idealize.ShloMosaic.Lib.Pipeline.Value
import Idealize.ShloMosaic.Lib.Pipeline.FrameBody
import Idealize.ShloMosaic.Lib.Pipeline.Cells

set_option maxRecDepth 16384

noncomputable section

namespace Cert.KernelIdeal.OutBuffer

open Idealize.ShloMosaic Idealize.ShloMosaic.TcCoe Idealize.ShloMosaic.ValueIdx Idealize.ShloMosaic.Tactic Idealize.SL.Sem
open Idealize.ShloMosaic.Pipeline (Dat RDat Cfg Window cellOf)
open Cert.KernelIdeal Cert.KernelIdeal.Gen Cert.KernelIdeal.Layer

variable {F : FTy → Type} [FloatOps F]

/-! ## The schedule and the store offsets over the grid -/

theorem zero2 : (![0, 0] : Fin 2 → ℕ) = fun _ => 0 := by
  funext a; match a with | ⟨0, _⟩ => rfl | ⟨1, _⟩ => rfl

/-- The grid is not empty. -/
theorem N_pos : 0 < cfg0.N := by decide

/-- The result window is never fetched. -/
theorem fetch5 : ∀ t : Fin cfg0.N, (cfg0.win 5).fetch t = false :=
  (by decide +kernel : ∀ t : Fin grid0.N, win0_5.fetch t = false)

/-- Point t stores its rows at row offset 400·t, column offset 0. -/
theorem off_facts : ∀ t : Fin cfg0.N,
    k0_off1 (grid0.coords t) (0 : Fin 2) = 400 * t.val ∧ k0_off1 (grid0.coords t) (1 : Fin 2) = 0 :=
  (by decide +kernel : ∀ t : Fin grid0.N, _)

theorem off_eq (t : Fin cfg0.N) : k0_off1 (grid0.coords t) = ![400 * t.val, 0] := by
  funext a
  match a with
  | ⟨0, _⟩ => exact (off_facts t).1
  | ⟨1, _⟩ => exact (off_facts t).2

/-- A load of the whole buffer reads the contents. -/
theorem load_all {d : Fin 2 → ℕ} (mm : Memref sig .tc .vmem ⟨2, d⟩ .f32) (h : mm.IsWhole) (X : Vec F ⟨2, d⟩ .f32)
    (inb : ∀ a, (![0, 0] : Fin 2 → ℕ) a + (⟨2, d⟩ : Shape).size a ≤ (⟨2, d⟩ : Shape).size a) :
    View.readAt (Elt F) mm.view (Rect.unit ![0, 0] (⟨2, d⟩ : Shape).size inb).toLoadRect (h.unread X) = X := by
  rw [View.readAt_eq_ld, h.read_unread, View.ld_unit_zero zero2]

/-! ## One point's stores into the output buffer, read back -/

/-- A middle point's one store, inside its 400 rows: the product block's entry. -/
theorem mid_out_mem (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : ¬atLast i)
    (x0 : Vec F S10000x128 .f32) (x1 : Vec F S16x128 .f32) (x2 : Vec F S1x128 .f32) (x3 : Vec F S1x128 .f32) (x4 : Vec F S400x10000 .f32) (x5 : Vec F S10000x128 .f32) (xs0 : Vec F S10000x128 .f32) (xs1 : Vec F S8x128 .f32)
    (f : arg6.view.ty.Contents (Elt F)) (o : ℕ) (hoff : k0_off1 i = ![o, 0]) (y : S10000x128.Idx) (q : Fin 400) (col : Fin 128)
    (hy0 : (y (0 : Fin 2)).val = o + q.val) (hy1 : (y (1 : Fin 2)).val = col.val) :
    arg6.view.read (Elt F) (arg6.view.writes (Elt F) f (runMid c i arg1 harg1 arg2 harg2 arg3 harg3 arg4 harg4 arg5 harg5 arg6 harg6 arg7 harg7 arg8 harg8 hc0 hc1 x0 x1 x2 x3 x4 x5 xs0 xs1).1) y
      = k0_pay2 x4 xs0 (ix2 q col) := by
  unfold runMid; dsimp only
  refine (View.read_writes_cons_rows_of_mem (o := o) arg6.view f _ _ _ y (ix2 q col) hoff hy0 hy1).trans ?_
  rw [load_all arg5 harg5 x4, load_all arg7 harg7 xs0]

/-- A middle point's one store, outside its 400 rows: what the buffer held. -/
theorem mid_out_not_mem (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : ¬atLast i)
    (x0 : Vec F S10000x128 .f32) (x1 : Vec F S16x128 .f32) (x2 : Vec F S1x128 .f32) (x3 : Vec F S1x128 .f32) (x4 : Vec F S400x10000 .f32) (x5 : Vec F S10000x128 .f32) (xs0 : Vec F S10000x128 .f32) (xs1 : Vec F S8x128 .f32)
    (f : arg6.view.ty.Contents (Elt F)) (o : ℕ) (hoff : k0_off1 i = ![o, 0]) (y : S10000x128.Idx)
    (h : (y (0 : Fin 2)).val < o ∨ o + 400 ≤ (y (0 : Fin 2)).val) :
    arg6.view.read (Elt F) (arg6.view.writes (Elt F) f (runMid c i arg1 harg1 arg2 harg2 arg3 harg3 arg4 harg4 arg5 harg5 arg6 harg6 arg7 harg7 arg8 harg8 hc0 hc1 x0 x1 x2 x3 x4 x5 xs0 xs1).1) y
      = arg6.view.read (Elt F) f y := by
  unfold runMid; dsimp only
  exact View.read_writes_cons_rows_of_not_mem (o := o) (W := 400) arg6.view f _ _ _ y hoff rfl h

/-- The first point's one store, inside its 400 rows: the product block's entry, against the support the point
    reads back from its scratch. -/
theorem first_out_mem (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : atFirst i) (hc1 : ¬atLast i)
    (x0 : Vec F S10000x128 .f32) (x1 : Vec F S16x128 .f32) (x2 : Vec F S1x128 .f32) (x3 : Vec F S1x128 .f32) (x4 : Vec F S400x10000 .f32) (x5 : Vec F S10000x128 .f32)
    (f : arg6.view.ty.Contents (Elt F)) (o : ℕ) (hoff : k0_off1 i = ![o, 0]) (y : S10000x128.Idx) (q : Fin 400) (col : Fin 128)
    (hy0 : (y (0 : Fin 2)).val = o + q.val) (hy1 : (y (1 : Fin 2)).val = col.val) :
    arg6.view.read (Elt F) (arg6.view.writes (Elt F) f (runFirst c i arg1 harg1 arg2 harg2 arg3 harg3 arg4 harg4 arg5 harg5 arg6 harg6 arg7 harg7 arg8 harg8 hc0 hc1 x0 x1 x2 x3 x4 x5).1) y
      = k0_pay2 x4 (runFirst.sl.v4 c arg1 harg1 arg2 harg2 arg7 x0 x1) (ix2 q col) := by
  unfold runFirst; dsimp only
  refine (View.read_writes_cons_rows_of_mem (o := o) arg6.view f _ _ _ y (ix2 q col) hoff hy0 hy1).trans ?_
  rw [load_all arg5 harg5 x4]

/-- The first point's one store, outside its 400 rows: what the buffer held. -/
theorem first_out_not_mem (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : atFirst i) (hc1 : ¬atLast i)
    (x0 : Vec F S10000x128 .f32) (x1 : Vec F S16x128 .f32) (x2 : Vec F S1x128 .f32) (x3 : Vec F S1x128 .f32) (x4 : Vec F S400x10000 .f32) (x5 : Vec F S10000x128 .f32)
    (f : arg6.view.ty.Contents (Elt F)) (o : ℕ) (hoff : k0_off1 i = ![o, 0]) (y : S10000x128.Idx)
    (h : (y (0 : Fin 2)).val < o ∨ o + 400 ≤ (y (0 : Fin 2)).val) :
    arg6.view.read (Elt F) (arg6.view.writes (Elt F) f (runFirst c i arg1 harg1 arg2 harg2 arg3 harg3 arg4 harg4 arg5 harg5 arg6 harg6 arg7 harg7 arg8 harg8 hc0 hc1 x0 x1 x2 x3 x4 x5).1) y
      = arg6.view.read (Elt F) f y := by
  unfold runFirst; dsimp only
  exact View.read_writes_cons_rows_of_not_mem (o := o) (W := 400) arg6.view f _ _ _ y hoff rfl h

/-! ## The support scratch is written once -/

section Grid

variable (m : (ℓ : Loc nD τ sig) → Buf (Elt F) ℓ) (c : Dev nD)

/-- A later point leaves the support scratch as the point before left it. -/
theorem sup_succ (n : ℕ) (hn : n + 1 < cfg0.N) :
    (scrAt m c (n + 1) hn).1 = (scrAt m c n (Nat.lt_of_succ_lt hn)).1 := by
  by_cases h1 : n + 1 = 24
  · exact (congrArg Prod.fst (scrAt_last m c ⟨n + 1, hn⟩ (Nat.succ_ne_zero n) h1) : _)
  · exact (congrArg Prod.fst (scrAt_mid m c ⟨n + 1, hn⟩ (Nat.succ_ne_zero n) h1) : _)

/-- After every point the support scratch holds what the first point left in it. -/
theorem sup_const : ∀ (n : ℕ) (hn : n < cfg0.N), (scrAt m c n hn).1 = (scrAt m c 0 N_pos).1
  | 0, _ => rfl
  | n + 1, hn => (sup_succ m c n hn).trans (sup_const n (Nat.lt_of_succ_lt hn))

/-- The support the first point reads back from its scratch is what it leaves there. -/
theorem first_v4_eq :
    runFirst.sl.v4 c (sm0 ⟨0, N_pos⟩) (hsm0 ⟨0, N_pos⟩) (sm1 ⟨0, N_pos⟩) (hsm1 ⟨0, N_pos⟩) supM
        (iblk m c 0 ⟨0, N_pos⟩) (iblk m c 1 ⟨0, N_pos⟩)
      = (scrAt m c 0 N_pos).1 := by
  have e1 : (scrAt m c 0 N_pos).1
      = supM.view.read (Elt F) (supM.view.writes (Elt F) supM.view.junk
          (runFirst.sl.HS0_1 c (sm0 ⟨0, N_pos⟩) (hsm0 ⟨0, N_pos⟩) (sm1 ⟨0, N_pos⟩) (hsm1 ⟨0, N_pos⟩)
            (iblk m c 0 ⟨0, N_pos⟩) (iblk m c 1 ⟨0, N_pos⟩))) := by
    refine (congrArg Prod.fst (scrAt_first m c ⟨0, N_pos⟩ rfl) : _).trans ?_
    dsimp only
    unfold firstAt runFirst; dsimp only
  rw [e1, View.read_writes_junk_eq_canon]
  unfold runFirst.sl.v4
  rw [View.readCov_eq_canon']
  exact View.ld_unit_zero zero2 _ _

/-! ## The rows a point stores -/

/-- One entry of the 400 rows point u stores: the point's adjacency block times the support. -/
def yrow (u : ℕ) (hu : u < cfg0.N) (q : Fin 400) (col : Fin 128) : Elt F .f32 :=
  k0_pay2 (iblk m c 4 ⟨u, hu⟩ : Vec F S400x10000 .f32) (scrAt m c 0 N_pos).1 (ix2 q col)

/-- The output window's relation is the constraint by the point's stores. -/
theorem rdat_after5 : (rdat m c).after 5 = outRel m c :=
  RDat.override_after_of_eq_some (dats m 0 c).toR rfl

/-- What a point before the last leaves in the output buffer, in its own 400 rows: the rows it stores. -/
theorem outRel_row (t : Fin cfg0.N) (ht : t.val ≠ 24) (Y X : Vec F S10000x128 .f32) (h : outRel m c t Y X)
    (q : Fin 400) (col : Fin 128) :
    X (ix2 (⟨400 * t.val + q.val, Blocks.row_lt t q⟩ : Fin 10000) col) = yrow m c t.val t.isLt q col := by
  rw [h]
  unfold outStores
  by_cases h0 : t.val = 0
  · rw [dif_pos h0]
    obtain rfl : t = ⟨0, N_pos⟩ := Fin.ext h0
    unfold firstAt
    refine (first_out_mem c _ _ _ _ _ _ _ _ _ _ _ _ _ _ _ _ _ _ _ _ _ _ _ _ _ _ (400 * 0) (off_eq _) _ q col rfl rfl).trans ?_
    rw [first_v4_eq]
    rfl
  · rw [dif_neg h0, dif_neg ht]
    unfold midAt
    refine (mid_out_mem c _ _ _ _ _ _ _ _ _ _ _ _ _ _ _ _ _ _ _ _ _ _ _ _ _ _ _ _ (400 * t.val) (off_eq t) _ q col rfl rfl).trans ?_
    show k0_pay2 _ (scrAt m c (t.val - 1) _).1 _ = _
    rw [sup_const]
    rfl

/-- What a point before the last leaves in the output buffer, outside its own 400 rows: what it was handed. -/
theorem outRel_other (t : Fin cfg0.N) (ht : t.val ≠ 24) (Y X : Vec F S10000x128 .f32) (h : outRel m c t Y X)
    (y : S10000x128.Idx) (hy : (y (0 : Fin 2)).val < 400 * t.val ∨ 400 * t.val + 400 ≤ (y (0 : Fin 2)).val) :
    X y = Y y := by
  rw [h]
  unfold outStores
  by_cases h0 : t.val = 0
  · rw [dif_pos h0]
    unfold firstAt
    refine (first_out_not_mem c _ _ _ _ _ _ _ _ _ _ _ _ _ _ _ _ _ _ _ _ _ _ _ _ _ _ (400 * t.val) (off_eq t) y hy).trans ?_
    exact congrFun ((hsm5 t).read_unread Y) y
  · rw [dif_neg h0, dif_neg ht]
    unfold midAt
    refine (mid_out_not_mem c _ _ _ _ _ _ _ _ _ _ _ _ _ _ _ _ _ _ _ _ _ _ _ _ _ _ _ _ (400 * t.val) (off_eq t) y hy).trans ?_
    exact congrFun ((hsm5 t).read_unread Y) y

/-! ## What the output buffer holds when the body is called -/

/-- A row of an earlier point is a row of the 10000. -/
theorem row_lt_of_lt {n u : ℕ} (hn : n < cfg0.N) (hu : u < n) (q : Fin 400) : 400 * u + q.val < 10000 :=
  Blocks.row_lt ⟨u, hu.trans hn⟩ q

/-- When the body is called at point n the output buffer holds, in the rows of every earlier point u, the rows
    that point stored: by induction on the point. -/
theorem finds_rows_aux : ∀ (n : ℕ) (hn : n < cfg0.N) (Y : (cfg0.win 5).block.Idx → Elt F (cfg0.win 5).elt),
    (rdat m c).Finds 5 ⟨n, hn⟩ Y → ∀ (u : ℕ) (hu : u < n) (q : Fin 400) (col : Fin 128),
      (Y : S10000x128.Idx → Elt F .f32) (ix2 (⟨400 * u + q.val, row_lt_of_lt hn hu q⟩ : Fin 10000) col)
        = yrow m c u (hu.trans hn) q col
  | 0, _, _, _, u, hu, _, _ => absurd hu (Nat.not_lt_zero u)
  | n + 1, hn, Y, hF, u, hu, q, col => by
    have hn' : n < cfg0.N := Nat.lt_of_succ_lt hn
    have hN : n + 1 < 25 := lt_of_lt_of_eq hn N_0
    rcases ((rdat m c).finds_of_pos (w := 5) (t := ⟨n + 1, hn⟩) (fetch5 _) (Nat.succ_ne_zero n) Y).mp hF with hfl | hL
    · have h24 := (flush0_5 _).mp hfl
      have h24' : n % 25 = 24 := h24
      omega
    · obtain ⟨Y', hF', hR⟩ : (rdat m c).Leaves 5 ⟨n, hn'⟩ Y := hL
      rw [rdat_after5] at hR
      have hR' : outRel m c ⟨n, hn'⟩ (Y' : Vec F S10000x128 .f32) (Y : Vec F S10000x128 .f32) := hR
      by_cases hun : u = n
      · subst hun
        exact outRel_row m c ⟨u, hn'⟩ (by show u ≠ 24; omega) Y' Y hR' q col
      · have hu' : u < n := by omega
        refine (outRel_other m c ⟨n, hn'⟩ (by show n ≠ 24; omega) Y' Y hR' _ (Or.inl ?_)).trans
          (finds_rows_aux n hn' Y' hF' u hu' q col)
        show 400 * u + q.val < 400 * n
        have := q.isLt
        omega

/-- When the body is called at point t the output buffer holds, in the rows of every earlier point u, the rows
    that point stored. -/
theorem finds_rows (t : Fin cfg0.N) (Y : (cfg0.win 5).block.Idx → Elt F (cfg0.win 5).elt)
    (h : (rdat m c).Finds 5 t Y) (u : ℕ) (hu : u < t.val) (q : Fin 400) (col : Fin 128) :
    (Y : S10000x128.Idx → Elt F .f32) (ix2 (⟨400 * u + q.val, row_lt_of_lt t.isLt hu q⟩ : Fin 10000) col)
      = yrow m c u (hu.trans t.isLt) q col :=
  finds_rows_aux m c t.val t.isLt Y h u hu q col

/-! ## The result array after the run -/

/-- The last grid point. -/
abbrev tLast : Fin cfg0.N := ⟨24, by decide⟩

/-- The result array after the run is what the last point leaves in the output buffer: the buffer as the last
    point finds it, with the last point's stores written over it. -/
theorem final_array (Z : Buf (Elt F) ((cfg0.win 5).arr.view.loc (c.tc : Thread nD τ)))
    (hZ : (rdat m c).ArrAt 5 cfg0.N Z) :
    ∃ Y : Vec F S10000x128 .f32, (rdat m c).Finds 5 tLast Y
      ∧ (Z : S10000x128.Idx → Elt F .f32)
        = (sm5 tLast).view.read (Elt F) ((sm5 tLast).view.writes (Elt F) ((hsm5 tLast).unread Y) (outStores m c tLast Y)) := by
  have hZ' : (rdat m c).ArrAt 5 (tLast.val + 1) Z := hZ
  rw [RDat.ArrAt_succ, if_pos ((flush0_5 tLast).mpr rfl)] at hZ'
  obtain ⟨G₀, X, -, ⟨Y, hF, hR⟩, hG⟩ := hZ'
  rw [rdat_after5] at hR
  refine ⟨Y, hF, ?_⟩
  rw [hG, Blocks.out_whole]
  exact hR

end Grid

end Cert.KernelIdeal.OutBuffer

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.IdealPayloads.lean ====
/-
  The kernel body's values between its loads and its stores, read at one index over the extended reals.

  The product block is the plain matrix product, a sum over the 10000 contracted coordinates; the two
  statistics rows add to what they held the column sums of the block and of its squares; the cleared
  statistics are zero; the column mean, scale and shift are the scalar quotient, reciprocal square root,
  products and differences of the two statistics rows and the gain and offset rows; every slab of the
  result is the hyperbolic tangent of the slab's row times the column scale plus the column shift, the
  one row of scale and of shift being read at every row of the slab.
-/
import proofs.«152943_g16630113370191_cont_week2b_735_29_alg».proof.Proof.Gen.KernelIdeal.Skeleton
import proofs.«152943_g16630113370191_cont_week2b_735_29_alg».proof.Proof.LibPlainDot
import proofs.«152943_g16630113370191_cont_week2b_735_29_alg».proof.Proof.LibLaneSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! ## The product block and the statistics -/

/-- The product block at row q, column c: the sum over the contracted coordinate of the products. -/
theorem pay2_apply (v3 : Vec Ideal S400x10000 .f32) (v4 : Vec Ideal S10000x128 .f32) (q : Fin 400) (c : Fin 128) :
    k0_pay2 (F := Ideal) v3 v4 (ix2 q c) = ∑ k : Fin 10000, v3 (ix2 q k) * v4 (ix2 k c) :=
  Cert.PlainDot.matmul_zero_apply _ rfl none v3 v4 q c

/-- The first statistics row at column c: what it held plus the column sum of the product block. -/
theorem pay3_apply (v3 : Vec Ideal S400x10000 .f32) (v4 : Vec Ideal S10000x128 .f32) (v9 : Vec Ideal S1x128 .f32) (c : Fin 128) :
    k0_pay3 (F := Ideal) v3 v4 v9 (ix2 (0 : Fin 1) c)
      = v9 (ix2 (0 : Fin 1) c) + ∑ q : Fin 400, k0_pay2 (F := Ideal) v3 v4 (ix2 q c) := by
  unfold k0_pay3
  refine (congrFun (shapeCast_self _ _) _).trans ?_
  refine (addf_apply _ _ _).trans ?_
  refine congrArg (v9 (ix2 (0 : Fin 1) c) + ·) ?_
  refine (shapeCast_a_1a_apply _ _ 0 c).trans ?_
  exact Cert.LaneSum.sum_first2 (k0_pay2 (F := Ideal) v3 v4) _ _ _ _ c

/-- The second statistics row at column c: what it held plus the column sum of the squares of the block. -/
theorem pay4_apply (v3 : Vec Ideal S400x10000 .f32) (v4 : Vec Ideal S10000x128 .f32) (v16 : Vec Ideal S1x128 .f32) (c : Fin 128) :
    k0_pay4 (F := Ideal) v3 v4 v16 (ix2 (0 : Fin 1) c)
      = v16 (ix2 (0 : Fin 1) c)
        + ∑ q : Fin 400, k0_pay2 (F := Ideal) v3 v4 (ix2 q c) * k0_pay2 (F := Ideal) v3 v4 (ix2 q c) := by
  unfold k0_pay4
  refine (congrFun (shapeCast_self _ _) _).trans ?_
  refine (addf_apply _ _ _).trans ?_
  refine congrArg (v16 (ix2 (0 : Fin 1) c) + ·) ?_
  refine (shapeCast_a_1a_apply _ _ 0 c).trans ?_
  exact Cert.LaneSum.sum_first2 (mulf (k0_pay2 (F := Ideal) v3 v4) (k0_pay2 (F := Ideal) v3 v4)) _ _ _ _ c

/-- The cleared statistics are zero everywhere. -/
theorem pay1_pay33 : k0_pay1 (F := Ideal) k0_pay33 = fun _ => (0 : EReal) := by
  unfold k0_pay1
  refine (shapeCast_self _ _).trans ?_
  funext i
  exact Ideal.ofBits_zero_f32

/-! ## The column mean, scale and shift -/

/-- The column mean: the first statistics row divided by the count. -/
theorem pay34_apply (v27 : Vec Ideal S1x128 .f32) (c : Fin 128) :
    k0_pay34 (F := Ideal) v27 (ix2 (0 : Fin 1) c)
      = Ideal.div (v27 (ix2 (0 : Fin 1) c)) (Ideal.ofBits .f32 0x461C4000#32) := rfl

/-- The column scale: the reciprocal square root of mean of squares minus squared mean plus ε, times the gain. -/
theorem pay35_apply (v27 v30 v38 : Vec Ideal S1x128 .f32) (c : Fin 128) :
    k0_pay35 (F := Ideal) v27 v30 v38 (ix2 (0 : Fin 1) c)
      = Ideal.rsqrt (Ideal.div (v30 (ix2 (0 : Fin 1) c)) (Ideal.ofBits .f32 0x461C4000#32)
          - Ideal.div (v27 (ix2 (0 : Fin 1) c)) (Ideal.ofBits .f32 0x461C4000#32)
            * Ideal.div (v27 (ix2 (0 : Fin 1) c)) (Ideal.ofBits .f32 0x461C4000#32)
          + Ideal.ofBits .f32 0x3727C5AC#32) * v38 (ix2 (0 : Fin 1) c) := by
  unfold k0_pay35
  refine (mulf_apply _ _ _).trans ?_
  exact congrArg₂ (fun a b : EReal => a * b) rfl (congrFun (shapeCast_self v38 _) _)

/-- The column shift: the offset minus the mean times the scale. -/
theorem pay36_apply (v27 v30 v38 v41 : Vec Ideal S1x128 .f32) (c : Fin 128) :
    k0_pay36 (F := Ideal) v27 v30 v38 v41 (ix2 (0 : Fin 1) c)
      = v41 (ix2 (0 : Fin 1) c)
        - Ideal.div (v27 (ix2 (0 : Fin 1) c)) (Ideal.ofBits .f32 0x461C4000#32)
          * k0_pay35 (F := Ideal) v27 v30 v38 (ix2 (0 : Fin 1) c) := by
  unfold k0_pay36
  refine (subf_apply _ _ _).trans ?_
  exact congrArg₂ (fun a b : EReal => a - b) (congrFun (shapeCast_self v41 _) _) rfl

/-! ## The slabs of the result -/

/-- A slab: the hyperbolic tangent of the slab's value times the one row of scale plus the one row of shift. -/
theorem slab_apply (x : Vec Ideal S1000x128 .f32) (s t : FVec Ideal S1x128 .f32)
    (h1 : S1000x128.ShapeCasts S1000x128) (h2 : S1x128.Broadcasts S1000x128) (p : Fin 1000) (c : Fin 128) :
    tanh (addf (mulf (shapeCast S1000x128 x h1) (broadcastTo S1000x128 s h2)) (broadcastTo S1000x128 t h2)) (ix2 p c)
      = Ideal.tanh (x (ix2 p c) * s (ix2 (0 : Fin 1) c) + t (ix2 (0 : Fin 1) c)) :=
  congrArg Ideal.tanh
    (congrArg₂ (fun a b : EReal => a + b)
      (congrArg₂ (fun a b : EReal => a * b) (congrFun (shapeCast_self x h1) _) (broadcastTo_1b_ab_apply s h2 p c))
      (broadcastTo_1b_ab_apply t h2 p c))

theorem pay37_apply (v27 v30 v38 v41 : Vec Ideal S1x128 .f32) (v45 : Vec Ideal S1000x128 .f32) (p : Fin 1000) (c : Fin 128) :
    k0_pay37 (F := Ideal) v27 v30 v38 v41 v45 (ix2 p c)
      = Ideal.tanh (v45 (ix2 p c) * k0_pay35 (F := Ideal) v27 v30 v38 (ix2 (0 : Fin 1) c)
          + k0_pay36 (F := Ideal) v27 v30 v38 v41 (ix2 (0 : Fin 1) c)) :=
  slab_apply v45 _ _ _ _ p c

theorem pay38_apply (v27 v30 v38 v41 : Vec Ideal S1x128 .f32) (v53 : Vec Ideal S1000x128 .f32) (p : Fin 1000) (c : Fin 128) :
    k0_pay38 (F := Ideal) v27 v30 v38 v41 v53 (ix2 p c)
      = Ideal.tanh (v53 (ix2 p c) * k0_pay35 (F := Ideal) v27 v30 v38 (ix2 (0 : Fin 1) c)
          + k0_pay36 (F := Ideal) v27 v30 v38 v41 (ix2 (0 : Fin 1) c)) :=
  slab_apply v53 _ _ _ _ p c

/-- The third slab's value carried to the next part of the body is the loaded slab itself. -/
theorem pay39_eq (v61 : Vec Ideal S1000x128 .f32) : k0_pay39 (F := Ideal) v61 = v61 :=
  shapeCast_self v61 _

/-- The scale carried to the next part of the body: the one row of scale at every row. -/
theorem pay40_apply (v27 v30 v38 : Vec Ideal S1x128 .f32) (p : Fin 1000) (c : Fin 128) :
    k0_pay40 (F := Ideal) v27 v30 v38 (ix2 p c) = k0_pay35 (F := Ideal) v27 v30 v38 (ix2 (0 : Fin 1) c) := by
  unfold k0_pay40
  exact broadcastTo_1b_ab_apply (k0_pay35 (F := Ideal) v27 v30 v38) _ p c

/-- The third slab from the carried value and the carried scale. -/
theorem pay41_apply (v44 : FVec Ideal S1x128 .f32) (v62 v63 : FVec Ideal S1000x128 .f32) (p : Fin 1000) (c : Fin 128) :
    k0_pay41 (F := Ideal) v44 v62 v63 (ix2 p c)
      = Ideal.tanh (v62 (ix2 p c) * v63 (ix2 p c) + v44 (ix2 (0 : Fin 1) c)) :=
  congrArg Ideal.tanh (congrArg₂ (fun a b : EReal => a + b) rfl (broadcastTo_1b_ab_apply v44 _ p c))

/-- The third slab, composed with the two carried values. -/
theorem pay41_comp_apply (v44 : FVec Ideal S1x128 .f32) (v27 v30 v38 : Vec Ideal S1x128 .f32) (v61 : Vec Ideal S1000x128 .f32)
    (p : Fin 1000) (c : Fin 128) :
    k0_pay41 (F := Ideal) v44 (k0_pay39 (F := Ideal) v61) (k0_pay40 (F := Ideal) v27 v30 v38) (ix2 p c)
      = Ideal.tanh (v61 (ix2 p c) * k0_pay35 (F := Ideal) v27 v30 v38 (ix2 (0 : Fin 1) c) + v44 (ix2 (0 : Fin 1) c)) :=
  slab_apply v61 _ v44 _ _ p c

theorem pay42_apply (v40 v44 : FVec Ideal S1x128 .f32) (v69 : Vec Ideal S1000x128 .f32) (p : Fin 1000) (c : Fin 128) :
    k0_pay42 (F := Ideal) v40 v44 v69 (ix2 p c)
      = Ideal.tanh (v69 (ix2 p c) * v40 (ix2 (0 : Fin 1) c) + v44 (ix2 (0 : Fin 1) c)) :=
  slab_apply v69 v40 v44 _ _ p c

theorem pay43_apply (v40 v44 : FVec Ideal S1x128 .f32) (v77 : Vec Ideal S1000x128 .f32) (p : Fin 1000) (c : Fin 128) :
    k0_pay43 (F := Ideal) v40 v44 v77 (ix2 p c)
      = Ideal.tanh (v77 (ix2 p c) * v40 (ix2 (0 : Fin 1) c) + v44 (ix2 (0 : Fin 1) c)) :=
  slab_apply v77 v40 v44 _ _ p c

theorem pay44_apply (v40 v44 : FVec Ideal S1x128 .f32) (v85 : Vec Ideal S1000x128 .f32) (p : Fin 1000) (c : Fin 128) :
    k0_pay44 (F := Ideal) v40 v44 v85 (ix2 p c)
      = Ideal.tanh (v85 (ix2 p c) * v40 (ix2 (0 : Fin 1) c) + v44 (ix2 (0 : Fin 1) c)) :=
  slab_apply v85 v40 v44 _ _ p c

theorem pay45_apply (v40 v44 : FVec Ideal S1x128 .f32) (v93 : Vec Ideal S1000x128 .f32) (p : Fin 1000) (c : Fin 128) :
    k0_pay45 (F := Ideal) v40 v44 v93 (ix2 p c)
      = Ideal.tanh (v93 (ix2 p c) * v40 (ix2 (0 : Fin 1) c) + v44 (ix2 (0 : Fin 1) c)) :=
  slab_apply v93 v40 v44 _ _ p c

theorem pay5_apply (v40 v44 : FVec Ideal S1x128 .f32) (v101 : Vec Ideal S1000x128 .f32) (p : Fin 1000) (c : Fin 128) :
    k0_pay5 (F := Ideal) v40 v44 v101 (ix2 p c)
      = Ideal.tanh (v101 (ix2 p c) * v40 (ix2 (0 : Fin 1) c) + v44 (ix2 (0 : Fin 1) c)) :=
  slab_apply v101 v40 v44 _ _ p c

theorem pay6_apply (v40 v44 : FVec Ideal S1x128 .f32) (v109 : Vec Ideal S1000x128 .f32) (p : Fin 1000) (c : Fin 128) :
    k0_pay6 (F := Ideal) v40 v44 v109 (ix2 p c)
      = Ideal.tanh (v109 (ix2 p c) * v40 (ix2 (0 : Fin 1) c) + v44 (ix2 (0 : Fin 1) c)) :=
  slab_apply v109 v40 v44 _ _ p c

theorem pay7_apply (v40 v44 : FVec Ideal S1x128 .f32) (v117 : Vec Ideal S1000x128 .f32) (p : Fin 1000) (c : Fin 128) :
    k0_pay7 (F := Ideal) v40 v44 v117 (ix2 p c)
      = Ideal.tanh (v117 (ix2 p c) * v40 (ix2 (0 : Fin 1) c) + v44 (ix2 (0 : Fin 1) c)) :=
  slab_apply v117 v40 v44 _ _ p c

/-! ## The support -/

/-- The 128 × 128 matrix the body builds from the eight 16 × 16 column slices of the weight block and sixteen
    negations handed to it, with twelve more negations of its own: eight columns of blocks, each the stack of
    eight 16 × 16 blocks, set side by side. -/
def hamOf (v28 v29 v30 v31 v32 v33 v34 v35 v37 v39 v41 v43 v45 v47 v49 v51 v53 v55 v57 v59 v61 v63 v65 v67 : FVec Ideal S16x16 .f32) (cst_33 : Ideal .f32) : FVec Ideal S128x128 .f32 :=
  have v68 : FVec Ideal S16x16 .f32 := broadcast S16x16 cst_33
  have v69 : FVec Ideal S16x16 .f32 := subf v68 v35
  have cst_34 : Ideal .f32 := Scalar.ofBits .f32 0x00000000#32
  have v70 : FVec Ideal S16x16 .f32 := broadcast S16x16 cst_34
  have v71 : FVec Ideal S16x16 .f32 := subf v70 v29
  have cst_35 : Ideal .f32 := Scalar.ofBits .f32 0x00000000#32
  have v72 : FVec Ideal S16x16 .f32 := broadcast S16x16 cst_35
  have v73 : FVec Ideal S16x16 .f32 := subf v72 v28
  have cst_36 : Ideal .f32 := Scalar.ofBits .f32 0x00000000#32
  have v74 : FVec Ideal S16x16 .f32 := broadcast S16x16 cst_36
  have v75 : FVec Ideal S16x16 .f32 := subf v74 v31
  have cst_37 : Ideal .f32 := Scalar.ofBits .f32 0x00000000#32
  have v76 : FVec Ideal S16x16 .f32 := broadcast S16x16 cst_37
  have v77 : FVec Ideal S16x16 .f32 := subf v76 v33
  have cst_38 : Ideal .f32 := Scalar.ofBits .f32 0x00000000#32
  have v78 : FVec Ideal S16x16 .f32 := broadcast S16x16 cst_38
  have v79 : FVec Ideal S16x16 .f32 := subf v78 v30
  have cst_39 : Ideal .f32 := Scalar.ofBits .f32 0x00000000#32
  have v80 : FVec Ideal S16x16 .f32 := broadcast S16x16 cst_39
  have v81 : FVec Ideal S16x16 .f32 := subf v80 v28
  have cst_40 : Ideal .f32 := Scalar.ofBits .f32 0x00000000#32
  have v82 : FVec Ideal S16x16 .f32 := broadcast S16x16 cst_40
  have v83 : FVec Ideal S16x16 .f32 := subf v82 v29
  have cst_41 : Ideal .f32 := Scalar.ofBits .f32 0x00000000#32
  have v84 : FVec Ideal S16x16 .f32 := broadcast S16x16 cst_41
  have v85 : FVec Ideal S16x16 .f32 := subf v84 v34
  have cst_42 : Ideal .f32 := Scalar.ofBits .f32 0x00000000#32
  have v86 : FVec Ideal S16x16 .f32 := broadcast S16x16 cst_42
  have v87 : FVec Ideal S16x16 .f32 := subf v86 v31
  have cst_43 : Ideal .f32 := Scalar.ofBits .f32 0x00000000#32
  have v88 : FVec Ideal S16x16 .f32 := broadcast S16x16 cst_43
  have v89 : FVec Ideal S16x16 .f32 := subf v88 v30
  have cst_44 : Ideal .f32 := Scalar.ofBits .f32 0x00000000#32
  have v90 : FVec Ideal S16x16 .f32 := broadcast S16x16 cst_44
  have v91 : FVec Ideal S16x16 .f32 := subf v90 v28
  have v92 : FVec Ideal S128x16 .f32 := concatenate S128x16 0 [⟨S16x16, v28⟩, ⟨S16x16, v29⟩, ⟨S16x16, v30⟩, ⟨S16x16, v31⟩, ⟨S16x16, v32⟩, ⟨S16x16, v33⟩, ⟨S16x16, v34⟩, ⟨S16x16, v35⟩] concatenates_S16x16_S16x16_S16x16_S16x16_S16x16_S16x16_S16x16_S16x16_S128x16_d0
  have v93 : FVec Ideal S128x16 .f32 := concatenate S128x16 0 [⟨S16x16, v29⟩, ⟨S16x16, v37⟩, ⟨S16x16, v31⟩, ⟨S16x16, v39⟩, ⟨S16x16, v33⟩, ⟨S16x16, v41⟩, ⟨S16x16, v43⟩, ⟨S16x16, v34⟩] concatenates_S16x16_S16x16_S16x16_S16x16_S16x16_S16x16_S16x16_S16x16_S128x16_d0
  have v94 : FVec Ideal S128x16 .f32 := concatenate S128x16 0 [⟨S16x16, v30⟩, ⟨S16x16, v45⟩, ⟨S16x16, v47⟩, ⟨S16x16, v29⟩, ⟨S16x16, v34⟩, ⟨S16x16, v35⟩, ⟨S16x16, v49⟩, ⟨S16x16, v51⟩] concatenates_S16x16_S16x16_S16x16_S16x16_S16x16_S16x16_S16x16_S16x16_S128x16_d0
  have v95 : FVec Ideal S128x16 .f32 := concatenate S128x16 0 [⟨S16x16, v31⟩, ⟨S16x16, v30⟩, ⟨S16x16, v53⟩, ⟨S16x16, v55⟩, ⟨S16x16, v35⟩, ⟨S16x16, v57⟩, ⟨S16x16, v33⟩, ⟨S16x16, v59⟩] concatenates_S16x16_S16x16_S16x16_S16x16_S16x16_S16x16_S16x16_S16x16_S128x16_d0
  have v96 : FVec Ideal S128x16 .f32 := concatenate S128x16 0 [⟨S16x16, v32⟩, ⟨S16x16, v61⟩, ⟨S16x16, v63⟩, ⟨S16x16, v65⟩, ⟨S16x16, v67⟩, ⟨S16x16, v29⟩, ⟨S16x16, v30⟩, ⟨S16x16, v31⟩] concatenates_S16x16_S16x16_S16x16_S16x16_S16x16_S16x16_S16x16_S16x16_S128x16_d0
  have v97 : FVec Ideal S128x16 .f32 := concatenate S128x16 0 [⟨S16x16, v33⟩, ⟨S16x16, v32⟩, ⟨S16x16, v69⟩, ⟨S16x16, v34⟩, ⟨S16x16, v71⟩, ⟨S16x16, v73⟩, ⟨S16x16, v75⟩, ⟨S16x16, v30⟩] concatenates_S16x16_S16x16_S16x16_S16x16_S16x16_S16x16_S16x16_S16x16_S128x16_d0
  have v98 : FVec Ideal S128x16 .f32 := concatenate S128x16 0 [⟨S16x16, v34⟩, ⟨S16x16, v35⟩, ⟨S16x16, v32⟩, ⟨S16x16, v77⟩, ⟨S16x16, v79⟩, ⟨S16x16, v31⟩, ⟨S16x16, v81⟩, ⟨S16x16, v83⟩] concatenates_S16x16_S16x16_S16x16_S16x16_S16x16_S16x16_S16x16_S16x16_S128x16_d0
  have v99 : FVec Ideal S128x16 .f32 := concatenate S128x16 0 [⟨S16x16, v35⟩, ⟨S16x16, v85⟩, ⟨S16x16, v33⟩, ⟨S16x16, v32⟩, ⟨S16x16, v87⟩, ⟨S16x16, v89⟩, ⟨S16x16, v29⟩, ⟨S16x16, v91⟩] concatenates_S16x16_S16x16_S16x16_S16x16_S16x16_S16x16_S16x16_S16x16_S128x16_d0
  have v100 : FVec Ideal S128x128 .f32 := concatenate S128x128 1 [⟨S128x16, v92⟩, ⟨S128x16, v93⟩, ⟨S128x16, v94⟩, ⟨S128x16, v95⟩, ⟨S128x16, v96⟩, ⟨S128x16, v97⟩, ⟨S128x16, v98⟩, ⟨S128x16, v99⟩] concatenates_S128x16_S128x16_S128x16_S128x16_S128x16_S128x16_S128x16_S128x16_S128x128_d1
  v100

/-- The matrix of the weight block w: the slices and negations the body's first part hands on are those of w. -/
def hamK (w : Vec Ideal S16x128 .f32) : FVec Ideal S128x128 .f32 :=
  hamOf (k0_pay8 (F := Ideal) w) (k0_pay9 (F := Ideal) w) (k0_pay10 (F := Ideal) w) (k0_pay11 (F := Ideal) w) (k0_pay12 (F := Ideal) w) (k0_pay13 (F := Ideal) w) (k0_pay14 (F := Ideal) w) (k0_pay15 (F := Ideal) w) (k0_pay16 (F := Ideal) w) (k0_pay17 (F := Ideal) w) (k0_pay18 (F := Ideal) w) (k0_pay19 (F := Ideal) w) (k0_pay20 (F := Ideal) w) (k0_pay21 (F := Ideal) w) (k0_pay22 (F := Ideal) w) (k0_pay23 (F := Ideal) w) (k0_pay24 (F := Ideal) w) (k0_pay25 (F := Ideal) w) (k0_pay26 (F := Ideal) w) (k0_pay27 (F := Ideal) w) (k0_pay28 (F := Ideal) w) (k0_pay29 (F := Ideal) w) (k0_pay30 (F := Ideal) w) (k0_pay31 (F := Ideal) w)
    (Scalar.ofBits (F := Ideal) .f32 0x00000000#32)

/-- The support at row k, column c, for any slices: the sum over j of the feature block at (k, j) times the matrix at (j, c). -/
theorem pay32_apply_of (v28 v29 v30 v31 v32 v33 v34 v35 v37 v39 v41 v43 v45 v47 v49 v51 v53 v55 v57 v59 v61 v63 v65 v67 : FVec Ideal S16x16 .f32) (cst_33 : Ideal .f32)
    (v101 : Vec Ideal S10000x128 .f32) (k : Fin 10000) (c : Fin 128) :
    k0_pay32 (F := Ideal) v28 v29 v30 v31 v32 v33 v34 v35 v37 v39 v41 v43 v45 v47 v49 v51 v53 v55 v57 v59 v61 v63 v65 v67 cst_33 v101 (ix2 k c)
      = ∑ j : Fin 128, v101 (ix2 k j) * hamOf v28 v29 v30 v31 v32 v33 v34 v35 v37 v39 v41 v43 v45 v47 v49 v51 v53 v55 v57 v59 v61 v63 v65 v67 cst_33 (ix2 j c) := by
  unfold k0_pay32
  refine (congrFun (shapeCast_self _ _) _).trans ?_
  exact Cert.PlainDot.matmul_zero_apply _ rfl none v101 (hamOf v28 v29 v30 v31 v32 v33 v34 v35 v37 v39 v41 v43 v45 v47 v49 v51 v53 v55 v57 v59 v61 v63 v65 v67 cst_33) k c

/-- The support of the weight block w at row k, column c. -/
theorem pay32_apply (w : Vec Ideal S16x128 .f32) (v101 : Vec Ideal S10000x128 .f32) (k : Fin 10000) (c : Fin 128) :
    k0_pay32 (F := Ideal) (k0_pay8 (F := Ideal) w) (k0_pay9 (F := Ideal) w) (k0_pay10 (F := Ideal) w) (k0_pay11 (F := Ideal) w) (k0_pay12 (F := Ideal) w) (k0_pay13 (F := Ideal) w) (k0_pay14 (F := Ideal) w) (k0_pay15 (F := Ideal) w) (k0_pay16 (F := Ideal) w) (k0_pay17 (F := Ideal) w) (k0_pay18 (F := Ideal) w) (k0_pay19 (F := Ideal) w) (k0_pay20 (F := Ideal) w) (k0_pay21 (F := Ideal) w) (k0_pay22 (F := Ideal) w) (k0_pay23 (F := Ideal) w) (k0_pay24 (F := Ideal) w) (k0_pay25 (F := Ideal) w) (k0_pay26 (F := Ideal) w) (k0_pay27 (F := Ideal) w) (k0_pay28 (F := Ideal) w) (k0_pay29 (F := Ideal) w) (k0_pay30 (F := Ideal) w) (k0_pay31 (F := Ideal) w)
        (Scalar.ofBits (F := Ideal) .f32 0x00000000#32) v101 (ix2 k c)
      = ∑ j : Fin 128, v101 (ix2 k j) * hamK w (ix2 j c) :=
  pay32_apply_of _ _ _ _ _ _ _ _ _ _ _ _ _ _ _ _ _ _ _ _ _ _ _ _ _ v101 k c

end Cert.KernelIdeal.Pay

end
-- ==== Proof.IdealLastRead.lean ====
/-
  The output buffer after the LAST grid point, read at one index over the extended reals.

  At the last point the body stores the point's 400 rows of the product into the output buffer, then rewrites the
  whole buffer in ten slabs of 1000 rows: each slab is loaded from the buffer as the earlier stores left it and
  stored back as the hyperbolic tangent of row times scale plus shift, the scale and the shift one row each, formed
  from the two statistics rows after the point's two statistics stores. The slabs are disjoint and cover every row,
  and a slab is loaded before any store that meets it other than the 400-row store; so every element ends as the
  hyperbolic tangent of what the 400-row store alone left there, times the column's scale, plus the column's shift.
  The proof walks the list of stores newest first: a row skips the slabs above it, meets its own slab, and the
  slab's loaded value skips the slabs below it.
-/
import proofs.«152943_g16630113370191_cont_week2b_735_29_alg».proof.Proof.IdealData
import proofs.«152943_g16630113370191_cont_week2b_735_29_alg».proof.Proof.IdealPayloads
import Idealize.ShloMosaic.Lib.WholeRead
import Idealize.ShloMosaic.Lib.WritesUnit
import Idealize.ShloMosaic.Lib.Pipeline.Value
import Idealize.ShloMosaic.Lib.Pipeline.FrameBody

set_option maxRecDepth 16384

noncomputable section

namespace Cert.KernelIdeal.LastRead

open Idealize.ShloMosaic Idealize.ShloMosaic.ValueIdx Idealize.ShloMosaic.Tactic Idealize.SL.Sem
open Idealize.ShloMosaic.Pipeline (Dat RDat Cfg Window cellOf)
open Cert.KernelIdeal Cert.KernelIdeal.Gen Cert.KernelIdeal.Layer Cert.KernelIdeal.Pay
open scoped BigOperators

/-! ## A load of a slab of rows

A load of the 1000 rows from row `o` of a 10000 × 128 buffer reads, at row `p` of the slab, the buffer's row `o + p`. -/

theorem load_slab {κ : Kind} {sp : Space} (v : View sig κ sp S10000x128 .f32) (g : v.ty.Contents (Elt Ideal)) (o : ℕ)
    (inb : ∀ a, (![o, 0] : Fin 2 → ℕ) a + (![1000, 128] : Fin 2 → ℕ) a ≤ S10000x128.size a)
    (p : Fin 1000) (col : Fin 128) (r : Fin 10000) (hr : r.val = o + p.val) :
    View.readAt (Elt Ideal) v (Rect.unit (s := S10000x128) ![o, 0] ![1000, 128] inb).toLoadRect g (ix2 p col)
      = v.read (Elt Ideal) g (ix2 r col) := by
  refine congrArg (v.read (Elt Ideal) g) ?_
  funext a; apply Fin.ext
  match a with
  | ⟨0, _⟩ => show o + 1 * p.val = r.val; omega
  | ⟨1, _⟩ => show 0 + 1 * col.val = col.val; omega

/-! ## Loads through a whole memref held at known contents -/

theorem zero2 : (![0, 0] : Fin 2 → ℕ) = fun _ => 0 := by
  funext a; match a with | ⟨0, _⟩ => rfl | ⟨1, _⟩ => rfl

/-- A load of the whole buffer reads the contents. -/
theorem load_all {d : Fin 2 → ℕ} (mm : Memref sig .tc .vmem ⟨2, d⟩ .f32) (h : mm.IsWhole) (X : Vec Ideal ⟨2, d⟩ .f32)
    (inb : ∀ a, (![0, 0] : Fin 2 → ℕ) a + (⟨2, d⟩ : Shape).size a ≤ (⟨2, d⟩ : Shape).size a) :
    View.readAt (Elt Ideal) mm.view (Rect.unit ![0, 0] (⟨2, d⟩ : Shape).size inb).toLoadRect (h.unread X) = X := by
  rw [View.readAt_eq_ld, h.read_unread, View.ld_unit_zero zero2]

section Run

variable (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole)
  (hc0 : ¬atFirst i) (hc1 : atLast i) (x0 : Vec Ideal S10000x128 .f32) (x1 : Vec Ideal S16x128 .f32) (x2 : Vec Ideal S1x128 .f32) (x3 : Vec Ideal S1x128 .f32) (x4 : Vec Ideal S400x10000 .f32) (x5 : Vec Ideal S10000x128 .f32) (xs0 : Vec Ideal S10000x128 .f32) (xs1 : Vec Ideal S8x128 .f32)

/-! ## Rows at or past a slab's first row do not see the slabs before it

The list of stores before slab `k` is rewritten holds the slabs `0 … k − 1` (rows below `1000 k`) over the point's
400 rows; a row at or past `1000 k` misses every one of those slabs, so it reads what the 400-row store alone left. -/

theorem low_1 (r : Fin 10000) (col : Fin 128) (h : 1000 ≤ r.val) :
    arg6.view.read (Elt Ideal) (arg6.view.writes (Elt Ideal) (harg6.unread x5) (runLast.sl.H5_2 (F := Ideal) c i arg3 harg3 arg4 harg4 arg5 harg5 arg6 harg6 arg7 harg7 arg8 harg8 x2 x3 x4 x5 xs0 xs1)) (ix2 r col)
      = arg6.view.read (Elt Ideal) (arg6.view.writes (Elt Ideal) (harg6.unread x5) (runLast.sl.H5_1 (F := Ideal) c i arg5 harg5 arg7 harg7 x4 xs0)) (ix2 r col) := by
  unfold runLast.sl.H5_2
  exact View.read_writes_cons_rows_of_not_mem (o := 0) (W := 1000) arg6.view (harg6.unread x5) _ _ _ (ix2 r col) rfl rfl (Or.inr (by show 0 + 1000 ≤ r.val; omega))

theorem low_2 (r : Fin 10000) (col : Fin 128) (h : 2000 ≤ r.val) :
    arg6.view.read (Elt Ideal) (arg6.view.writes (Elt Ideal) (harg6.unread x5) (runLast.sl.H5_3 (F := Ideal) c i arg3 harg3 arg4 harg4 arg5 harg5 arg6 harg6 arg7 harg7 arg8 harg8 x2 x3 x4 x5 xs0 xs1)) (ix2 r col)
      = arg6.view.read (Elt Ideal) (arg6.view.writes (Elt Ideal) (harg6.unread x5) (runLast.sl.H5_1 (F := Ideal) c i arg5 harg5 arg7 harg7 x4 xs0)) (ix2 r col) := by
  unfold runLast.sl.H5_3
  refine (View.read_writes_cons_rows_of_not_mem (o := 1000) (W := 1000) arg6.view (harg6.unread x5) _ _ _ (ix2 r col) rfl rfl (Or.inr (by show 1000 + 1000 ≤ r.val; omega))).trans ?_
  exact low_1 c i arg3 harg3 arg4 harg4 arg5 harg5 arg6 harg6 arg7 harg7 arg8 harg8 x2 x3 x4 x5 xs0 xs1 r col (by omega)

theorem low_3 (r : Fin 10000) (col : Fin 128) (h : 3000 ≤ r.val) :
    arg6.view.read (Elt Ideal) (arg6.view.writes (Elt Ideal) (harg6.unread x5) (runLast.sl.H5_4 (F := Ideal) c i arg3 harg3 arg4 harg4 arg5 harg5 arg6 harg6 arg7 harg7 arg8 harg8 x2 x3 x4 x5 xs0 xs1)) (ix2 r col)
      = arg6.view.read (Elt Ideal) (arg6.view.writes (Elt Ideal) (harg6.unread x5) (runLast.sl.H5_1 (F := Ideal) c i arg5 harg5 arg7 harg7 x4 xs0)) (ix2 r col) := by
  unfold runLast.sl.H5_4
  refine (View.read_writes_cons_rows_of_not_mem (o := 2000) (W := 1000) arg6.view (harg6.unread x5) _ _ _ (ix2 r col) rfl rfl (Or.inr (by show 2000 + 1000 ≤ r.val; omega))).trans ?_
  exact low_2 c i arg3 harg3 arg4 harg4 arg5 harg5 arg6 harg6 arg7 harg7 arg8 harg8 x2 x3 x4 x5 xs0 xs1 r col (by omega)

theorem low_4 (r : Fin 10000) (col : Fin 128) (h : 4000 ≤ r.val) :
    arg6.view.read (Elt Ideal) (arg6.view.writes (Elt Ideal) (harg6.unread x5) (runLast.sl.H5_5 (F := Ideal) c i arg3 harg3 arg4 harg4 arg5 harg5 arg6 harg6 arg7 harg7 arg8 harg8 x2 x3 x4 x5 xs0 xs1)) (ix2 r col)
      = arg6.view.read (Elt Ideal) (arg6.view.writes (Elt Ideal) (harg6.unread x5) (runLast.sl.H5_1 (F := Ideal) c i arg5 harg5 arg7 harg7 x4 xs0)) (ix2 r col) := by
  unfold runLast.sl.H5_5
  refine (View.read_writes_cons_rows_of_not_mem (o := 3000) (W := 1000) arg6.view (harg6.unread x5) _ _ _ (ix2 r col) rfl rfl (Or.inr (by show 3000 + 1000 ≤ r.val; omega))).trans ?_
  exact low_3 c i arg3 harg3 arg4 harg4 arg5 harg5 arg6 harg6 arg7 harg7 arg8 harg8 x2 x3 x4 x5 xs0 xs1 r col (by omega)

theorem low_5 (r : Fin 10000) (col : Fin 128) (h : 5000 ≤ r.val) :
    arg6.view.read (Elt Ideal) (arg6.view.writes (Elt Ideal) (harg6.unread x5) (runLast.sl.H5_6 (F := Ideal) c i arg3 harg3 arg4 harg4 arg5 harg5 arg6 harg6 arg7 harg7 arg8 harg8 x2 x3 x4 x5 xs0 xs1)) (ix2 r col)
      = arg6.view.read (Elt Ideal) (arg6.view.writes (Elt Ideal) (harg6.unread x5) (runLast.sl.H5_1 (F := Ideal) c i arg5 harg5 arg7 harg7 x4 xs0)) (ix2 r col) := by
  unfold runLast.sl.H5_6
  refine (View.read_writes_cons_rows_of_not_mem (o := 4000) (W := 1000) arg6.view (harg6.unread x5) _ _ _ (ix2 r col) rfl rfl (Or.inr (by show 4000 + 1000 ≤ r.val; omega))).trans ?_
  exact low_4 c i arg3 harg3 arg4 harg4 arg5 harg5 arg6 harg6 arg7 harg7 arg8 harg8 x2 x3 x4 x5 xs0 xs1 r col (by omega)

theorem low_6 (r : Fin 10000) (col : Fin 128) (h : 6000 ≤ r.val) :
    arg6.view.read (Elt Ideal) (arg6.view.writes (Elt Ideal) (harg6.unread x5) (runLast.sl.H5_7 (F := Ideal) c i arg3 harg3 arg4 harg4 arg5 harg5 arg6 harg6 arg7 harg7 arg8 harg8 x2 x3 x4 x5 xs0 xs1)) (ix2 r col)
      = arg6.view.read (Elt Ideal) (arg6.view.writes (Elt Ideal) (harg6.unread x5) (runLast.sl.H5_1 (F := Ideal) c i arg5 harg5 arg7 harg7 x4 xs0)) (ix2 r col) := by
  unfold runLast.sl.H5_7
  refine (View.read_writes_cons_rows_of_not_mem (o := 5000) (W := 1000) arg6.view (harg6.unread x5) _ _ _ (ix2 r col) rfl rfl (Or.inr (by show 5000 + 1000 ≤ r.val; omega))).trans ?_
  exact low_5 c i arg3 harg3 arg4 harg4 arg5 harg5 arg6 harg6 arg7 harg7 arg8 harg8 x2 x3 x4 x5 xs0 xs1 r col (by omega)

theorem low_7 (r : Fin 10000) (col : Fin 128) (h : 7000 ≤ r.val) :
    arg6.view.read (Elt Ideal) (arg6.view.writes (Elt Ideal) (harg6.unread x5) (runLast.sl.H5_8 (F := Ideal) c i arg3 harg3 arg4 harg4 arg5 harg5 arg6 harg6 arg7 harg7 arg8 harg8 x2 x3 x4 x5 xs0 xs1)) (ix2 r col)
      = arg6.view.read (Elt Ideal) (arg6.view.writes (Elt Ideal) (harg6.unread x5) (runLast.sl.H5_1 (F := Ideal) c i arg5 harg5 arg7 harg7 x4 xs0)) (ix2 r col) := by
  unfold runLast.sl.H5_8
  refine (View.read_writes_cons_rows_of_not_mem (o := 6000) (W := 1000) arg6.view (harg6.unread x5) _ _ _ (ix2 r col) rfl rfl (Or.inr (by show 6000 + 1000 ≤ r.val; omega))).trans ?_
  exact low_6 c i arg3 harg3 arg4 harg4 arg5 harg5 arg6 harg6 arg7 harg7 arg8 harg8 x2 x3 x4 x5 xs0 xs1 r col (by omega)

theorem low_8 (r : Fin 10000) (col : Fin 128) (h : 8000 ≤ r.val) :
    arg6.view.read (Elt Ideal) (arg6.view.writes (Elt Ideal) (harg6.unread x5) (runLast.sl.H5_9 (F := Ideal) c i arg3 harg3 arg4 harg4 arg5 harg5 arg6 harg6 arg7 harg7 arg8 harg8 x2 x3 x4 x5 xs0 xs1)) (ix2 r col)
      = arg6.view.read (Elt Ideal) (arg6.view.writes (Elt Ideal) (harg6.unread x5) (runLast.sl.H5_1 (F := Ideal) c i arg5 harg5 arg7 harg7 x4 xs0)) (ix2 r col) := by
  unfold runLast.sl.H5_9
  refine (View.read_writes_cons_rows_of_not_mem (o := 7000) (W := 1000) arg6.view (harg6.unread x5) _ _ _ (ix2 r col) rfl rfl (Or.inr (by show 7000 + 1000 ≤ r.val; omega))).trans ?_
  exact low_7 c i arg3 harg3 arg4 harg4 arg5 harg5 arg6 harg6 arg7 harg7 arg8 harg8 x2 x3 x4 x5 xs0 xs1 r col (by omega)

theorem low_9 (r : Fin 10000) (col : Fin 128) (h : 9000 ≤ r.val) :
    arg6.view.read (Elt Ideal) (arg6.view.writes (Elt Ideal) (harg6.unread x5) (runLast.sl.H5_10 (F := Ideal) c i arg3 harg3 arg4 harg4 arg5 harg5 arg6 harg6 arg7 harg7 arg8 harg8 x2 x3 x4 x5 xs0 xs1)) (ix2 r col)
      = arg6.view.read (Elt Ideal) (arg6.view.writes (Elt Ideal) (harg6.unread x5) (runLast.sl.H5_1 (F := Ideal) c i arg5 harg5 arg7 harg7 x4 xs0)) (ix2 r col) := by
  unfold runLast.sl.H5_10
  refine (View.read_writes_cons_rows_of_not_mem (o := 8000) (W := 1000) arg6.view (harg6.unread x5) _ _ _ (ix2 r col) rfl rfl (Or.inr (by show 8000 + 1000 ≤ r.val; omega))).trans ?_
  exact low_8 c i arg3 harg3 arg4 harg4 arg5 harg5 arg6 harg6 arg7 harg7 arg8 harg8 x2 x3 x4 x5 xs0 xs1 r col (by omega)

/-! ## A row inside slab `k`, read just after slab `k` is rewritten -/

theorem hit_0 (r : Fin 10000) (col : Fin 128) (h1 : 0 ≤ r.val) (h2 : r.val < 1000) :
    arg6.view.read (Elt Ideal) (arg6.view.writes (Elt Ideal) (harg6.unread x5) (runLast.sl.H5_2 (F := Ideal) c i arg3 harg3 arg4 harg4 arg5 harg5 arg6 harg6 arg7 harg7 arg8 harg8 x2 x3 x4 x5 xs0 xs1)) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast.sl.H5_2
  refine (View.read_writes_cons_rows_of_mem (o := 0) arg6.view (harg6.unread x5) _ _ _ (ix2 r col) (ix2 (⟨r.val - 0, by omega⟩ : Fin 1000) col) rfl (by show r.val = 0 + (r.val - 0); omega) rfl).trans ?_
  refine (pay37_apply _ _ _ _ _ (⟨r.val - 0, by omega⟩ : Fin 1000) col).trans ?_
  refine congrArg (fun z : EReal => Ideal.tanh (z * _ + _)) ?_
  exact (load_slab arg6.view _ 0 _ (⟨r.val - 0, by omega⟩ : Fin 1000) col r (by show r.val = 0 + (r.val - 0); omega))

theorem hit_1 (r : Fin 10000) (col : Fin 128) (h1 : 1000 ≤ r.val) (h2 : r.val < 2000) :
    arg6.view.read (Elt Ideal) (arg6.view.writes (Elt Ideal) (harg6.unread x5) (runLast.sl.H5_3 (F := Ideal) c i arg3 harg3 arg4 harg4 arg5 harg5 arg6 harg6 arg7 harg7 arg8 harg8 x2 x3 x4 x5 xs0 xs1)) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast.sl.H5_3
  refine (View.read_writes_cons_rows_of_mem (o := 1000) arg6.view (harg6.unread x5) _ _ _ (ix2 r col) (ix2 (⟨r.val - 1000, by omega⟩ : Fin 1000) col) rfl (by show r.val = 1000 + (r.val - 1000); omega) rfl).trans ?_
  refine (pay38_apply _ _ _ _ _ (⟨r.val - 1000, by omega⟩ : Fin 1000) col).trans ?_
  refine congrArg (fun z : EReal => Ideal.tanh (z * _ + _)) ?_
  unfold runLast.sl.v53
  exact (load_slab arg6.view _ 1000 _ (⟨r.val - 1000, by omega⟩ : Fin 1000) col r (by show r.val = 1000 + (r.val - 1000); omega)).trans (low_1 c i arg3 harg3 arg4 harg4 arg5 harg5 arg6 harg6 arg7 harg7 arg8 harg8 x2 x3 x4 x5 xs0 xs1 r col h1)

theorem hit_2 (r : Fin 10000) (col : Fin 128) (h1 : 2000 ≤ r.val) (h2 : r.val < 3000) :
    arg6.view.read (Elt Ideal) (arg6.view.writes (Elt Ideal) (harg6.unread x5) (runLast.sl.H5_4 (F := Ideal) c i arg3 harg3 arg4 harg4 arg5 harg5 arg6 harg6 arg7 harg7 arg8 harg8 x2 x3 x4 x5 xs0 xs1)) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast.sl.H5_4
  refine (View.read_writes_cons_rows_of_mem (o := 2000) arg6.view (harg6.unread x5) _ _ _ (ix2 r col) (ix2 (⟨r.val - 2000, by omega⟩ : Fin 1000) col) rfl (by show r.val = 2000 + (r.val - 2000); omega) rfl).trans ?_
  unfold runLast.sl.r_2 runLast.sl.r_3
  refine (pay41_comp_apply _ _ _ _ _ (⟨r.val - 2000, by omega⟩ : Fin 1000) col).trans ?_
  refine congrArg (fun z : EReal => Ideal.tanh (z * _ + _)) ?_
  unfold runLast.sl.v61
  exact (load_slab arg6.view _ 2000 _ (⟨r.val - 2000, by omega⟩ : Fin 1000) col r (by show r.val = 2000 + (r.val - 2000); omega)).trans (low_2 c i arg3 harg3 arg4 harg4 arg5 harg5 arg6 harg6 arg7 harg7 arg8 harg8 x2 x3 x4 x5 xs0 xs1 r col h1)

theorem hit_3 (r : Fin 10000) (col : Fin 128) (h1 : 3000 ≤ r.val) (h2 : r.val < 4000) :
    arg6.view.read (Elt Ideal) (arg6.view.writes (Elt Ideal) (harg6.unread x5) (runLast.sl.H5_5 (F := Ideal) c i arg3 harg3 arg4 harg4 arg5 harg5 arg6 harg6 arg7 harg7 arg8 harg8 x2 x3 x4 x5 xs0 xs1)) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast.sl.H5_5
  refine (View.read_writes_cons_rows_of_mem (o := 3000) arg6.view (harg6.unread x5) _ _ _ (ix2 r col) (ix2 (⟨r.val - 3000, by omega⟩ : Fin 1000) col) rfl (by show r.val = 3000 + (r.val - 3000); omega) rfl).trans ?_
  refine (pay42_apply _ _ _ (⟨r.val - 3000, by omega⟩ : Fin 1000) col).trans ?_
  refine congrArg (fun z : EReal => Ideal.tanh (z * _ + _)) ?_
  unfold runLast.sl.v69
  exact (load_slab arg6.view _ 3000 _ (⟨r.val - 3000, by omega⟩ : Fin 1000) col r (by show r.val = 3000 + (r.val - 3000); omega)).trans (low_3 c i arg3 harg3 arg4 harg4 arg5 harg5 arg6 harg6 arg7 harg7 arg8 harg8 x2 x3 x4 x5 xs0 xs1 r col h1)

theorem hit_4 (r : Fin 10000) (col : Fin 128) (h1 : 4000 ≤ r.val) (h2 : r.val < 5000) :
    arg6.view.read (Elt Ideal) (arg6.view.writes (Elt Ideal) (harg6.unread x5) (runLast.sl.H5_6 (F := Ideal) c i arg3 harg3 arg4 harg4 arg5 harg5 arg6 harg6 arg7 harg7 arg8 harg8 x2 x3 x4 x5 xs0 xs1)) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast.sl.H5_6
  refine (View.read_writes_cons_rows_of_mem (o := 4000) arg6.view (harg6.unread x5) _ _ _ (ix2 r col) (ix2 (⟨r.val - 4000, by omega⟩ : Fin 1000) col) rfl (by show r.val = 4000 + (r.val - 4000); omega) rfl).trans ?_
  refine (pay43_apply _ _ _ (⟨r.val - 4000, by omega⟩ : Fin 1000) col).trans ?_
  refine congrArg (fun z : EReal => Ideal.tanh (z * _ + _)) ?_
  unfold runLast.sl.v77
  exact (load_slab arg6.view _ 4000 _ (⟨r.val - 4000, by omega⟩ : Fin 1000) col r (by show r.val = 4000 + (r.val - 4000); omega)).trans (low_4 c i arg3 harg3 arg4 harg4 arg5 harg5 arg6 harg6 arg7 harg7 arg8 harg8 x2 x3 x4 x5 xs0 xs1 r col h1)

theorem hit_5 (r : Fin 10000) (col : Fin 128) (h1 : 5000 ≤ r.val) (h2 : r.val < 6000) :
    arg6.view.read (Elt Ideal) (arg6.view.writes (Elt Ideal) (harg6.unread x5) (runLast.sl.H5_7 (F := Ideal) c i arg3 harg3 arg4 harg4 arg5 harg5 arg6 harg6 arg7 harg7 arg8 harg8 x2 x3 x4 x5 xs0 xs1)) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast.sl.H5_7
  refine (View.read_writes_cons_rows_of_mem (o := 5000) arg6.view (harg6.unread x5) _ _ _ (ix2 r col) (ix2 (⟨r.val - 5000, by omega⟩ : Fin 1000) col) rfl (by show r.val = 5000 + (r.val - 5000); omega) rfl).trans ?_
  refine (pay44_apply _ _ _ (⟨r.val - 5000, by omega⟩ : Fin 1000) col).trans ?_
  refine congrArg (fun z : EReal => Ideal.tanh (z * _ + _)) ?_
  unfold runLast.sl.v85
  exact (load_slab arg6.view _ 5000 _ (⟨r.val - 5000, by omega⟩ : Fin 1000) col r (by show r.val = 5000 + (r.val - 5000); omega)).trans (low_5 c i arg3 harg3 arg4 harg4 arg5 harg5 arg6 harg6 arg7 harg7 arg8 harg8 x2 x3 x4 x5 xs0 xs1 r col h1)

theorem hit_6 (r : Fin 10000) (col : Fin 128) (h1 : 6000 ≤ r.val) (h2 : r.val < 7000) :
    arg6.view.read (Elt Ideal) (arg6.view.writes (Elt Ideal) (harg6.unread x5) (runLast.sl.H5_8 (F := Ideal) c i arg3 harg3 arg4 harg4 arg5 harg5 arg6 harg6 arg7 harg7 arg8 harg8 x2 x3 x4 x5 xs0 xs1)) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast.sl.H5_8
  refine (View.read_writes_cons_rows_of_mem (o := 6000) arg6.view (harg6.unread x5) _ _ _ (ix2 r col) (ix2 (⟨r.val - 6000, by omega⟩ : Fin 1000) col) rfl (by show r.val = 6000 + (r.val - 6000); omega) rfl).trans ?_
  refine (pay45_apply _ _ _ (⟨r.val - 6000, by omega⟩ : Fin 1000) col).trans ?_
  refine congrArg (fun z : EReal => Ideal.tanh (z * _ + _)) ?_
  unfold runLast.sl.v93
  exact (load_slab arg6.view _ 6000 _ (⟨r.val - 6000, by omega⟩ : Fin 1000) col r (by show r.val = 6000 + (r.val - 6000); omega)).trans (low_6 c i arg3 harg3 arg4 harg4 arg5 harg5 arg6 harg6 arg7 harg7 arg8 harg8 x2 x3 x4 x5 xs0 xs1 r col h1)

theorem hit_7 (r : Fin 10000) (col : Fin 128) (h1 : 7000 ≤ r.val) (h2 : r.val < 8000) :
    arg6.view.read (Elt Ideal) (arg6.view.writes (Elt Ideal) (harg6.unread x5) (runLast.sl.H5_9 (F := Ideal) c i arg3 harg3 arg4 harg4 arg5 harg5 arg6 harg6 arg7 harg7 arg8 harg8 x2 x3 x4 x5 xs0 xs1)) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast.sl.H5_9
  refine (View.read_writes_cons_rows_of_mem (o := 7000) arg6.view (harg6.unread x5) _ _ _ (ix2 r col) (ix2 (⟨r.val - 7000, by omega⟩ : Fin 1000) col) rfl (by show r.val = 7000 + (r.val - 7000); omega) rfl).trans ?_
  refine (pay5_apply _ _ _ (⟨r.val - 7000, by omega⟩ : Fin 1000) col).trans ?_
  refine congrArg (fun z : EReal => Ideal.tanh (z * _ + _)) ?_
  unfold runLast.sl.v101
  exact (load_slab arg6.view _ 7000 _ (⟨r.val - 7000, by omega⟩ : Fin 1000) col r (by show r.val = 7000 + (r.val - 7000); omega)).trans (low_7 c i arg3 harg3 arg4 harg4 arg5 harg5 arg6 harg6 arg7 harg7 arg8 harg8 x2 x3 x4 x5 xs0 xs1 r col h1)

theorem hit_8 (r : Fin 10000) (col : Fin 128) (h1 : 8000 ≤ r.val) (h2 : r.val < 9000) :
    arg6.view.read (Elt Ideal) (arg6.view.writes (Elt Ideal) (harg6.unread x5) (runLast.sl.H5_10 (F := Ideal) c i arg3 harg3 arg4 harg4 arg5 harg5 arg6 harg6 arg7 harg7 arg8 harg8 x2 x3 x4 x5 xs0 xs1)) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast.sl.H5_10
  refine (View.read_writes_cons_rows_of_mem (o := 8000) arg6.view (harg6.unread x5) _ _ _ (ix2 r col) (ix2 (⟨r.val - 8000, by omega⟩ : Fin 1000) col) rfl (by show r.val = 8000 + (r.val - 8000); omega) rfl).trans ?_
  refine (pay6_apply _ _ _ (⟨r.val - 8000, by omega⟩ : Fin 1000) col).trans ?_
  refine congrArg (fun z : EReal => Ideal.tanh (z * _ + _)) ?_
  unfold runLast.sl.v109
  exact (load_slab arg6.view _ 8000 _ (⟨r.val - 8000, by omega⟩ : Fin 1000) col r (by show r.val = 8000 + (r.val - 8000); omega)).trans (low_8 c i arg3 harg3 arg4 harg4 arg5 harg5 arg6 harg6 arg7 harg7 arg8 harg8 x2 x3 x4 x5 xs0 xs1 r col h1)

theorem hit_9 (r : Fin 10000) (col : Fin 128) (h1 : 9000 ≤ r.val) (h2 : r.val < 10000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  unfold runLast; dsimp only
  refine (View.read_writes_cons_rows_of_mem (o := 9000) arg6.view (harg6.unread x5) _ _ _ (ix2 r col) (ix2 (⟨r.val - 9000, by omega⟩ : Fin 1000) col) rfl (by show r.val = 9000 + (r.val - 9000); omega) rfl).trans ?_
  refine (pay7_apply _ _ _ (⟨r.val - 9000, by omega⟩ : Fin 1000) col).trans ?_
  refine congrArg (fun z : EReal => Ideal.tanh (z * _ + _)) ?_
  unfold runLast.sl.v117
  exact (load_slab arg6.view _ 9000 _ (⟨r.val - 9000, by omega⟩ : Fin 1000) col r (by show r.val = 9000 + (r.val - 9000); omega)).trans (low_9 c i arg3 harg3 arg4 harg4 arg5 harg5 arg6 harg6 arg7 harg7 arg8 harg8 x2 x3 x4 x5 xs0 xs1 r col h1)

/-! ## A row below slab `k` does not see the slabs `k … 9` -/

theorem down_9 (r : Fin 10000) (col : Fin 128) (h : r.val < 9000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = arg6.view.read (Elt Ideal) (arg6.view.writes (Elt Ideal) (harg6.unread x5) (runLast.sl.H5_10 (F := Ideal) c i arg3 harg3 arg4 harg4 arg5 harg5 arg6 harg6 arg7 harg7 arg8 harg8 x2 x3 x4 x5 xs0 xs1)) (ix2 r col) := by
  unfold runLast; dsimp only
  exact View.read_writes_cons_rows_of_not_mem (o := 9000) (W := 1000) arg6.view (harg6.unread x5) _ _ _ (ix2 r col) rfl rfl (Or.inl h)

theorem down_8 (r : Fin 10000) (col : Fin 128) (h : r.val < 8000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = arg6.view.read (Elt Ideal) (arg6.view.writes (Elt Ideal) (harg6.unread x5) (runLast.sl.H5_9 (F := Ideal) c i arg3 harg3 arg4 harg4 arg5 harg5 arg6 harg6 arg7 harg7 arg8 harg8 x2 x3 x4 x5 xs0 xs1)) (ix2 r col) := by
  refine (down_9 c i arg1 harg1 arg2 harg2 arg3 harg3 arg4 harg4 arg5 harg5 arg6 harg6 arg7 harg7 arg8 harg8 hc0 hc1 x0 x1 x2 x3 x4 x5 xs0 xs1 r col (by omega)).trans ?_
  unfold runLast.sl.H5_10
  exact View.read_writes_cons_rows_of_not_mem (o := 8000) (W := 1000) arg6.view (harg6.unread x5) _ _ _ (ix2 r col) rfl rfl (Or.inl h)

theorem down_7 (r : Fin 10000) (col : Fin 128) (h : r.val < 7000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = arg6.view.read (Elt Ideal) (arg6.view.writes (Elt Ideal) (harg6.unread x5) (runLast.sl.H5_8 (F := Ideal) c i arg3 harg3 arg4 harg4 arg5 harg5 arg6 harg6 arg7 harg7 arg8 harg8 x2 x3 x4 x5 xs0 xs1)) (ix2 r col) := by
  refine (down_8 c i arg1 harg1 arg2 harg2 arg3 harg3 arg4 harg4 arg5 harg5 arg6 harg6 arg7 harg7 arg8 harg8 hc0 hc1 x0 x1 x2 x3 x4 x5 xs0 xs1 r col (by omega)).trans ?_
  unfold runLast.sl.H5_9
  exact View.read_writes_cons_rows_of_not_mem (o := 7000) (W := 1000) arg6.view (harg6.unread x5) _ _ _ (ix2 r col) rfl rfl (Or.inl h)

theorem down_6 (r : Fin 10000) (col : Fin 128) (h : r.val < 6000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = arg6.view.read (Elt Ideal) (arg6.view.writes (Elt Ideal) (harg6.unread x5) (runLast.sl.H5_7 (F := Ideal) c i arg3 harg3 arg4 harg4 arg5 harg5 arg6 harg6 arg7 harg7 arg8 harg8 x2 x3 x4 x5 xs0 xs1)) (ix2 r col) := by
  refine (down_7 c i arg1 harg1 arg2 harg2 arg3 harg3 arg4 harg4 arg5 harg5 arg6 harg6 arg7 harg7 arg8 harg8 hc0 hc1 x0 x1 x2 x3 x4 x5 xs0 xs1 r col (by omega)).trans ?_
  unfold runLast.sl.H5_8
  exact View.read_writes_cons_rows_of_not_mem (o := 6000) (W := 1000) arg6.view (harg6.unread x5) _ _ _ (ix2 r col) rfl rfl (Or.inl h)

theorem down_5 (r : Fin 10000) (col : Fin 128) (h : r.val < 5000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = arg6.view.read (Elt Ideal) (arg6.view.writes (Elt Ideal) (harg6.unread x5) (runLast.sl.H5_6 (F := Ideal) c i arg3 harg3 arg4 harg4 arg5 harg5 arg6 harg6 arg7 harg7 arg8 harg8 x2 x3 x4 x5 xs0 xs1)) (ix2 r col) := by
  refine (down_6 c i arg1 harg1 arg2 harg2 arg3 harg3 arg4 harg4 arg5 harg5 arg6 harg6 arg7 harg7 arg8 harg8 hc0 hc1 x0 x1 x2 x3 x4 x5 xs0 xs1 r col (by omega)).trans ?_
  unfold runLast.sl.H5_7
  exact View.read_writes_cons_rows_of_not_mem (o := 5000) (W := 1000) arg6.view (harg6.unread x5) _ _ _ (ix2 r col) rfl rfl (Or.inl h)

theorem down_4 (r : Fin 10000) (col : Fin 128) (h : r.val < 4000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = arg6.view.read (Elt Ideal) (arg6.view.writes (Elt Ideal) (harg6.unread x5) (runLast.sl.H5_5 (F := Ideal) c i arg3 harg3 arg4 harg4 arg5 harg5 arg6 harg6 arg7 harg7 arg8 harg8 x2 x3 x4 x5 xs0 xs1)) (ix2 r col) := by
  refine (down_5 c i arg1 harg1 arg2 harg2 arg3 harg3 arg4 harg4 arg5 harg5 arg6 harg6 arg7 harg7 arg8 harg8 hc0 hc1 x0 x1 x2 x3 x4 x5 xs0 xs1 r col (by omega)).trans ?_
  unfold runLast.sl.H5_6
  exact View.read_writes_cons_rows_of_not_mem (o := 4000) (W := 1000) arg6.view (harg6.unread x5) _ _ _ (ix2 r col) rfl rfl (Or.inl h)

theorem down_3 (r : Fin 10000) (col : Fin 128) (h : r.val < 3000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = arg6.view.read (Elt Ideal) (arg6.view.writes (Elt Ideal) (harg6.unread x5) (runLast.sl.H5_4 (F := Ideal) c i arg3 harg3 arg4 harg4 arg5 harg5 arg6 harg6 arg7 harg7 arg8 harg8 x2 x3 x4 x5 xs0 xs1)) (ix2 r col) := by
  refine (down_4 c i arg1 harg1 arg2 harg2 arg3 harg3 arg4 harg4 arg5 harg5 arg6 harg6 arg7 harg7 arg8 harg8 hc0 hc1 x0 x1 x2 x3 x4 x5 xs0 xs1 r col (by omega)).trans ?_
  unfold runLast.sl.H5_5
  exact View.read_writes_cons_rows_of_not_mem (o := 3000) (W := 1000) arg6.view (harg6.unread x5) _ _ _ (ix2 r col) rfl rfl (Or.inl h)

theorem down_2 (r : Fin 10000) (col : Fin 128) (h : r.val < 2000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = arg6.view.read (Elt Ideal) (arg6.view.writes (Elt Ideal) (harg6.unread x5) (runLast.sl.H5_3 (F := Ideal) c i arg3 harg3 arg4 harg4 arg5 harg5 arg6 harg6 arg7 harg7 arg8 harg8 x2 x3 x4 x5 xs0 xs1)) (ix2 r col) := by
  refine (down_3 c i arg1 harg1 arg2 harg2 arg3 harg3 arg4 harg4 arg5 harg5 arg6 harg6 arg7 harg7 arg8 harg8 hc0 hc1 x0 x1 x2 x3 x4 x5 xs0 xs1 r col (by omega)).trans ?_
  unfold runLast.sl.H5_4
  exact View.read_writes_cons_rows_of_not_mem (o := 2000) (W := 1000) arg6.view (harg6.unread x5) _ _ _ (ix2 r col) rfl rfl (Or.inl h)

theorem down_1 (r : Fin 10000) (col : Fin 128) (h : r.val < 1000) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = arg6.view.read (Elt Ideal) (arg6.view.writes (Elt Ideal) (harg6.unread x5) (runLast.sl.H5_2 (F := Ideal) c i arg3 harg3 arg4 harg4 arg5 harg5 arg6 harg6 arg7 harg7 arg8 harg8 x2 x3 x4 x5 xs0 xs1)) (ix2 r col) := by
  refine (down_2 c i arg1 harg1 arg2 harg2 arg3 harg3 arg4 harg4 arg5 harg5 arg6 harg6 arg7 harg7 arg8 harg8 hc0 hc1 x0 x1 x2 x3 x4 x5 xs0 xs1 r col (by omega)).trans ?_
  unfold runLast.sl.H5_3
  exact View.read_writes_cons_rows_of_not_mem (o := 1000) (W := 1000) arg6.view (harg6.unread x5) _ _ _ (ix2 r col) rfl rfl (Or.inl h)

/-- Every row of the buffer after the point's stores: the hyperbolic tangent of what the 400-row store alone left
    there, times the column's scale, plus the column's shift. -/
theorem last_run (r : Fin 10000) (col : Fin 128) :
    arg6.view.read (Elt Ideal) (arg6.view.writes (Elt Ideal) (harg6.unread x5) (runLast (F := Ideal) c i arg1 harg1 arg2 harg2 arg3 harg3 arg4 harg4 arg5 harg5 arg6 harg6 arg7 harg7 arg8 harg8 hc0 hc1 x0 x1 x2 x3 x4 x5 xs0 xs1).1) (ix2 r col)
      = Ideal.tanh (arg6.view.read (Elt Ideal) (arg6.view.writes (Elt Ideal) (harg6.unread x5) (runLast.sl.H5_1 (F := Ideal) c i arg5 harg5 arg7 harg7 x4 xs0)) (ix2 r col)
          * runLast.sl.r (F := Ideal) c arg3 harg3 arg5 harg5 arg7 harg7 arg8 harg8 x2 x4 xs0 xs1 (ix2 (0 : Fin 1) col)
          + runLast.sl.r_1 (F := Ideal) c arg3 harg3 arg4 harg4 arg5 harg5 arg7 harg7 arg8 harg8 x2 x3 x4 xs0 xs1 (ix2 (0 : Fin 1) col)) := by
  by_cases h9 : 9000 ≤ r.val
  · exact hit_9 c i arg1 harg1 arg2 harg2 arg3 harg3 arg4 harg4 arg5 harg5 arg6 harg6 arg7 harg7 arg8 harg8 hc0 hc1 x0 x1 x2 x3 x4 x5 xs0 xs1 r col h9 r.isLt
  by_cases h8 : 8000 ≤ r.val
  · exact (down_9 c i arg1 harg1 arg2 harg2 arg3 harg3 arg4 harg4 arg5 harg5 arg6 harg6 arg7 harg7 arg8 harg8 hc0 hc1 x0 x1 x2 x3 x4 x5 xs0 xs1 r col (by omega)).trans (hit_8 c i arg3 harg3 arg4 harg4 arg5 harg5 arg6 harg6 arg7 harg7 arg8 harg8 x2 x3 x4 x5 xs0 xs1 r col h8 (by omega))
  by_cases h7 : 7000 ≤ r.val
  · exact (down_8 c i arg1 harg1 arg2 harg2 arg3 harg3 arg4 harg4 arg5 harg5 arg6 harg6 arg7 harg7 arg8 harg8 hc0 hc1 x0 x1 x2 x3 x4 x5 xs0 xs1 r col (by omega)).trans (hit_7 c i arg3 harg3 arg4 harg4 arg5 harg5 arg6 harg6 arg7 harg7 arg8 harg8 x2 x3 x4 x5 xs0 xs1 r col h7 (by omega))
  by_cases h6 : 6000 ≤ r.val
  · exact (down_7 c i arg1 harg1 arg2 harg2 arg3 harg3 arg4 harg4 arg5 harg5 arg6 harg6 arg7 harg7 arg8 harg8 hc0 hc1 x0 x1 x2 x3 x4 x5 xs0 xs1 r col (by omega)).trans (hit_6 c i arg3 harg3 arg4 harg4 arg5 harg5 arg6 harg6 arg7 harg7 arg8 harg8 x2 x3 x4 x5 xs0 xs1 r col h6 (by omega))
  by_cases h5 : 5000 ≤ r.val
  · exact (down_6 c i arg1 harg1 arg2 harg2 arg3 harg3 arg4 harg4 arg5 harg5 arg6 harg6 arg7 harg7 arg8 harg8 hc0 hc1 x0 x1 x2 x3 x4 x5 xs0 xs1 r col (by omega)).trans (hit_5 c i arg3 harg3 arg4 harg4 arg5 harg5 arg6 harg6 arg7 harg7 arg8 harg8 x2 x3 x4 x5 xs0 xs1 r col h5 (by omega))
  by_cases h4 : 4000 ≤ r.val
  · exact (down_5 c i arg1 harg1 arg2 harg2 arg3 harg3 arg4 harg4 arg5 harg5 arg6 harg6 arg7 harg7 arg8 harg8 hc0 hc1 x0 x1 x2 x3 x4 x5 xs0 xs1 r col (by omega)).trans (hit_4 c i arg3 harg3 arg4 harg4 arg5 harg5 arg6 harg6 arg7 harg7 arg8 harg8 x2 x3 x4 x5 xs0 xs1 r col h4 (by omega))
  by_cases h3 : 3000 ≤ r.val
  · exact (down_4 c i arg1 harg1 arg2 harg2 arg3 harg3 arg4 harg4 arg5 harg5 arg6 harg6 arg7 harg7 arg8 harg8 hc0 hc1 x0 x1 x2 x3 x4 x5 xs0 xs1 r col (by omega)).trans (hit_3 c i arg3 harg3 arg4 harg4 arg5 harg5 arg6 harg6 arg7 harg7 arg8 harg8 x2 x3 x4 x5 xs0 xs1 r col h3 (by omega))
  by_cases h2 : 2000 ≤ r.val
  · exact (down_3 c i arg1 harg1 arg2 harg2 arg3 harg3 arg4 harg4 arg5 harg5 arg6 harg6 arg7 harg7 arg8 harg8 hc0 hc1 x0 x1 x2 x3 x4 x5 xs0 xs1 r col (by omega)).trans (hit_2 c i arg3 harg3 arg4 harg4 arg5 harg5 arg6 harg6 arg7 harg7 arg8 harg8 x2 x3 x4 x5 xs0 xs1 r col h2 (by omega))
  by_cases h1 : 1000 ≤ r.val
  · exact (down_2 c i arg1 harg1 arg2 harg2 arg3 harg3 arg4 harg4 arg5 harg5 arg6 harg6 arg7 harg7 arg8 harg8 hc0 hc1 x0 x1 x2 x3 x4 x5 xs0 xs1 r col (by omega)).trans (hit_1 c i arg3 harg3 arg4 harg4 arg5 harg5 arg6 harg6 arg7 harg7 arg8 harg8 x2 x3 x4 x5 xs0 xs1 r col h1 (by omega))
  exact (down_1 c i arg1 harg1 arg2 harg2 arg3 harg3 arg4 harg4 arg5 harg5 arg6 harg6 arg7 harg7 arg8 harg8 hc0 hc1 x0 x1 x2 x3 x4 x5 xs0 xs1 r col (by omega)).trans (hit_0 c i arg3 harg3 arg4 harg4 arg5 harg5 arg6 harg6 arg7 harg7 arg8 harg8 x2 x3 x4 x5 xs0 xs1 r col (Nat.zero_le _) (by omega))

/-! ## What the 400-row store alone leaves -/

/-- At the last point the 400 rows are rows 9600 … 9999: there the product block, elsewhere what the buffer held. -/
theorem base_read (hi : (i 0).val = 24) (r : Fin 10000) (col : Fin 128) :
    arg6.view.read (Elt Ideal) (arg6.view.writes (Elt Ideal) (harg6.unread x5) (runLast.sl.H5_1 (F := Ideal) c i arg5 harg5 arg7 harg7 x4 xs0)) (ix2 r col)
      = if h : 9600 ≤ r.val then k0_pay2 (F := Ideal) x4 xs0 (ix2 (⟨r.val - 9600, by omega⟩ : Fin 400) col) else x5 (ix2 r col) := by
  unfold runLast.sl.H5_1
  by_cases h : 9600 ≤ r.val
  · rw [dif_pos h]
    refine (View.read_writes_cons_rows_of_mem (o := 400 * (i 0).val) arg6.view (harg6.unread x5) _ _ _ (ix2 r col) (ix2 (⟨r.val - 9600, by omega⟩ : Fin 400) col) (k0_off1_eq i) (by show r.val = 400 * (i 0).val + (r.val - 9600); omega) rfl).trans ?_
    rw [load_all arg5 harg5 x4, load_all arg7 harg7 xs0]
  · rw [dif_neg h]
    refine (View.read_writes_cons_rows_of_not_mem (o := 400 * (i 0).val) (W := 400) arg6.view (harg6.unread x5) _ _ _ (ix2 r col) (k0_off1_eq i) rfl (Or.inl (by show r.val < 400 * (i 0).val; omega))).trans ?_
    rw [View.writes_nil]
    exact congrFun (harg6.read_unread x5) _

/-! ## The statistics rows the scale and the shift are formed from

The two rows are loaded after the point's two statistics stores, each load under one of them: it reads what the
statistics buffer holds after the stores, whatever it held before. -/

theorem stat_list_eq : (runLast (F := Ideal) c i arg1 harg1 arg2 harg2 arg3 harg3 arg4 harg4 arg5 harg5 arg6 harg6 arg7 harg7 arg8 harg8 hc0 hc1 x0 x1 x2 x3 x4 x5 xs0 xs1).2.1 = runLast.sl.HS1_2 (F := Ideal) c arg5 harg5 arg7 harg7 arg8 harg8 x4 xs0 xs1 := by
  unfold runLast; dsimp only

theorem v27_eq (col : Fin 128) :
    runLast.sl.v27 (F := Ideal) c arg5 harg5 arg7 harg7 arg8 harg8 x4 xs0 xs1 (ix2 (0 : Fin 1) col)
      = arg8.view.read (Elt Ideal) (arg8.view.writes (Elt Ideal) (harg8.unread xs1) (runLast (F := Ideal) c i arg1 harg1 arg2 harg2 arg3 harg3 arg4 harg4 arg5 harg5 arg6 harg6 arg7 harg7 arg8 harg8 hc0 hc1 x0 x1 x2 x3 x4 x5 xs0 xs1).2.1) (ix2 (0 : Fin 8) col) := by
  rw [stat_list_eq]
  unfold runLast.sl.v27
  refine (congrFun (View.readCov_eq_canon' arg8.view _ _) _).trans ?_
  refine Eq.trans ?_ (View.read_writes_apply_eq_canon arg8.view (harg8.unread xs1) (ix2 (0 : Fin 8) col) _ ?_).symm
  · refine congrArg (View.canon _) ?_
    funext a; apply Fin.ext
    match a with
    | ⟨0, _⟩ => rfl
    | ⟨1, _⟩ => show 0 + 1 * col.val = col.val; omega
  · unfold runLast.sl.HS1_2
    refine ⟨_, List.mem_cons_of_mem _ List.mem_cons_self, ?_⟩
    show ix2 (0 : Fin 8) col ∈ (Rect.unit (s := S8x128) ![0, 0] ![1, 128] inb_S8x128_S1x128_0_0).set
    rw [Rect.mem_set_unit]
    intro a
    match a with
    | ⟨0, _⟩ => exact ⟨Nat.le_refl 0, Nat.zero_lt_one⟩
    | ⟨1, _⟩ => exact ⟨Nat.zero_le _, (by show col.val < 0 + 128; omega)⟩

theorem v30_eq (col : Fin 128) :
    runLast.sl.v30 (F := Ideal) c arg5 harg5 arg7 harg7 arg8 harg8 x4 xs0 xs1 (ix2 (0 : Fin 1) col)
      = arg8.view.read (Elt Ideal) (arg8.view.writes (Elt Ideal) (harg8.unread xs1) (runLast (F := Ideal) c i arg1 harg1 arg2 harg2 arg3 harg3 arg4 harg4 arg5 harg5 arg6 harg6 arg7 harg7 arg8 harg8 hc0 hc1 x0 x1 x2 x3 x4 x5 xs0 xs1).2.1) (ix2 (1 : Fin 8) col) := by
  rw [stat_list_eq]
  unfold runLast.sl.v30
  refine (congrFun (View.readCov_eq_canon' arg8.view _ _) _).trans ?_
  refine Eq.trans ?_ (View.read_writes_apply_eq_canon arg8.view (harg8.unread xs1) (ix2 (1 : Fin 8) col) _ ?_).symm
  · refine congrArg (View.canon _) ?_
    funext a; apply Fin.ext
    match a with
    | ⟨0, _⟩ => rfl
    | ⟨1, _⟩ => show 0 + 1 * col.val = col.val; omega
  · unfold runLast.sl.HS1_2
    refine ⟨_, List.mem_cons_self, ?_⟩
    show ix2 (1 : Fin 8) col ∈ (Rect.unit (s := S8x128) ![1, 0] ![1, 128] inb_S8x128_S1x128_1_0).set
    rw [Rect.mem_set_unit]
    intro a
    match a with
    | ⟨0, _⟩ => exact ⟨Nat.le_refl 1, (by show 1 < 1 + 1; omega)⟩
    | ⟨1, _⟩ => exact ⟨Nat.zero_le _, (by show col.val < 0 + 128; omega)⟩

/-- The column scale: the reciprocal square root of the mean of squares less the squared mean plus the small
    constant, times the gain. -/
theorem scl_eq (col : Fin 128) :
    runLast.sl.r (F := Ideal) c arg3 harg3 arg5 harg5 arg7 harg7 arg8 harg8 x2 x4 xs0 xs1 (ix2 (0 : Fin 1) col)
      = Ideal.rsqrt (Ideal.div (arg8.view.read (Elt Ideal) (arg8.view.writes (Elt Ideal) (harg8.unread xs1) (runLast (F := Ideal) c i arg1 harg1 arg2 harg2 arg3 harg3 arg4 harg4 arg5 harg5 arg6 harg6 arg7 harg7 arg8 harg8 hc0 hc1 x0 x1 x2 x3 x4 x5 xs0 xs1).2.1) (ix2 (1 : Fin 8) col)) (Ideal.ofBits .f32 0x461C4000#32)
          - Ideal.div (arg8.view.read (Elt Ideal) (arg8.view.writes (Elt Ideal) (harg8.unread xs1) (runLast (F := Ideal) c i arg1 harg1 arg2 harg2 arg3 harg3 arg4 harg4 arg5 harg5 arg6 harg6 arg7 harg7 arg8 harg8 hc0 hc1 x0 x1 x2 x3 x4 x5 xs0 xs1).2.1) (ix2 (0 : Fin 8) col)) (Ideal.ofBits .f32 0x461C4000#32)
            * Ideal.div (arg8.view.read (Elt Ideal) (arg8.view.writes (Elt Ideal) (harg8.unread xs1) (runLast (F := Ideal) c i arg1 harg1 arg2 harg2 arg3 harg3 arg4 harg4 arg5 harg5 arg6 harg6 arg7 harg7 arg8 harg8 hc0 hc1 x0 x1 x2 x3 x4 x5 xs0 xs1).2.1) (ix2 (0 : Fin 8) col)) (Ideal.ofBits .f32 0x461C4000#32)
          + (Ideal.ofBits .f32 0x3727C5AC#32)) * x2 (ix2 (0 : Fin 1) col) := by
  unfold runLast.sl.r
  refine (pay35_apply _ _ _ col).trans ?_
  rw [v27_eq c i arg1 harg1 arg2 harg2 arg3 harg3 arg4 harg4 arg5 harg5 arg6 harg6 arg7 harg7 arg8 harg8 hc0 hc1 x0 x1 x2 x3 x4 x5 xs0 xs1 col, v30_eq c i arg1 harg1 arg2 harg2 arg3 harg3 arg4 harg4 arg5 harg5 arg6 harg6 arg7 harg7 arg8 harg8 hc0 hc1 x0 x1 x2 x3 x4 x5 xs0 xs1 col, load_all arg3 harg3 x2]

/-- The column shift: the offset less the mean times the scale. -/
theorem shf_eq (col : Fin 128) :
    runLast.sl.r_1 (F := Ideal) c arg3 harg3 arg4 harg4 arg5 harg5 arg7 harg7 arg8 harg8 x2 x3 x4 xs0 xs1 (ix2 (0 : Fin 1) col)
      = x3 (ix2 (0 : Fin 1) col)
        - Ideal.div (arg8.view.read (Elt Ideal) (arg8.view.writes (Elt Ideal) (harg8.unread xs1) (runLast (F := Ideal) c i arg1 harg1 arg2 harg2 arg3 harg3 arg4 harg4 arg5 harg5 arg6 harg6 arg7 harg7 arg8 harg8 hc0 hc1 x0 x1 x2 x3 x4 x5 xs0 xs1).2.1) (ix2 (0 : Fin 8) col)) (Ideal.ofBits .f32 0x461C4000#32)
          * (Ideal.rsqrt (Ideal.div (arg8.view.read (Elt Ideal) (arg8.view.writes (Elt Ideal) (harg8.unread xs1) (runLast (F := Ideal) c i arg1 harg1 arg2 harg2 arg3 harg3 arg4 harg4 arg5 harg5 arg6 harg6 arg7 harg7 arg8 harg8 hc0 hc1 x0 x1 x2 x3 x4 x5 xs0 xs1).2.1) (ix2 (1 : Fin 8) col)) (Ideal.ofBits .f32 0x461C4000#32)
          - Ideal.div (arg8.view.read (Elt Ideal) (arg8.view.writes (Elt Ideal) (harg8.unread xs1) (runLast (F := Ideal) c i arg1 harg1 arg2 harg2 arg3 harg3 arg4 harg4 arg5 harg5 arg6 harg6 arg7 harg7 arg8 harg8 hc0 hc1 x0 x1 x2 x3 x4 x5 xs0 xs1).2.1) (ix2 (0 : Fin 8) col)) (Ideal.ofBits .f32 0x461C4000#32)
            * Ideal.div (arg8.view.read (Elt Ideal) (arg8.view.writes (Elt Ideal) (harg8.unread xs1) (runLast (F := Ideal) c i arg1 harg1 arg2 harg2 arg3 harg3 arg4 harg4 arg5 harg5 arg6 harg6 arg7 harg7 arg8 harg8 hc0 hc1 x0 x1 x2 x3 x4 x5 xs0 xs1).2.1) (ix2 (0 : Fin 8) col)) (Ideal.ofBits .f32 0x461C4000#32)
          + (Ideal.ofBits .f32 0x3727C5AC#32)) * x2 (ix2 (0 : Fin 1) col)) := by
  unfold runLast.sl.r_1
  refine (pay36_apply _ _ _ _ col).trans ?_
  rw [v27_eq c i arg1 harg1 arg2 harg2 arg3 harg3 arg4 harg4 arg5 harg5 arg6 harg6 arg7 harg7 arg8 harg8 hc0 hc1 x0 x1 x2 x3 x4 x5 xs0 xs1 col, load_all arg4 harg4 x3]
  exact congrArg (fun z : EReal => _ - _ * z) (scl_eq c i arg1 harg1 arg2 harg2 arg3 harg3 arg4 harg4 arg5 harg5 arg6 harg6 arg7 harg7 arg8 harg8 hc0 hc1 x0 x1 x2 x3 x4 x5 xs0 xs1 col)

end Run

/-! ## The output buffer after the last point, read at an index -/

section Final

variable (m : (ℓ : Loc nD τ sig) → Buf (Elt Ideal) ℓ) (c : Dev nD) (t : Fin cfg0.N) (h0 : t.val ≠ 0) (h1 : t.val = 24)
  (Y s0 : Vec Ideal S10000x128 .f32) (s1 : Vec Ideal S8x128 .f32)

/-- The grid has one axis: a point's coordinate is its number. -/
theorem coord_val : ∀ t : Fin cfg0.N, ((grid0.coords t) 0).val = t.val :=
  (by decide +kernel : ∀ t : Fin grid0.N, ((grid0.coords t) 0).val = t.val)

/-- The statistics buffer after the last point's two stores, handed in at `s1`. -/
def stat' : Vec Ideal S8x128 .f32 :=
  statM.view.read (Elt Ideal) (statM.view.writes (Elt Ideal) ((Memref.isWhole_whole _ : statM.IsWhole).unread s1) (lastAt m c t h0 h1 Y s0 s1).2.1)

/-- The gain row and the offset row the point is handed, as arrays of extended reals. -/
abbrev gainRow : Vec Ideal S1x128 .f32 := iblk m c 2 t
@[inherit_doc gainRow]
abbrev offsetRow : Vec Ideal S1x128 .f32 := iblk m c 3 t

/-- The column's scale: the reciprocal square root of the mean of squares less the squared mean plus the small
    constant, times the gain. -/
def scaleAt (col : Fin 128) : EReal :=
  Ideal.rsqrt (Ideal.div (stat' m c t h0 h1 Y s0 s1 (ix2 (1 : Fin 8) col)) (Ideal.ofBits .f32 0x461C4000#32)
      - Ideal.div (stat' m c t h0 h1 Y s0 s1 (ix2 (0 : Fin 8) col)) (Ideal.ofBits .f32 0x461C4000#32)
        * Ideal.div (stat' m c t h0 h1 Y s0 s1 (ix2 (0 : Fin 8) col)) (Ideal.ofBits .f32 0x461C4000#32)
      + (Ideal.ofBits .f32 0x3727C5AC#32)) * gainRow m c t (ix2 (0 : Fin 1) col)

/-- The column's shift: the offset less the mean times the scale. -/
def shiftAt (col : Fin 128) : EReal :=
  offsetRow m c t (ix2 (0 : Fin 1) col)
    - Ideal.div (stat' m c t h0 h1 Y s0 s1 (ix2 (0 : Fin 8) col)) (Ideal.ofBits .f32 0x461C4000#32) * scaleAt m c t h0 h1 Y s0 s1 col

/-- The output buffer after the point's 400-row store alone: rows 9600 … 9999 hold the point's product block, the
    other rows what the buffer was handed in with. -/
def Bval (r : Fin 10000) (col : Fin 128) : EReal :=
  if h : 9600 ≤ r.val then k0_pay2 (F := Ideal) (iblk m c 4 t) s0 (ix2 (⟨r.val - 9600, by omega⟩ : Fin 400) col) else Y (ix2 r col)

/-- After the last point's stores every element of the output buffer is the hyperbolic tangent of what the 400-row
    store alone left there times the column's scale plus the column's shift: the ten slabs are disjoint and cover
    every row, and each is read before any store that meets it. -/
theorem last_read (r : Fin 10000) (col : Fin 128) :
    (sm5 t).view.read (Elt Ideal) ((sm5 t).view.writes (Elt Ideal) ((hsm5 t).unread Y) (lastAt m c t h0 h1 Y s0 s1).1) (ix2 r col)
      = Ideal.tanh (Bval m c t Y s0 r col * scaleAt m c t h0 h1 Y s0 s1 col + shiftAt m c t h0 h1 Y s0 s1 col) := by
  refine (last_run c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) (fun h => h0 ((atFirst_iff t).mp h)) ((atLast_iff t).mpr h1) (iblk m c 0 t) (iblk m c 1 t) (iblk m c 2 t) (iblk m c 3 t) (iblk m c 4 t) Y s0 s1 r col).trans ?_
  rw [base_read c (grid0.coords t) (sm4 t) (hsm4 t) (sm5 t) (hsm5 t) supM (Memref.isWhole_whole _) (iblk m c 4 t) Y s0 ((coord_val t).trans h1) r col,
    scl_eq c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) (fun h => h0 ((atFirst_iff t).mp h)) ((atLast_iff t).mpr h1) (iblk m c 0 t) (iblk m c 1 t) (iblk m c 2 t) (iblk m c 3 t) (iblk m c 4 t) Y s0 s1 col, shf_eq c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) (fun h => h0 ((atFirst_iff t).mp h)) ((atLast_iff t).mpr h1) (iblk m c 0 t) (iblk m c 1 t) (iblk m c 2 t) (iblk m c 3 t) (iblk m c 4 t) Y s0 s1 col]
  rfl

end Final

end Cert.KernelIdeal.LastRead

end
-- ==== Proof.IdealScratch.lean ====
/-
  What the two scratch buffers hold after each grid point, over the extended reals. The support scratch is
  stored whole at the first point and never again: it holds the feature block times the weight matrix. The
  statistics scratch is cleared at the first point; at every point its first row grows by the column sums of the
  point's 400 rows of adjacency times support, and its second row by the column sums of their squares: after
  point n the two rows are the sums over the points 0 … n.
-/
import proofs.«152943_g16630113370191_cont_week2b_735_29_alg».proof.Proof.IdealData
import proofs.«152943_g16630113370191_cont_week2b_735_29_alg».proof.Proof.IdealPayloads
import Idealize.ShloMosaic.Lib.WholeRead
import Idealize.ShloMosaic.Lib.WritesUnit
import Idealize.ShloMosaic.Lib.Pipeline.Value
import Idealize.ShloMosaic.Lib.Pipeline.FrameBody

set_option maxRecDepth 16384

noncomputable section

namespace Cert.KernelIdeal.Scratch

open Idealize.ShloMosaic Idealize.ShloMosaic.ValueIdx Idealize.ShloMosaic.Tactic Idealize.SL.Sem
open Idealize.ShloMosaic.Pipeline (Dat RDat Cfg Window cellOf)
open Cert.KernelIdeal Cert.KernelIdeal.Gen Cert.KernelIdeal.Layer Cert.KernelIdeal.Pay
open scoped BigOperators

/-! ## Loads through a whole memref held at known contents -/

theorem zero2 : (![0, 0] : Fin 2 → ℕ) = fun _ => 0 := by
  funext a; match a with | ⟨0, _⟩ => rfl | ⟨1, _⟩ => rfl

/-- A load of the whole buffer reads the contents. -/
theorem load_whole {d : Fin 2 → ℕ} (mm : Memref sig .tc .vmem ⟨2, d⟩ .f32) (h : mm.IsWhole) (X : Vec Ideal ⟨2, d⟩ .f32)
    (inb : ∀ a, (![0, 0] : Fin 2 → ℕ) a + (⟨2, d⟩ : Shape).size a ≤ (⟨2, d⟩ : Shape).size a) :
    View.readAt (Elt Ideal) mm.view (Rect.unit ![0, 0] (⟨2, d⟩ : Shape).size inb).toLoadRect (h.unread X) = X := by
  rw [View.readAt_eq_ld, h.read_unread, View.ld_unit_zero zero2]

/-- A load of row 0 of the statistics buffer reads the contents' row 0. -/
theorem load_row0 (mm : Memref sig .tc .vmem S8x128 .f32) (h : mm.IsWhole) (X : Vec Ideal S8x128 .f32)
    (inb : ∀ a, (![0, 0] : Fin 2 → ℕ) a + (![1, 128] : Fin 2 → ℕ) a ≤ S8x128.size a) (col : Fin 128) :
    View.readAt (Elt Ideal) mm.view (Rect.unit (s := S8x128) ![0, 0] ![1, 128] inb).toLoadRect (h.unread X) (ix2 (0 : Fin 1) col)
      = X (ix2 (0 : Fin 8) col) := by
  refine (h.readAt_unread X _ _).trans (congrArg X ?_)
  funext a; apply Fin.ext
  match a with
  | ⟨0, _⟩ => rfl
  | ⟨1, _⟩ => show 0 + 1 * col.val = col.val; omega

/-- A load of row 1 of the statistics buffer reads the contents' row 1. -/
theorem load_row1 (mm : Memref sig .tc .vmem S8x128 .f32) (h : mm.IsWhole) (X : Vec Ideal S8x128 .f32)
    (inb : ∀ a, (![1, 0] : Fin 2 → ℕ) a + (![1, 128] : Fin 2 → ℕ) a ≤ S8x128.size a) (col : Fin 128) :
    View.readAt (Elt Ideal) mm.view (Rect.unit (s := S8x128) ![1, 0] ![1, 128] inb).toLoadRect (h.unread X) (ix2 (0 : Fin 1) col)
      = X (ix2 (1 : Fin 8) col) := by
  refine (h.readAt_unread X _ _).trans (congrArg X ?_)
  funext a; apply Fin.ext
  match a with
  | ⟨0, _⟩ => rfl
  | ⟨1, _⟩ => show 0 + 1 * col.val = col.val; omega

/-- One store of the whole buffer leaves its payload. -/
theorem read_single_whole {κ : Kind} {sp : Space} {d : Fin 2 → ℕ} (v : View sig κ sp ⟨2, d⟩ .f32) (f : v.ty.Contents (Elt Ideal))
    (inb : ∀ a, (![0, 0] : Fin 2 → ℕ) a + (⟨2, d⟩ : Shape).size a ≤ (⟨2, d⟩ : Shape).size a)
    (w : (⟨2, d⟩ : Shape).Idx → Elt Ideal .f32) :
    v.read (Elt Ideal) (v.writes (Elt Ideal) f [(⟨Rect.unit ![0, 0] (⟨2, d⟩ : Shape).size inb, w⟩ : View.Piece (Elt Ideal) ⟨2, d⟩ .f32)]) = w :=
  (View.read_writes_eq_canon v f _ (fun y => ⟨_, List.mem_singleton_self _, View.mem_set_unit_zero zero2 inb y⟩)).trans
    (View.canon_unit_zero zero2 inb w)

/-! ## The first point -/

/-- The support as the body computes it from the feature block x0 and the weight block x1. -/
def supV (x0 : Vec Ideal S10000x128 .f32) (x1 : Vec Ideal S16x128 .f32) : FVec Ideal S10000x128 .f32 :=
  k0_pay32 (F := Ideal) (k0_pay8 (F := Ideal) x1) (k0_pay9 (F := Ideal) x1) (k0_pay10 (F := Ideal) x1) (k0_pay11 (F := Ideal) x1) (k0_pay12 (F := Ideal) x1) (k0_pay13 (F := Ideal) x1) (k0_pay14 (F := Ideal) x1) (k0_pay15 (F := Ideal) x1) (k0_pay16 (F := Ideal) x1) (k0_pay17 (F := Ideal) x1) (k0_pay18 (F := Ideal) x1) (k0_pay19 (F := Ideal) x1) (k0_pay20 (F := Ideal) x1) (k0_pay21 (F := Ideal) x1) (k0_pay22 (F := Ideal) x1) (k0_pay23 (F := Ideal) x1) (k0_pay24 (F := Ideal) x1) (k0_pay25 (F := Ideal) x1) (k0_pay26 (F := Ideal) x1) (k0_pay27 (F := Ideal) x1) (k0_pay28 (F := Ideal) x1) (k0_pay29 (F := Ideal) x1) (k0_pay30 (F := Ideal) x1) (k0_pay31 (F := Ideal) x1)
    (Scalar.ofBits (F := Ideal) .f32 0x00000000#32) x0

/-- At row k, column col, the support is the sum over j of the feature block at (k, j) times the weight matrix at (j, col). -/
theorem supV_apply (x0 : Vec Ideal S10000x128 .f32) (x1 : Vec Ideal S16x128 .f32) (k : Fin 10000) (col : Fin 128) :
    supV x0 x1 (ix2 k col) = ∑ j : Fin 128, x0 (ix2 k j) * hamK x1 (ix2 j col) :=
  pay32_apply x1 x0 k col

/-- The first point's one store into the support scratch: the whole buffer, the support. -/
theorem first_sup (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : atFirst i) (hc1 : ¬atLast i) (x0 : Vec Ideal S10000x128 .f32) (x1 : Vec Ideal S16x128 .f32) (x2 : Vec Ideal S1x128 .f32) (x3 : Vec Ideal S1x128 .f32) (x4 : Vec Ideal S400x10000 .f32) (x5 : Vec Ideal S10000x128 .f32) :
    (runFirst c i arg1 harg1 arg2 harg2 arg3 harg3 arg4 harg4 arg5 harg5 arg6 harg6 arg7 harg7 arg8 harg8 hc0 hc1 x0 x1 x2 x3 x4 x5).2.1
      = [⟨Rect.unit ![0, 0] S10000x128.size inb_S10000x128_S10000x128_0_0, supV x0 x1⟩] := by
  unfold runFirst; dsimp only
  sl_unfold_run_names
  rw [load_whole arg2 harg2 x1, load_whole arg1 harg1 x0]
  rfl

/-- The support the first point reads back from its scratch. -/
theorem first_v4 (c : Dev nD) (arg1 : Memref sig .tc .vmem S10000x128 .f32) (harg1 : arg1.IsWhole) (arg2 : Memref sig .tc .vmem S16x128 .f32) (harg2 : arg2.IsWhole)
    (arg7 : Memref sig .tc .vmem S10000x128 .f32) (x0 : Vec Ideal S10000x128 .f32) (x1 : Vec Ideal S16x128 .f32) :
    runFirst.sl.v4 (F := Ideal) c arg1 harg1 arg2 harg2 arg7 x0 x1 = supV x0 x1 := by
  unfold runFirst.sl.v4
  sl_unfold_run_names
  rw [load_whole arg2 harg2 x1, load_whole arg1 harg1 x0]
  exact View.readCov_unit_zero arg7.view zero2 inb_S10000x128_S10000x128_0_0 _

/-- The first statistics row the first point reads back after the clearing: zero. -/
theorem first_v9 (c : Dev nD) (arg8 : Memref sig .tc .vmem S8x128 .f32) (col : Fin 128) :
    runFirst.sl.v9 (F := Ideal) c arg8 (ix2 (0 : Fin 1) col) = 0 := by
  unfold runFirst.sl.v9 runFirst.sl.HS1_1
  rw [View.readCov_eq_canon']
  show View.canon _ _ = 0
  rw [View.canon_unit_zero zero2, pay1_pay33]

/-- The second statistics row the first point reads back after the clearing and the first row's store: zero. -/
theorem first_v16 (c : Dev nD) (arg1 : Memref sig .tc .vmem S10000x128 .f32) (harg1 : arg1.IsWhole) (arg2 : Memref sig .tc .vmem S16x128 .f32) (harg2 : arg2.IsWhole)
    (arg5 : Memref sig .tc .vmem S400x10000 .f32) (harg5 : arg5.IsWhole) (arg7 : Memref sig .tc .vmem S10000x128 .f32) (arg8 : Memref sig .tc .vmem S8x128 .f32)
    (x0 : Vec Ideal S10000x128 .f32) (x1 : Vec Ideal S16x128 .f32) (x4 : Vec Ideal S400x10000 .f32) (col : Fin 128) :
    runFirst.sl.v16 (F := Ideal) c arg1 harg1 arg2 harg2 arg5 harg5 arg7 arg8 x0 x1 x4 (ix2 (0 : Fin 1) col) = 0 := by
  unfold runFirst.sl.v16 runFirst.sl.HS1_2 runFirst.sl.HS1_1
  rw [View.readCov_eq_canon']
  show View.canon _ _ = 0
  rw [View.canon_cons_of_not_mem _ _ (by
    rw [Rect.mem_set_unit]
    intro h
    have := (h 0).2
    revert this
    show ¬ (1 + 1 * 0 < 0 + 1)
    omega)]
  rw [View.canon_unit_zero zero2, pay1_pay33]

/-- The first point's statistics stores read back, first row: the column sums of the point's block, from zero. -/
theorem first_row0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : atFirst i) (hc1 : ¬atLast i) (x0 : Vec Ideal S10000x128 .f32) (x1 : Vec Ideal S16x128 .f32) (x2 : Vec Ideal S1x128 .f32) (x3 : Vec Ideal S1x128 .f32) (x4 : Vec Ideal S400x10000 .f32) (x5 : Vec Ideal S10000x128 .f32)
    (f : arg8.view.ty.Contents (Elt Ideal)) (col : Fin 128) :
    arg8.view.read (Elt Ideal) (arg8.view.writes (Elt Ideal) f (runFirst c i arg1 harg1 arg2 harg2 arg3 harg3 arg4 harg4 arg5 harg5 arg6 harg6 arg7 harg7 arg8 harg8 hc0 hc1 x0 x1 x2 x3 x4 x5).2.2.1) (ix2 (0 : Fin 8) col)
      = ∑ q : Fin 400, k0_pay2 (F := Ideal) x4 (supV x0 x1) (ix2 q col) := by
  unfold runFirst; dsimp only
  refine (View.read_writes_cons_rows_of_not_mem (o := 1) (W := 1) arg8.view f _ _ _ (ix2 (0 : Fin 8) col) rfl rfl (Or.inl Nat.zero_lt_one)).trans ?_
  unfold runFirst.sl.HS1_2
  refine (View.read_writes_cons_rows_of_mem (o := 0) arg8.view f _ _ _ (ix2 (0 : Fin 8) col) (ix2 (0 : Fin 1) col) rfl rfl rfl).trans ?_
  refine (pay3_apply _ _ _ col).trans ?_
  rw [load_whole arg5 harg5 x4, first_v4, first_v9, zero_add]

/-- The first point's statistics stores read back, second row: the column sums of the squares, from zero. -/
theorem first_row1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : atFirst i) (hc1 : ¬atLast i) (x0 : Vec Ideal S10000x128 .f32) (x1 : Vec Ideal S16x128 .f32) (x2 : Vec Ideal S1x128 .f32) (x3 : Vec Ideal S1x128 .f32) (x4 : Vec Ideal S400x10000 .f32) (x5 : Vec Ideal S10000x128 .f32)
    (f : arg8.view.ty.Contents (Elt Ideal)) (col : Fin 128) :
    arg8.view.read (Elt Ideal) (arg8.view.writes (Elt Ideal) f (runFirst c i arg1 harg1 arg2 harg2 arg3 harg3 arg4 harg4 arg5 harg5 arg6 harg6 arg7 harg7 arg8 harg8 hc0 hc1 x0 x1 x2 x3 x4 x5).2.2.1) (ix2 (1 : Fin 8) col)
      = ∑ q : Fin 400, k0_pay2 (F := Ideal) x4 (supV x0 x1) (ix2 q col) * k0_pay2 (F := Ideal) x4 (supV x0 x1) (ix2 q col) := by
  unfold runFirst; dsimp only
  refine (View.read_writes_cons_rows_of_mem (o := 1) arg8.view f _ _ _ (ix2 (1 : Fin 8) col) (ix2 (0 : Fin 1) col) rfl rfl rfl).trans ?_
  refine (pay4_apply _ _ _ col).trans ?_
  rw [load_whole arg5 harg5 x4, first_v4, first_v16, zero_add]

/-! ## The statistics stores of a middle point, read back -/

theorem mid_row0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : ¬atLast i)
    (x0 : Vec Ideal S10000x128 .f32) (x1 : Vec Ideal S16x128 .f32) (x2 : Vec Ideal S1x128 .f32) (x3 : Vec Ideal S1x128 .f32) (x4 : Vec Ideal S400x10000 .f32) (x5 : Vec Ideal S10000x128 .f32) (xs0 : Vec Ideal S10000x128 .f32) (xs1 : Vec Ideal S8x128 .f32)
    (f : arg8.view.ty.Contents (Elt Ideal)) (col : Fin 128) :
    arg8.view.read (Elt Ideal) (arg8.view.writes (Elt Ideal) f (runMid c i arg1 harg1 arg2 harg2 arg3 harg3 arg4 harg4 arg5 harg5 arg6 harg6 arg7 harg7 arg8 harg8 hc0 hc1 x0 x1 x2 x3 x4 x5 xs0 xs1).2.1) (ix2 (0 : Fin 8) col)
      = xs1 (ix2 (0 : Fin 8) col) + ∑ q : Fin 400, k0_pay2 (F := Ideal) x4 xs0 (ix2 q col) := by
  unfold runMid; dsimp only
  refine (View.read_writes_cons_rows_of_not_mem (o := 1) (W := 1) arg8.view f _ _ _ (ix2 (0 : Fin 8) col) rfl rfl (Or.inl Nat.zero_lt_one)).trans ?_
  refine (View.read_writes_cons_rows_of_mem (o := 0) arg8.view f _ _ _ (ix2 (0 : Fin 8) col) (ix2 (0 : Fin 1) col) rfl rfl rfl).trans ?_
  refine (pay3_apply _ _ _ col).trans ?_
  rw [load_whole arg5 harg5 x4, load_whole arg7 harg7 xs0, load_row0 arg8 harg8 xs1]

theorem mid_row1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : ¬atLast i)
    (x0 : Vec Ideal S10000x128 .f32) (x1 : Vec Ideal S16x128 .f32) (x2 : Vec Ideal S1x128 .f32) (x3 : Vec Ideal S1x128 .f32) (x4 : Vec Ideal S400x10000 .f32) (x5 : Vec Ideal S10000x128 .f32) (xs0 : Vec Ideal S10000x128 .f32) (xs1 : Vec Ideal S8x128 .f32)
    (f : arg8.view.ty.Contents (Elt Ideal)) (col : Fin 128) :
    arg8.view.read (Elt Ideal) (arg8.view.writes (Elt Ideal) f (runMid c i arg1 harg1 arg2 harg2 arg3 harg3 arg4 harg4 arg5 harg5 arg6 harg6 arg7 harg7 arg8 harg8 hc0 hc1 x0 x1 x2 x3 x4 x5 xs0 xs1).2.1) (ix2 (1 : Fin 8) col)
      = xs1 (ix2 (1 : Fin 8) col)
        + ∑ q : Fin 400, k0_pay2 (F := Ideal) x4 xs0 (ix2 q col) * k0_pay2 (F := Ideal) x4 xs0 (ix2 q col) := by
  unfold runMid; dsimp only
  refine (View.read_writes_cons_rows_of_mem (o := 1) arg8.view f _ _ _ (ix2 (1 : Fin 8) col) (ix2 (0 : Fin 1) col) rfl rfl rfl).trans ?_
  refine (pay4_apply _ _ _ col).trans ?_
  rw [load_whole arg5 harg5 x4, load_whole arg7 harg7 xs0]
  exact congrArg (· + _) (load_row1 arg8 harg8 xs1 _ col)

/-! ## The statistics stores of the last point, read back -/

theorem last_row0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : atLast i)
    (x0 : Vec Ideal S10000x128 .f32) (x1 : Vec Ideal S16x128 .f32) (x2 : Vec Ideal S1x128 .f32) (x3 : Vec Ideal S1x128 .f32) (x4 : Vec Ideal S400x10000 .f32) (x5 : Vec Ideal S10000x128 .f32) (xs0 : Vec Ideal S10000x128 .f32) (xs1 : Vec Ideal S8x128 .f32)
    (f : arg8.view.ty.Contents (Elt Ideal)) (col : Fin 128) :
    arg8.view.read (Elt Ideal) (arg8.view.writes (Elt Ideal) f (runLast c i arg1 harg1 arg2 harg2 arg3 harg3 arg4 harg4 arg5 harg5 arg6 harg6 arg7 harg7 arg8 harg8 hc0 hc1 x0 x1 x2 x3 x4 x5 xs0 xs1).2.1) (ix2 (0 : Fin 8) col)
      = xs1 (ix2 (0 : Fin 8) col) + ∑ q : Fin 400, k0_pay2 (F := Ideal) x4 xs0 (ix2 q col) := by
  unfold runLast; dsimp only
  unfold runLast.sl.HS1_2
  refine (View.read_writes_cons_rows_of_not_mem (o := 1) (W := 1) arg8.view f _ _ _ (ix2 (0 : Fin 8) col) rfl rfl (Or.inl Nat.zero_lt_one)).trans ?_
  refine (View.read_writes_cons_rows_of_mem (o := 0) arg8.view f _ _ _ (ix2 (0 : Fin 8) col) (ix2 (0 : Fin 1) col) rfl rfl rfl).trans ?_
  refine (pay3_apply _ _ _ col).trans ?_
  rw [load_whole arg5 harg5 x4, load_whole arg7 harg7 xs0, load_row0 arg8 harg8 xs1]

theorem last_row1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬atFirst i) (hc1 : atLast i)
    (x0 : Vec Ideal S10000x128 .f32) (x1 : Vec Ideal S16x128 .f32) (x2 : Vec Ideal S1x128 .f32) (x3 : Vec Ideal S1x128 .f32) (x4 : Vec Ideal S400x10000 .f32) (x5 : Vec Ideal S10000x128 .f32) (xs0 : Vec Ideal S10000x128 .f32) (xs1 : Vec Ideal S8x128 .f32)
    (f : arg8.view.ty.Contents (Elt Ideal)) (col : Fin 128) :
    arg8.view.read (Elt Ideal) (arg8.view.writes (Elt Ideal) f (runLast c i arg1 harg1 arg2 harg2 arg3 harg3 arg4 harg4 arg5 harg5 arg6 harg6 arg7 harg7 arg8 harg8 hc0 hc1 x0 x1 x2 x3 x4 x5 xs0 xs1).2.1) (ix2 (1 : Fin 8) col)
      = xs1 (ix2 (1 : Fin 8) col)
        + ∑ q : Fin 400, k0_pay2 (F := Ideal) x4 xs0 (ix2 q col) * k0_pay2 (F := Ideal) x4 xs0 (ix2 q col) := by
  unfold runLast; dsimp only
  unfold runLast.sl.HS1_2
  refine (View.read_writes_cons_rows_of_mem (o := 1) arg8.view f _ _ _ (ix2 (1 : Fin 8) col) (ix2 (0 : Fin 1) col) rfl rfl rfl).trans ?_
  refine (pay4_apply _ _ _ col).trans ?_
  rw [load_whole arg5 harg5 x4, load_whole arg7 harg7 xs0]
  exact congrArg (· + _) (load_row1 arg8 harg8 xs1 _ col)

/-! ## The scratch buffers after each point -/

section After

variable (m : (ℓ : Loc nD τ sig) → Buf (Elt Ideal) ℓ) (c : Dev nD)

theorem N_pos : 0 < cfg0.N := by decide

/-- The first grid point. -/
abbrev t0 : Fin cfg0.N := ⟨0, N_pos⟩

/-- The support scratch does not change after the first point. -/
theorem scrAt_succ_fst (n : ℕ) (hn : n + 1 < cfg0.N) :
    (scrAt m c (n + 1) hn).1 = (scrAt m c n (Nat.lt_of_succ_lt hn)).1 := by
  by_cases h1 : n + 1 = 24
  · exact (congrArg Prod.fst (scrAt_last m c ⟨n + 1, hn⟩ (Nat.succ_ne_zero n) h1) : _)
  · exact (congrArg Prod.fst (scrAt_mid m c ⟨n + 1, hn⟩ (Nat.succ_ne_zero n) h1) : _)

/-- After the first point the support scratch holds the support of the feature block and the weight block. -/
theorem sup_eq_zero (hn : 0 < cfg0.N) :
    (scrAt m c 0 hn).1 = supV (iblk m c 0 ⟨0, hn⟩) (iblk m c 1 ⟨0, hn⟩) := by
  refine (congrArg Prod.fst (scrAt_first m c ⟨0, hn⟩ rfl) : _).trans ?_
  dsimp only
  unfold firstAt
  rw [first_sup]
  exact read_single_whole _ _ _ _

/-- The first point's feature block and weight block, and point t's block of 400 adjacency rows, at their shapes. -/
abbrev featB : Vec Ideal S10000x128 .f32 := iblk m c 0 t0
abbrev wgtB : Vec Ideal S16x128 .f32 := iblk m c 1 t0
abbrev adjB (t : Fin cfg0.N) : Vec Ideal S400x10000 .f32 := iblk m c 4 t

/-- After every point the support scratch holds the support of the feature block and the weight block. -/
theorem sup_eq : ∀ (n : ℕ) (hn : n < cfg0.N), (scrAt m c n hn).1 = supV (iblk m c 0 t0) (iblk m c 1 t0)
  | 0, hn => sup_eq_zero m c hn
  | n + 1, hn => (scrAt_succ_fst m c n hn).trans (sup_eq n (Nat.lt_of_succ_lt hn))

/-- At row k, column col: the sum over j of the feature block at (k, j) times the weight matrix at (j, col). -/
theorem sup_apply (n : ℕ) (hn : n < cfg0.N) (k : Fin 10000) (col : Fin 128) :
    (scrAt m c n hn).1 (ix2 k col)
      = ∑ j : Fin 128, featB m c (ix2 k j) * hamK (wgtB m c) (ix2 j col) := by
  rw [sup_eq]; exact supV_apply _ _ k col

/-- Row q of point t's 400 rows of adjacency times support, at column col. -/
def yv (t : Fin cfg0.N) (q : Fin 400) (col : Fin 128) : EReal :=
  ∑ k : Fin 10000, adjB m c t (ix2 q k) * (scrAt m c 0 N_pos).1 (ix2 k col)

/-- The point's product block against the support any point left is that row. -/
theorem pay2_eq_yv (t : Fin cfg0.N) (n : ℕ) (hn : n < cfg0.N) (q : Fin 400) (col : Fin 128) :
    k0_pay2 (F := Ideal) (iblk m c 4 t) (scrAt m c n hn).1 (ix2 q col) = yv m c t q col := by
  rw [sup_eq m c n hn, ← sup_eq m c 0 N_pos]; exact pay2_apply _ _ q col

/-! The reads of the statistics scratch after a point's stores, at the point's own arguments. -/

theorem firstAt_rows (t : Fin cfg0.N) (h0 : t.val = 0) (Y : Vec Ideal S10000x128 .f32)
    (f : statM.view.ty.Contents (Elt Ideal)) (col : Fin 128) :
    statM.view.read (Elt Ideal) (statM.view.writes (Elt Ideal) f (firstAt m c t h0 Y).2.2.1) (ix2 (0 : Fin 8) col)
        = ∑ q : Fin 400, k0_pay2 (F := Ideal) (iblk m c 4 t) (supV (iblk m c 0 t) (iblk m c 1 t)) (ix2 q col)
      ∧ statM.view.read (Elt Ideal) (statM.view.writes (Elt Ideal) f (firstAt m c t h0 Y).2.2.1) (ix2 (1 : Fin 8) col)
        = ∑ q : Fin 400, k0_pay2 (F := Ideal) (iblk m c 4 t) (supV (iblk m c 0 t) (iblk m c 1 t)) (ix2 q col)
            * k0_pay2 (F := Ideal) (iblk m c 4 t) (supV (iblk m c 0 t) (iblk m c 1 t)) (ix2 q col) :=
  ⟨first_row0 c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) _ _ (iblk m c 0 t) (iblk m c 1 t) (iblk m c 2 t) (iblk m c 3 t) (iblk m c 4 t) Y f col, first_row1 c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) _ _ (iblk m c 0 t) (iblk m c 1 t) (iblk m c 2 t) (iblk m c 3 t) (iblk m c 4 t) Y f col⟩

theorem midAt_rows (t : Fin cfg0.N) (h0 : t.val ≠ 0) (h1 : t.val ≠ 24) (Y s0 : Vec Ideal S10000x128 .f32) (s1 : Vec Ideal S8x128 .f32)
    (f : statM.view.ty.Contents (Elt Ideal)) (col : Fin 128) :
    statM.view.read (Elt Ideal) (statM.view.writes (Elt Ideal) f (midAt m c t h0 h1 Y s0 s1).2.1) (ix2 (0 : Fin 8) col)
        = s1 (ix2 (0 : Fin 8) col) + ∑ q : Fin 400, k0_pay2 (F := Ideal) (iblk m c 4 t) s0 (ix2 q col)
      ∧ statM.view.read (Elt Ideal) (statM.view.writes (Elt Ideal) f (midAt m c t h0 h1 Y s0 s1).2.1) (ix2 (1 : Fin 8) col)
        = s1 (ix2 (1 : Fin 8) col)
          + ∑ q : Fin 400, k0_pay2 (F := Ideal) (iblk m c 4 t) s0 (ix2 q col) * k0_pay2 (F := Ideal) (iblk m c 4 t) s0 (ix2 q col) :=
  ⟨mid_row0 c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) _ _ (iblk m c 0 t) (iblk m c 1 t) (iblk m c 2 t) (iblk m c 3 t) (iblk m c 4 t) Y s0 s1 f col, mid_row1 c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) _ _ (iblk m c 0 t) (iblk m c 1 t) (iblk m c 2 t) (iblk m c 3 t) (iblk m c 4 t) Y s0 s1 f col⟩

theorem lastAt_rows (t : Fin cfg0.N) (h0 : t.val ≠ 0) (h1 : t.val = 24) (Y s0 : Vec Ideal S10000x128 .f32) (s1 : Vec Ideal S8x128 .f32)
    (f : statM.view.ty.Contents (Elt Ideal)) (col : Fin 128) :
    statM.view.read (Elt Ideal) (statM.view.writes (Elt Ideal) f (lastAt m c t h0 h1 Y s0 s1).2.1) (ix2 (0 : Fin 8) col)
        = s1 (ix2 (0 : Fin 8) col) + ∑ q : Fin 400, k0_pay2 (F := Ideal) (iblk m c 4 t) s0 (ix2 q col)
      ∧ statM.view.read (Elt Ideal) (statM.view.writes (Elt Ideal) f (lastAt m c t h0 h1 Y s0 s1).2.1) (ix2 (1 : Fin 8) col)
        = s1 (ix2 (1 : Fin 8) col)
          + ∑ q : Fin 400, k0_pay2 (F := Ideal) (iblk m c 4 t) s0 (ix2 q col) * k0_pay2 (F := Ideal) (iblk m c 4 t) s0 (ix2 q col) :=
  ⟨last_row0 c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) _ _ (iblk m c 0 t) (iblk m c 1 t) (iblk m c 2 t) (iblk m c 3 t) (iblk m c 4 t) Y s0 s1 f col, last_row1 c (grid0.coords t) (sm0 t) (hsm0 t) (sm1 t) (hsm1 t) (sm2 t) (hsm2 t) (sm3 t) (hsm3 t) (sm4 t) (hsm4 t) (sm5 t) (hsm5 t) supM (Memref.isWhole_whole _) statM (Memref.isWhole_whole _) _ _ (iblk m c 0 t) (iblk m c 1 t) (iblk m c 2 t) (iblk m c 3 t) (iblk m c 4 t) Y s0 s1 f col⟩

/-- The statistics rows after the first point: the column sums of the first block and of its squares. -/
theorem stat_zero (hn : 0 < cfg0.N) (col : Fin 128) :
    (scrAt m c 0 hn).2 (ix2 (0 : Fin 8) col) = ∑ q : Fin 400, yv m c ⟨0, hn⟩ q col
      ∧ (scrAt m c 0 hn).2 (ix2 (1 : Fin 8) col) = ∑ q : Fin 400, yv m c ⟨0, hn⟩ q col * yv m c ⟨0, hn⟩ q col := by
  have e : (scrAt m c 0 hn).2 = statM.view.read (Elt Ideal) (statM.view.writes (Elt Ideal) statM.view.junk
      (firstAt m c ⟨0, hn⟩ rfl (iblk m c 0 ⟨0, hn⟩)).2.2.1) := (congrArg Prod.snd (scrAt_first m c ⟨0, hn⟩ rfl) : _)
  have es : supV (iblk m c 0 ⟨0, hn⟩) (iblk m c 1 ⟨0, hn⟩) = (scrAt m c 0 N_pos).1 := (sup_eq m c 0 N_pos).symm
  obtain ⟨r0, r1⟩ := firstAt_rows m c ⟨0, hn⟩ rfl (iblk m c 0 ⟨0, hn⟩) statM.view.junk col
  rw [es] at r0 r1
  rw [e]
  refine ⟨r0.trans ?_, r1.trans ?_⟩
  · exact Finset.sum_congr rfl fun q _ => pay2_eq_yv m c ⟨0, hn⟩ 0 N_pos q col
  · exact Finset.sum_congr rfl fun q _ => by rw [pay2_eq_yv m c ⟨0, hn⟩ 0 N_pos q col]

/-- One more point: each statistics row grows by the point's column sums. -/
theorem stat_succ (n : ℕ) (hn : n + 1 < cfg0.N) (col : Fin 128) :
    (scrAt m c (n + 1) hn).2 (ix2 (0 : Fin 8) col)
        = (scrAt m c n (Nat.lt_of_succ_lt hn)).2 (ix2 (0 : Fin 8) col) + ∑ q : Fin 400, yv m c ⟨n + 1, hn⟩ q col
      ∧ (scrAt m c (n + 1) hn).2 (ix2 (1 : Fin 8) col)
        = (scrAt m c n (Nat.lt_of_succ_lt hn)).2 (ix2 (1 : Fin 8) col)
          + ∑ q : Fin 400, yv m c ⟨n + 1, hn⟩ q col * yv m c ⟨n + 1, hn⟩ q col := by
  have hp : n < cfg0.N := Nat.lt_of_succ_lt hn
  by_cases h1 : n + 1 = 24
  · have e : (scrAt m c (n + 1) hn).2 = statM.view.read (Elt Ideal) (statM.view.writes (Elt Ideal)
        ((Memref.isWhole_whole _ : statM.IsWhole).unread (scrAt m c n hp).2)
        (lastAt m c ⟨n + 1, hn⟩ (Nat.succ_ne_zero n) h1 (iblk m c 0 ⟨n + 1, hn⟩) (scrAt m c n hp).1 (scrAt m c n hp).2).2.1) :=
      (congrArg Prod.snd (scrAt_last m c ⟨n + 1, hn⟩ (Nat.succ_ne_zero n) h1) : _)
    obtain ⟨r0, r1⟩ := lastAt_rows m c ⟨n + 1, hn⟩ (Nat.succ_ne_zero n) h1 (iblk m c 0 ⟨n + 1, hn⟩) (scrAt m c n hp).1 (scrAt m c n hp).2
      ((Memref.isWhole_whole _ : statM.IsWhole).unread (scrAt m c n hp).2) col
    rw [e]
    refine ⟨r0.trans ?_, r1.trans ?_⟩
    · exact congrArg₂ (· + ·) rfl (Finset.sum_congr rfl fun q _ => pay2_eq_yv m c ⟨n + 1, hn⟩ n hp q col)
    · exact congrArg₂ (· + ·) rfl (Finset.sum_congr rfl fun q _ => by rw [pay2_eq_yv m c ⟨n + 1, hn⟩ n hp q col])
  · have e : (scrAt m c (n + 1) hn).2 = statM.view.read (Elt Ideal) (statM.view.writes (Elt Ideal)
        ((Memref.isWhole_whole _ : statM.IsWhole).unread (scrAt m c n hp).2)
        (midAt m c ⟨n + 1, hn⟩ (Nat.succ_ne_zero n) h1 (iblk m c 0 ⟨n + 1, hn⟩) (scrAt m c n hp).1 (scrAt m c n hp).2).2.1) :=
      (congrArg Prod.snd (scrAt_mid m c ⟨n + 1, hn⟩ (Nat.succ_ne_zero n) h1) : _)
    obtain ⟨r0, r1⟩ := midAt_rows m c ⟨n + 1, hn⟩ (Nat.succ_ne_zero n) h1 (iblk m c 0 ⟨n + 1, hn⟩) (scrAt m c n hp).1 (scrAt m c n hp).2
      ((Memref.isWhole_whole _ : statM.IsWhole).unread (scrAt m c n hp).2) col
    rw [e]
    refine ⟨r0.trans ?_, r1.trans ?_⟩
    · exact congrArg₂ (· + ·) rfl (Finset.sum_congr rfl fun q _ => pay2_eq_yv m c ⟨n + 1, hn⟩ n hp q col)
    · exact congrArg₂ (· + ·) rfl (Finset.sum_congr rfl fun q _ => by rw [pay2_eq_yv m c ⟨n + 1, hn⟩ n hp q col])

/-- After point n the first statistics row holds the column sums over the rows of the points 0 … n, the second the
    column sums of their squares. -/
theorem stat_rows : ∀ (n : ℕ) (hn : n < cfg0.N) (col : Fin 128),
    (scrAt m c n hn).2 (ix2 (0 : Fin 8) col)
        = ∑ t : Fin (n + 1), ∑ q : Fin 400, yv m c ⟨t.val, Nat.lt_of_lt_of_le t.isLt hn⟩ q col
      ∧ (scrAt m c n hn).2 (ix2 (1 : Fin 8) col)
        = ∑ t : Fin (n + 1), ∑ q : Fin 400,
            yv m c ⟨t.val, Nat.lt_of_lt_of_le t.isLt hn⟩ q col * yv m c ⟨t.val, Nat.lt_of_lt_of_le t.isLt hn⟩ q col
  | 0, hn, col => by
    obtain ⟨z0, z1⟩ := stat_zero m c hn col
    refine ⟨?_, ?_⟩
    · rw [Fin.sum_univ_one]; exact z0
    · rw [Fin.sum_univ_one]; exact z1
  | n + 1, hn, col => by
    obtain ⟨ih0, ih1⟩ := stat_rows n (Nat.lt_of_succ_lt hn) col
    obtain ⟨s0, s1⟩ := stat_succ m c n hn col
    refine ⟨s0.trans ?_, s1.trans ?_⟩
    · rw [ih0, Fin.sum_univ_castSucc (n := n + 1)]; rfl
    · rw [ih1, Fin.sum_univ_castSucc (n := n + 1)]; rfl

theorem stat_row0 (n : ℕ) (hn : n < cfg0.N) (col : Fin 128) :
    (scrAt m c n hn).2 (ix2 (0 : Fin 8) col)
      = ∑ t : Fin (n + 1), ∑ q : Fin 400, yv m c ⟨t.val, Nat.lt_of_lt_of_le t.isLt hn⟩ q col :=
  (stat_rows m c n hn col).1

theorem stat_row1 (n : ℕ) (hn : n < cfg0.N) (col : Fin 128) :
    (scrAt m c n hn).2 (ix2 (1 : Fin 8) col)
      = ∑ t : Fin (n + 1), ∑ q : Fin 400,
          yv m c ⟨t.val, Nat.lt_of_lt_of_le t.isLt hn⟩ q col * yv m c ⟨t.val, Nat.lt_of_lt_of_le t.isLt hn⟩ q col :=
  (stat_rows m c n hn col).2

/-! ## After the last point: one sum over the 10000 rows -/

/-- A sum over n blocks of b terms each is one sum over the n · b indices, index r standing for term r mod b of
    block r div b. -/
theorem sum_blocks {M : Type} [AddCommMonoid M] (n b : ℕ) (g : Fin n → Fin b → M) :
    ∑ t : Fin n, ∑ q : Fin b, g t q
      = ∑ r : Fin (n * b), g (finProdFinEquiv.symm r).1 (finProdFinEquiv.symm r).2 := by
  rw [← Fintype.sum_prod_type']
  exact (Equiv.sum_comp finProdFinEquiv.symm (fun p : Fin n × Fin b => g p.1 p.2)).symm

theorem N_eq : cfg0.N = 25 := by decide

/-- Row r of adjacency times support, at column col: row r mod 400 of point r div 400. -/
def yrow (r : Fin 10000) (col : Fin 128) : EReal :=
  yv m c ⟨r.val / 400, by rw [N_eq]; have := r.isLt; omega⟩ ⟨r.val % 400, Nat.mod_lt _ (by norm_num)⟩ col

/-- After the last point the first statistics row holds the column sums over all 10000 rows, -/
theorem stat_last_row0 (h24 : 24 < cfg0.N) (col : Fin 128) :
    (scrAt m c 24 h24).2 (ix2 (0 : Fin 8) col) = ∑ r : Fin 10000, yrow m c r col := by
  rw [stat_row0]
  exact sum_blocks 25 400 (fun t q => yv m c ⟨t.val, Nat.lt_of_lt_of_le t.isLt h24⟩ q col)

/-- and the second the column sums of the squares. -/
theorem stat_last_row1 (h24 : 24 < cfg0.N) (col : Fin 128) :
    (scrAt m c 24 h24).2 (ix2 (1 : Fin 8) col) = ∑ r : Fin 10000, yrow m c r col * yrow m c r col := by
  rw [stat_row1]
  exact sum_blocks 25 400 (fun t q => yv m c ⟨t.val, Nat.lt_of_lt_of_le t.isLt h24⟩ q col
    * yv m c ⟨t.val, Nat.lt_of_lt_of_le t.isLt h24⟩ q col)

end After

end Cert.KernelIdeal.Scratch

end
-- ==== Proof.RefTerm.lean ====
import proofs.«152943_g16630113370191_cont_week2b_735_29_alg».proof.Proof.Gen.ReferenceIdeal
import Idealize.ShloMosaic.PureOps

noncomputable section

namespace Cert.ReferenceIdeal.RefValue

open Cert.ReferenceIdeal Cert.ReferenceIdeal.Gen Idealize.ShloMosaic Idealize.SL.Sem

variable {F : FTy → Type} [FloatOps F]

/-! ## The weight matrix

The 16×128 weight array is eight 16×16 blocks side by side, `blk k w` the block at columns `16k … 16k+15`.
The 128×128 matrix `ham w` is the 8×8 block matrix of the octonion product's left multiplication: block column
`j` is the eight blocks stacked in the order and with the signs of the `j`-th octonion unit's table. -/

/-- Block 0 of the weights: columns 0 … 15. -/
def blk0 (w : FVec F S16x128 .f32) : FVec F S16x16 .f32 := extractStridedSlice S16x16 ![0, 0] w slices_S16x128_S16x16_0_0
/-- Block 1 of the weights: columns 16 … 31. -/
def blk1 (w : FVec F S16x128 .f32) : FVec F S16x16 .f32 := extractStridedSlice S16x16 ![0, 16] w slices_S16x128_S16x16_0_16
/-- Block 2 of the weights: columns 32 … 47. -/
def blk2 (w : FVec F S16x128 .f32) : FVec F S16x16 .f32 := extractStridedSlice S16x16 ![0, 32] w slices_S16x128_S16x16_0_32
/-- Block 3 of the weights: columns 48 … 63. -/
def blk3 (w : FVec F S16x128 .f32) : FVec F S16x16 .f32 := extractStridedSlice S16x16 ![0, 48] w slices_S16x128_S16x16_0_48
/-- Block 4 of the weights: columns 64 … 79. -/
def blk4 (w : FVec F S16x128 .f32) : FVec F S16x16 .f32 := extractStridedSlice S16x16 ![0, 64] w slices_S16x128_S16x16_0_64
/-- Block 5 of the weights: columns 80 … 95. -/
def blk5 (w : FVec F S16x128 .f32) : FVec F S16x16 .f32 := extractStridedSlice S16x16 ![0, 80] w slices_S16x128_S16x16_0_80
/-- Block 6 of the weights: columns 96 … 111. -/
def blk6 (w : FVec F S16x128 .f32) : FVec F S16x16 .f32 := extractStridedSlice S16x16 ![0, 96] w slices_S16x128_S16x16_0_96
/-- Block 7 of the weights: columns 112 … 127. -/
def blk7 (w : FVec F S16x128 .f32) : FVec F S16x16 .f32 := extractStridedSlice S16x16 ![0, 112] w slices_S16x128_S16x16_0_112

/-- A block negated, element by element. -/
def neg (a : FVec F S16x16 .f32) : FVec F S16x16 .f32 := Host.negf (F := F) a

/-- Eight 16×16 blocks stacked along the rows: a 128×16 block column. -/
def stack (a0 a1 a2 a3 a4 a5 a6 a7 : FVec F S16x16 .f32) : FVec F S128x16 .f32 :=
  concatenate S128x16 0 [⟨S16x16, a0⟩, ⟨S16x16, a1⟩, ⟨S16x16, a2⟩, ⟨S16x16, a3⟩, ⟨S16x16, a4⟩, ⟨S16x16, a5⟩, ⟨S16x16, a6⟩, ⟨S16x16, a7⟩]
    concatenates_S16x16_S16x16_S16x16_S16x16_S16x16_S16x16_S16x16_S16x16_S128x16_d0

/-- Eight 128×16 block columns side by side: the 128×128 matrix. -/
def beside (c0 c1 c2 c3 c4 c5 c6 c7 : FVec F S128x16 .f32) : FVec F S128x128 .f32 :=
  concatenate S128x128 1 [⟨S128x16, c0⟩, ⟨S128x16, c1⟩, ⟨S128x16, c2⟩, ⟨S128x16, c3⟩, ⟨S128x16, c4⟩, ⟨S128x16, c5⟩, ⟨S128x16, c6⟩, ⟨S128x16, c7⟩]
    concatenates_S128x16_S128x16_S128x16_S128x16_S128x16_S128x16_S128x16_S128x16_S128x128_d1

/-- Block column 0: the blocks in order, no sign. -/
def col0 (w : FVec F S16x128 .f32) : FVec F S128x16 .f32 :=
  stack (blk0 w) (blk1 w) (blk2 w) (blk3 w) (blk4 w) (blk5 w) (blk6 w) (blk7 w)
/-- Block column 1. -/
def col1 (w : FVec F S16x128 .f32) : FVec F S128x16 .f32 :=
  stack (blk1 w) (neg (blk0 w)) (blk3 w) (neg (blk2 w)) (blk5 w) (neg (blk4 w)) (neg (blk7 w)) (blk6 w)
/-- Block column 2. -/
def col2 (w : FVec F S16x128 .f32) : FVec F S128x16 .f32 :=
  stack (blk2 w) (neg (blk3 w)) (neg (blk0 w)) (blk1 w) (blk6 w) (blk7 w) (neg (blk4 w)) (neg (blk5 w))
/-- Block column 3. -/
def col3 (w : FVec F S16x128 .f32) : FVec F S128x16 .f32 :=
  stack (blk3 w) (blk2 w) (neg (blk1 w)) (neg (blk0 w)) (blk7 w) (neg (blk6 w)) (blk5 w) (neg (blk4 w))
/-- Block column 4. -/
def col4 (w : FVec F S16x128 .f32) : FVec F S128x16 .f32 :=
  stack (blk4 w) (neg (blk5 w)) (neg (blk6 w)) (neg (blk7 w)) (neg (blk0 w)) (blk1 w) (blk2 w) (blk3 w)
/-- Block column 5. -/
def col5 (w : FVec F S16x128 .f32) : FVec F S128x16 .f32 :=
  stack (blk5 w) (blk4 w) (neg (blk7 w)) (blk6 w) (neg (blk1 w)) (neg (blk0 w)) (neg (blk3 w)) (blk2 w)
/-- Block column 6. -/
def col6 (w : FVec F S16x128 .f32) : FVec F S128x16 .f32 :=
  stack (blk6 w) (blk7 w) (blk4 w) (neg (blk5 w)) (neg (blk2 w)) (blk3 w) (neg (blk0 w)) (neg (blk1 w))
/-- Block column 7. -/
def col7 (w : FVec F S16x128 .f32) : FVec F S128x16 .f32 :=
  stack (blk7 w) (neg (blk6 w)) (blk5 w) (blk4 w) (neg (blk3 w)) (neg (blk2 w)) (blk1 w) (neg (blk0 w))

/-- The 128×128 matrix of the weights. -/
def ham (w : FVec F S16x128 .f32) : FVec F S128x128 .f32 :=
  beside (col0 w) (col1 w) (col2 w) (col3 w) (col4 w) (col5 w) (col6 w) (col7 w)

/-! ## The two products -/

/-- `x · ham w`: the features through the weight matrix. -/
def sup (x : FVec F S10000x128 .f32) (w : FVec F S16x128 .f32) : FVec F S10000x128 .f32 :=
  Host.dotGeneral dot_S10000x128_S128x128_S10000x128_1_0_0_1_n_n none x (ham w)

/-- `adj · (x · ham w)`: the aggregation over the graph. -/
def y (x : FVec F S10000x128 .f32) (adj : FVec F S10000x10000 .f32) (w : FVec F S16x128 .f32) : FVec F S10000x128 .f32 :=
  Host.dotGeneral dot_S10000x10000_S10000x128_S10000x128_1_0_0_1_n_n none adj (sup x w)

/-! ## The column statistics -/

/-- The column sums of a 10000×128 array, from zero. -/
def colSum (v : FVec F S10000x128 .f32) : FVec F S128 .f32 :=
  Host.reduceAdd v (constant (F := F) S_ .f32 0x00000000#32) reducesTo_S10000x128_S128_d0 h_S_

/-- The row count 10000 as a float, at every column. -/
def cnt : FVec F S128 .f32 := broadcastInDim S128 ![] bcast_S_S128 (constant (F := F) S_ .f32 0x461C4000#32)

/-- The column means: the column sums over the row count. -/
def mean (v : FVec F S10000x128 .f32) : FVec F S128 .f32 := Host.divf (F := F) (colSum v) cnt

/-- A row vector of 128 spread over the 10000 rows. -/
def rows (v : FVec F S128 .f32) : FVec F S10000x128 .f32 :=
  broadcastInDim S10000x128 ![0, 1] bcast_S1x128_S10000x128_0_1 (broadcastInDim S1x128 ![1] bcast_S128_S1x128_1 v)

/-- The variance's own column means, kept as a 1×128 row: the column sums as a row over the row count as a row. -/
def meanRow (v : FVec F S10000x128 .f32) : FVec F S1x128 .f32 :=
  Host.divf (F := F) (broadcastInDim S1x128 ![1] bcast_S128_S1x128_1 (colSum v))
    (broadcastInDim S1x128 ![] bcast_S_S1x128 (constant (F := F) S_ .f32 0x461C4000#32))

/-- The array centred at its column means. -/
def centred (v : FVec F S10000x128 .f32) : FVec F S10000x128 .f32 :=
  subf v (broadcastInDim S10000x128 ![0, 1] bcast_S1x128_S10000x128_0_1 (meanRow v))

/-- The squares of the centred array. -/
def sq (v : FVec F S10000x128 .f32) : FVec F S10000x128 .f32 := mulf (centred v) (centred v)

/-- The variance's divisor as a scalar: the row count less the correction `ddof` (an integer, here zero) as a float. -/
def dof (c : IVec S_ 32) : FVec F S_ .f32 := subf (constant (F := F) S_ .f32 0x461C4000#32) (sitofp (F := F) .f32 c)

/-- The sums of squares over the divisor, at every column. -/
def varRaw (v : FVec F S10000x128 .f32) (c : IVec S_ 32) : FVec F S128 .f32 :=
  Host.divf (F := F) (colSum (sq v)) (broadcastInDim S128 ![] bcast_S_S128 (dof (F := F) c))

/-- Whether the divisor is positive. -/
def dofPos (c : IVec S_ 32) : IVec S_ 1 := cmpf .ogt (dof (F := F) c) (constant (F := F) S_ .f32 0x00000000#32)

/-- The value where the divisor is not positive: the quiet NaN word, at every column. -/
def nanRow : FVec F S128 .f32 := broadcastInDim S128 ![] bcast_S_S128 (id (constant (F := F) S_ .f32 0x7FC00000#32))

/-- The column variances: the sums of squares over the divisor where the divisor is positive, the NaN word elsewhere. -/
def var (v : FVec F S10000x128 .f32) (c : IVec S_ 32) : FVec F S128 .f32 :=
  select (broadcastInDim S128 ![] bcast_S_S128 (dofPos (F := F) c)) (varRaw v c) (nanRow (F := F))

/-! ## The normalization -/

/-- The small constant added to the variance, at every column. -/
def epsRow : FVec F S128 .f32 := broadcastInDim S128 ![] bcast_S_S128 (constant (F := F) S_ .f32 0x3727C5AC#32)

/-- The column standard deviations: the square root of the variance plus the small constant. -/
def sd (v : FVec F S10000x128 .f32) : FVec F S128 .f32 :=
  Host.sqrt (F := F) (addf (var v (constantI S_ 32 0#32)) (epsRow (F := F)))

/-- The array centred at its column means and divided by its column standard deviations. -/
def normed (v : FVec F S10000x128 .f32) : FVec F S10000x128 .f32 :=
  Host.divf (F := F) (subf v (rows (mean v))) (rows (sd v))

/-- The normalized array scaled by `g` and shifted by `b` column by column, through the hyperbolic tangent. -/
def tail (v : FVec F S10000x128 .f32) (g b : FVec F S128 .f32) : FVec F S10000x128 .f32 :=
  Host.tanh (F := F) (addf (mulf (normed v) (rows g)) (rows b))

/-- The reference's result array as ONE pure function of the five argument arrays: the operations' composed term. -/
def out (x : FVec F S10000x128 .f32) (adj : FVec F S10000x10000 .f32) (w : FVec F S16x128 .f32)
    (g : FVec F S128 .f32) (b : FVec F S128 .f32) : FVec F S10000x128 .f32 :=
  tail (y x adj w) g b

end Cert.ReferenceIdeal.RefValue

end
-- ==== Proof.LibBatchNorm.lean ====
/-
  Batch normalisation over the extended reals: the two ways of writing it are one function.

  For a column of n = 10000 finite values y with sum S1 and sum of squares S2, write μ = S1 / n.
  One form takes the variance as S2 / n − μ², folds the reciprocal square root with the gain γ into
  one factor and the offset β with the mean into one summand; the other form takes the variance as
  the mean of the centred squares (y − μ)², centres the value, divides by the square root and then
  applies γ and β. Since n is the number of terms, (1/n) Σ (y − μ)² = (1/n) Σ y² − μ², which is ≥ 0,
  so with ε > 0 both radicands are one positive real v and both forms are
  (y − μ) · γ / √v + β. All operations are those of the ideal float values at one index
  (the division "Ideal.div", "Ideal.rsqrt", "Ideal.sqrt" and the sum, product and difference of the
  extended reals); on coerced reals with a positive radicand and a nonzero divisor they are the real
  operations, so the statement reduces to an identity of real numbers.
-/
import Idealize.ShloMosaic.PureOps.Ideal
import Idealize.ShloMosaic.PureOps.Ideal.Laws

noncomputable section

namespace Cert.BatchNorm

open Idealize.ShloMosaic
open scoped BigOperators

/-! ## The constants -/

/-- The f32 pattern "0x461C4000" denotes the real number 10000 (= (2^23 + 1851392) · 2^(−10)). -/
theorem ofBits_count : (Ideal.ofBits .f32 0x461C4000#32 : EReal) = ((10000 : ℝ) : EReal) := by
  simp [Ideal.ofBits, Ideal.ieee, -EReal.coe_mul]; norm_num

/-- The f32 pattern "0x3727C5AC" denotes a positive real number (10995116 · 2^(−40), about 10⁻⁵). -/
theorem ofBits_eps : ∃ e : ℝ, 0 < e ∧ (Ideal.ofBits .f32 0x3727C5AC#32 : EReal) = (e : EReal) := by
  refine ⟨(10995116 : ℝ) * (2 : ℝ) ^ (-40 : ℤ), by positivity, ?_⟩
  simp [Ideal.ofBits, Ideal.ieee, -EReal.coe_mul]

/-- The all-zero f32 pattern denotes 0. -/
theorem ofBits_zero' : (Ideal.ofBits .f32 0x00000000#32 : EReal) = 0 :=
  Ideal.ofBits_zero_f32

/-- Subtracting zero from the count leaves the count. -/
theorem count_sub_zero :
    (Ideal.ofBits .f32 0x461C4000#32 : EReal) - 0 = Ideal.ofBits .f32 0x461C4000#32 :=
  sub_zero _

/-- The count is positive. -/
theorem count_pos : (0 : EReal) < Ideal.ofBits .f32 0x461C4000#32 := by
  rw [ofBits_count]; exact_mod_cast (by norm_num : (0 : ℝ) < 10000)

/-! ## Finite sums of coerced reals -/

/-- A finite sum of coerced reals is the coerced real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of extended reals that are all coerced reals is a coerced real. -/
theorem exists_real_sum {ι : Type} [Fintype ι] (a : ι → EReal) (ha : ∀ i, ∃ x : ℝ, a i = x) :
    ∃ z : ℝ, (∑ i, a i) = (z : EReal) := by
  choose x hx using ha
  exact ⟨∑ i, x i, by rw [← coe_sum]; exact Finset.sum_congr rfl (fun i _ => hx i)⟩

/-- A finite sum of products of extended reals that are all coerced reals is a coerced real. -/
theorem exists_real_sum_mul {ι : Type} [Fintype ι] (a b : ι → EReal) (ha : ∀ i, ∃ x : ℝ, a i = x)
    (hb : ∀ i, ∃ x : ℝ, b i = x) : ∃ z : ℝ, (∑ i, a i * b i) = (z : EReal) := by
  choose x hx using ha
  choose w hw using hb
  refine ⟨∑ i, x i * w i, ?_⟩
  rw [← coe_sum]
  exact Finset.sum_congr rfl (fun i _ => by rw [hx, hw, EReal.coe_mul])

/-! ## The real identities -/

/-- The mean of the centred squares is the mean of the squares minus the square of the mean, when
    the divisor n is the number of terms. -/
theorem centred_mean_sq {m : ℕ} (y : Fin m → ℝ) (n : ℝ) (hm : (m : ℝ) = n) (hn : n ≠ 0) :
    (∑ k, (y k - (∑ j, y j) * (1 / n)) * (y k - (∑ j, y j) * (1 / n))) * (1 / n)
      = (∑ k, y k * y k) * (1 / n) - (∑ j, y j) * (1 / n) * ((∑ j, y j) * (1 / n)) := by
  have h : ∀ k, (y k - (∑ j, y j) * (1 / n)) * (y k - (∑ j, y j) * (1 / n))
      = y k * y k - 2 * ((∑ j, y j) * (1 / n)) * y k
        + (∑ j, y j) * (1 / n) * ((∑ j, y j) * (1 / n)) := fun k => by ring
  simp only [h, Finset.sum_add_distrib, Finset.sum_sub_distrib, ← Finset.mul_sum, Finset.sum_const,
    Finset.card_univ, Fintype.card_fin, nsmul_eq_mul, hm]
  field_simp
  ring

/-- The mean of the centred squares is not negative. -/
theorem centred_mean_sq_nonneg {m : ℕ} (y : Fin m → ℝ) (μ n : ℝ) (hn : 0 < n) :
    0 ≤ (∑ k, (y k - μ) * (y k - μ)) * (1 / n) :=
  mul_nonneg (Finset.sum_nonneg fun k _ => mul_self_nonneg _) (by positivity)

/-! ## The two forms -/

/-- The reciprocal square root of a positive coerced real is the coerced real reciprocal root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The square root of a nonnegative coerced real is the coerced real root. -/
theorem sqrt_coe_nonneg {v : ℝ} (hv : 0 ≤ v) : Ideal.sqrt (v : EReal) = ((Real.sqrt v : ℝ) : EReal) := by
  rw [Ideal.sqrt_coe, if_neg (not_lt.mpr hv)]

/-- The quotient of coerced reals by a nonzero divisor is the coerced real quotient. -/
theorem div_coe_coe (x : ℝ) {d : ℝ} (hd : d ≠ 0) : Ideal.div (x : EReal) (d : EReal) = ((x * (1 / d) : ℝ) : EReal) := by
  rw [Ideal.div_coe hd, ← EReal.coe_mul]

/-- The two forms with the count a real n equal to the number of terms and ε a positive real. -/
theorem norm_two_forms_real {m : ℕ} (y : Fin m → ℝ) (g b n e : ℝ) (hm : (m : ℝ) = n) (hn : 0 < n)
    (he : 0 < e) (r : Fin m) :
    (y r : EReal)
        * (Ideal.rsqrt (Ideal.div (∑ k, (y k : EReal) * (y k : EReal)) (n : EReal)
            - Ideal.div (∑ k, (y k : EReal)) (n : EReal) * Ideal.div (∑ k, (y k : EReal)) (n : EReal)
            + (e : EReal)) * (g : EReal))
      + ((b : EReal) - Ideal.div (∑ k, (y k : EReal)) (n : EReal)
          * (Ideal.rsqrt (Ideal.div (∑ k, (y k : EReal) * (y k : EReal)) (n : EReal)
            - Ideal.div (∑ k, (y k : EReal)) (n : EReal) * Ideal.div (∑ k, (y k : EReal)) (n : EReal)
            + (e : EReal)) * (g : EReal)))
    = Ideal.div ((y r : EReal) - Ideal.div (∑ k, (y k : EReal)) (n : EReal))
        (Ideal.sqrt (Ideal.div (∑ k, ((y k : EReal) - Ideal.div (∑ k, (y k : EReal)) (n : EReal))
            * ((y k : EReal) - Ideal.div (∑ k, (y k : EReal)) (n : EReal))) (n : EReal) + (e : EReal)))
        * (g : EReal) + (b : EReal) := by
  have hn0 : n ≠ 0 := hn.ne'
  -- the mean is a coerced real
  have hmean : Ideal.div (∑ k, (y k : EReal)) (n : EReal) = (((∑ k, y k) * (1 / n) : ℝ) : EReal) := by
    rw [coe_sum, div_coe_coe _ hn0]
  -- the mean of the squares is a coerced real
  have hsq : Ideal.div (∑ k, (y k : EReal) * (y k : EReal)) (n : EReal)
      = (((∑ k, y k * y k) * (1 / n) : ℝ) : EReal) := by
    have : (∑ k, (y k : EReal) * (y k : EReal)) = ∑ k, ((y k * y k : ℝ) : EReal) :=
      Finset.sum_congr rfl (fun k _ => (EReal.coe_mul _ _).symm)
    rw [this, coe_sum, div_coe_coe _ hn0]
  rw [hmean, hsq]
  set μ : ℝ := (∑ k, y k) * (1 / n) with hμ
  -- the mean of the centred squares is a coerced real
  have hcen : Ideal.div (∑ k, ((y k : EReal) - (μ : EReal)) * ((y k : EReal) - (μ : EReal))) (n : EReal)
      = (((∑ k, (y k - μ) * (y k - μ)) * (1 / n) : ℝ) : EReal) := by
    have : (∑ k, ((y k : EReal) - (μ : EReal)) * ((y k : EReal) - (μ : EReal)))
        = ∑ k, (((y k - μ) * (y k - μ) : ℝ) : EReal) :=
      Finset.sum_congr rfl (fun k _ => by rw [← EReal.coe_sub, ← EReal.coe_mul])
    rw [this, coe_sum, div_coe_coe _ hn0]
  rw [hcen]
  -- the two radicands are one positive real
  have hvar : (∑ k, (y k - μ) * (y k - μ)) * (1 / n) = (∑ k, y k * y k) * (1 / n) - μ * μ :=
    centred_mean_sq y n hm hn0
  have hnn : 0 ≤ (∑ k, (y k - μ) * (y k - μ)) * (1 / n) := centred_mean_sq_nonneg y μ n hn
  set v : ℝ := (∑ k, y k * y k) * (1 / n) - μ * μ + e with hv
  have hvpos : 0 < v := by rw [hv, ← hvar]; linarith
  have hrad1 : ((((∑ k, y k * y k) * (1 / n) : ℝ) : EReal) - (μ : EReal) * (μ : EReal) + (e : EReal)) = (v : EReal) := by
    rw [← EReal.coe_mul, ← EReal.coe_sub, ← EReal.coe_add]
  have hrad2 : ((((∑ k, (y k - μ) * (y k - μ)) * (1 / n) : ℝ) : EReal) + (e : EReal)) = (v : EReal) := by
    rw [← EReal.coe_add, hvar]
  rw [hrad1, hrad2, rsqrt_coe_pos hvpos, sqrt_coe_nonneg hvpos.le]
  have hs : Real.sqrt v ≠ 0 := (Real.sqrt_pos.mpr hvpos).ne'
  rw [← EReal.coe_sub, div_coe_coe _ hs]
  simp only [← EReal.coe_mul, ← EReal.coe_sub, ← EReal.coe_add]
  congr 1
  rw [one_div]
  ring

/-- The two forms of the normalisation of one value of a column of 10000 finite values agree: with
    μ = S1 / N, the folded form y · s + (β − μ · s), s = rsqrt (S2 / N − μ · μ + ε) · γ, equals the
    centred form ((y − μ) / sqrt ((Σ (y − μ)²) / N + ε)) · γ + β. -/
theorem norm_two_forms (y : Fin 10000 → ℝ) (g b : ℝ) (r : Fin 10000) :
    let N : EReal := Ideal.ofBits .f32 0x461C4000#32
    let E : EReal := Ideal.ofBits .f32 0x3727C5AC#32
    let S1 : EReal := ∑ k, (y k : EReal)
    let S2 : EReal := ∑ k, (y k : EReal) * (y k : EReal)
    let mean : EReal := Ideal.div S1 N
    let scale : EReal := Ideal.rsqrt (Ideal.div S2 N - mean * mean + E) * (g : EReal)
    let shift : EReal := (b : EReal) - mean * scale
    let var' : EReal := Ideal.div (∑ k, ((y k : EReal) - mean) * ((y k : EReal) - mean)) N
    (y r : EReal) * scale + shift
      = Ideal.div ((y r : EReal) - mean) (Ideal.sqrt (var' + E)) * (g : EReal) + (b : EReal) := by
  intro N E S1 S2 mean scale shift var'
  obtain ⟨e, he, hE⟩ := ofBits_eps
  have hN : N = ((10000 : ℝ) : EReal) := ofBits_count
  have hE' : E = (e : EReal) := hE
  simp only [scale, shift, var', mean, S1, S2, hN, hE']
  exact norm_two_forms_real y g b 10000 e (by norm_num) (by norm_num) he r

/-- The same with the definitions written out (no "let"). -/
theorem norm_two_forms_inline (y : Fin 10000 → ℝ) (g b : ℝ) (r : Fin 10000) :
    (y r : EReal)
        * (Ideal.rsqrt (Ideal.div (∑ k, (y k : EReal) * (y k : EReal)) (Ideal.ofBits .f32 0x461C4000#32)
            - Ideal.div (∑ k, (y k : EReal)) (Ideal.ofBits .f32 0x461C4000#32)
              * Ideal.div (∑ k, (y k : EReal)) (Ideal.ofBits .f32 0x461C4000#32)
            + Ideal.ofBits .f32 0x3727C5AC#32) * (g : EReal))
      + ((b : EReal) - Ideal.div (∑ k, (y k : EReal)) (Ideal.ofBits .f32 0x461C4000#32)
          * (Ideal.rsqrt (Ideal.div (∑ k, (y k : EReal) * (y k : EReal)) (Ideal.ofBits .f32 0x461C4000#32)
            - Ideal.div (∑ k, (y k : EReal)) (Ideal.ofBits .f32 0x461C4000#32)
              * Ideal.div (∑ k, (y k : EReal)) (Ideal.ofBits .f32 0x461C4000#32)
            + Ideal.ofBits .f32 0x3727C5AC#32) * (g : EReal)))
    = Ideal.div ((y r : EReal) - Ideal.div (∑ k, (y k : EReal)) (Ideal.ofBits .f32 0x461C4000#32))
        (Ideal.sqrt (Ideal.div (∑ k, ((y k : EReal) - Ideal.div (∑ k, (y k : EReal)) (Ideal.ofBits .f32 0x461C4000#32))
            * ((y k : EReal) - Ideal.div (∑ k, (y k : EReal)) (Ideal.ofBits .f32 0x461C4000#32)))
              (Ideal.ofBits .f32 0x461C4000#32) + Ideal.ofBits .f32 0x3727C5AC#32))
        * (g : EReal) + (b : EReal) :=
  norm_two_forms y g b r

/-- The same for extended-real data known to be coerced reals: Y, γ, β finite. -/
theorem norm_two_forms_of_real (Y : Fin 10000 → EReal) (G B : EReal) (hY : ∀ k, ∃ x : ℝ, Y k = x)
    (hG : ∃ x : ℝ, G = x) (hB : ∃ x : ℝ, B = x) (r : Fin 10000) :
    let N : EReal := Ideal.ofBits .f32 0x461C4000#32
    let E : EReal := Ideal.ofBits .f32 0x3727C5AC#32
    let S1 : EReal := ∑ k, Y k
    let S2 : EReal := ∑ k, Y k * Y k
    let mean : EReal := Ideal.div S1 N
    let scale : EReal := Ideal.rsqrt (Ideal.div S2 N - mean * mean + E) * G
    let shift : EReal := B - mean * scale
    let var' : EReal := Ideal.div (∑ k, (Y k - mean) * (Y k - mean)) N
    Y r * scale + shift = Ideal.div (Y r - mean) (Ideal.sqrt (var' + E)) * G + B := by
  choose y hy using hY
  obtain ⟨g, rfl⟩ := hG
  obtain ⟨b, rfl⟩ := hB
  obtain rfl : Y = fun k => (y k : EReal) := funext hy
  exact norm_two_forms y g b r

end Cert.BatchNorm

end
-- ==== Proof.RefRead.lean ====
/-
  The reference's result read at one index, over the extended reals.

  The reference multiplies the features by the 128×128 weight matrix, aggregates with the adjacency matrix, and
  normalizes every column of the 10000×128 product y: with μ the column's mean (its sum over the row count N),
  the variance is the mean of the centred squares (y − μ)², and the result is
  tanh (((y − μ) / sqrt (variance + ε)) · γ + β). Here each stage of that composed term is read at an index: the two
  matrix products as sums over the contracted coordinate, the column reductions as sums over the 10000 rows, the
  broadcasts as the value they spread, and the variance's guard (a division by N − 0 selected where N − 0 > 0) as the
  plain quotient by N, since N is positive.
-/
import proofs.«152943_g16630113370191_cont_week2b_735_29_alg».proof.Proof.RefTerm
import proofs.«152943_g16630113370191_cont_week2b_735_29_alg».proof.Proof.LibBatchNorm
import proofs.«152943_g16630113370191_cont_week2b_735_29_alg».proof.Proof.LibPlainDot
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefValue
open Idealize.ShloMosaic Idealize.ShloMosaic.ValueIdx Idealize.SL.Sem
open scoped BigOperators

/-! ## The two products -/

/-- The aggregated product at row `r`, column `c`, for any 128×128 matrix `H`: the sum over the 10000 nodes `k` of
    the adjacency entry (r, k) times the entry (k, c) of the features times `H`. -/
def Y (x : FVec Ideal S10000x128 .f32) (adj : FVec Ideal S10000x10000 .f32) (H : FVec Ideal S128x128 .f32)
    (r : Fin 10000) (c : Fin 128) : EReal :=
  ∑ k : Fin 10000, adj (ix2 r k) * (∑ j : Fin 128, x (ix2 k j) * H (ix2 j c))

/-- The features through the weight matrix, at (k, c): the sum over the 128 feature coordinates. -/
theorem sup_apply (x : FVec Ideal S10000x128 .f32) (w : FVec Ideal S16x128 .f32) (k : Fin 10000) (c : Fin 128) :
    sup (F := Ideal) x w (ix2 k c) = ∑ j : Fin 128, x (ix2 k j) * ham (F := Ideal) w (ix2 j c) :=
  Cert.PlainDot.dotGeneral_apply (M := 10000) (K := 128) (N := 128) _ rfl none .single x (ham (F := Ideal) w) k c

/-- The aggregated product of the reference at (r, c). -/
theorem y_apply (x : FVec Ideal S10000x128 .f32) (adj : FVec Ideal S10000x10000 .f32) (w : FVec Ideal S16x128 .f32)
    (r : Fin 10000) (c : Fin 128) :
    y (F := Ideal) x adj w (ix2 r c) = Y x adj (ham (F := Ideal) w) r c := by
  refine (Cert.PlainDot.dotGeneral_apply (M := 10000) (K := 10000) (N := 128) _ rfl none .single adj (sup (F := Ideal) x w) r c).trans ?_
  exact Finset.sum_congr rfl fun k _ => by rw [sup_apply]

/-! ## Broadcasts read at an index -/

/-- A vector of 128 laid out as a 1×128 row reads, at (0, c), the vector at c. -/
theorem asRow_apply {α : Type} (h : S128.BroadcastsInDim S1x128 (![1] : Fin 1 → Fin S1x128.rank)) (u : S128.Idx → α) (c : Fin 128) :
    broadcastInDim S1x128 ![1] h u (ix2 (0 : Fin 1) c) = u (ix1 c) := by
  refine broadcastInDim_apply ![1] h u (ix2 (0 : Fin 1) c) (ix1 c) ?_
  intro a
  fin_cases a
  show c.val = if (128 : ℕ) = 1 then 0 else c.val
  simp

/-- A vector of 128 spread over the 10000 rows reads, at (r, c), the vector at c. -/
theorem rows_apply (u : FVec Ideal S128 .f32) (r : Fin 10000) (c : Fin 128) :
    rows (F := Ideal) u (ix2 r c) = u (ix1 c) := by
  unfold rows
  rw [broadcastInDim_oneRow_apply, asRow_apply]

/-! ## The column statistics -/

/-- The column sums from zero: at column c, the sum over the 10000 rows. -/
theorem colSum_apply (v : FVec Ideal S10000x128 .f32) (c : Fin 128) :
    colSum (F := Ideal) v (ix1 c) = ∑ k : Fin 10000, v (ix2 k c) := by
  unfold colSum
  rw [hostReduceAdd_apply, Ideal.hostReduceAdd_single reducesTo_S10000x128_S128_d0 (by decide) v _ (ix1 c),
    constant_apply, Cert.BatchNorm.ofBits_zero', zero_add]
  refine Finset.sum_congr rfl fun k _ => ?_
  exact congrArg v (funext fun ax => Fin.ext (by match ax with | ⟨0, _⟩ => rfl | ⟨1, _⟩ => rfl))

/-- The row count at every column. -/
theorem cnt_apply (c : Fin 128) : cnt (F := Ideal) (ix1 c) = Ideal.ofBits .f32 0x461C4000#32 := by
  unfold cnt
  rw [broadcastInDim_scalar_apply, constant_apply]

/-- The column means: the column's sum over the row count. -/
theorem mean_apply (v : FVec Ideal S10000x128 .f32) (c : Fin 128) :
    mean (F := Ideal) v (ix1 c) = Ideal.div (∑ k : Fin 10000, v (ix2 k c)) (Ideal.ofBits .f32 0x461C4000#32) := by
  unfold mean
  rw [hostDivf_apply, colSum_apply, cnt_apply]

/-! ## The variance -/

/-- The variance's own column means as a row: at (0, c), the column's sum over the row count. -/
theorem meanRow_apply (v : FVec Ideal S10000x128 .f32) (c : Fin 128) :
    meanRow (F := Ideal) v (ix2 (0 : Fin 1) c)
      = Ideal.div (∑ k : Fin 10000, v (ix2 k c)) (Ideal.ofBits .f32 0x461C4000#32) := by
  unfold meanRow
  rw [hostDivf_apply, asRow_apply, colSum_apply, broadcastInDim_scalar_apply, constant_apply]

/-- The centred array at (r, c): the entry less its column's mean. -/
theorem centred_apply (v : FVec Ideal S10000x128 .f32) (r : Fin 10000) (c : Fin 128) :
    centred (F := Ideal) v (ix2 r c)
      = v (ix2 r c) - Ideal.div (∑ k : Fin 10000, v (ix2 k c)) (Ideal.ofBits .f32 0x461C4000#32) := by
  unfold centred
  rw [subf_apply, broadcastInDim_oneRow_apply, meanRow_apply]

/-- The centred squares at (r, c). -/
theorem sq_apply (v : FVec Ideal S10000x128 .f32) (r : Fin 10000) (c : Fin 128) :
    sq (F := Ideal) v (ix2 r c)
      = (v (ix2 r c) - Ideal.div (∑ k : Fin 10000, v (ix2 k c)) (Ideal.ofBits .f32 0x461C4000#32))
        * (v (ix2 r c) - Ideal.div (∑ k : Fin 10000, v (ix2 k c)) (Ideal.ofBits .f32 0x461C4000#32)) := by
  unfold RefValue.sq
  rw [mulf_apply, centred_apply]

/-- The variance's divisor with the correction zero: the integer zero converted is the float zero, and the row
    count less zero is the row count. -/
theorem dof_zero : dof (F := Ideal) (constantI S_ 32 0#32) ix0 = Ideal.ofBits .f32 0x461C4000#32 := by
  unfold dof
  rw [subf_apply, constant_apply, sitofp_apply]
  show (Ideal.ofBits .f32 0x461C4000#32 : EReal) - (Scalar.sitofp .f32 (0#32 : BitVec 32) : Ideal .f32) = _
  rw [sitofp_zero]
  exact Cert.BatchNorm.count_sub_zero

/-- The divisor is positive: the comparison's bit is one. -/
theorem dofPos_zero : dofPos (F := Ideal) (constantI S_ 32 0#32) ix0 = 1#1 := by
  unfold dofPos
  rw [cmpf_apply, dof_zero, constant_apply, Cert.BatchNorm.ofBits_zero', Ideal.cmpf_def]
  show BitVec.ofBool (decide ((0 : EReal) < Ideal.ofBits .f32 0x461C4000#32)) = 1#1
  rw [decide_eq_true Cert.BatchNorm.count_pos]
  rfl

/-- The sums of centred squares over the divisor, at column c. -/
theorem varRaw_apply (v : FVec Ideal S10000x128 .f32) (c : Fin 128) :
    varRaw (F := Ideal) v (constantI S_ 32 0#32) (ix1 c)
      = Ideal.div (∑ k : Fin 10000,
            (v (ix2 k c) - Ideal.div (∑ k' : Fin 10000, v (ix2 k' c)) (Ideal.ofBits .f32 0x461C4000#32))
            * (v (ix2 k c) - Ideal.div (∑ k' : Fin 10000, v (ix2 k' c)) (Ideal.ofBits .f32 0x461C4000#32)))
          (Ideal.ofBits .f32 0x461C4000#32) := by
  unfold varRaw
  rw [hostDivf_apply, colSum_apply, broadcastInDim_scalar_apply, dof_zero]
  exact congrArg (fun s => Ideal.div s _) (Finset.sum_congr rfl fun k _ => sq_apply v k c)

/-- The column variances: the divisor being positive, the select returns the quotient. -/
theorem var_apply (v : FVec Ideal S10000x128 .f32) (c : Fin 128) :
    var (F := Ideal) v (constantI S_ 32 0#32) (ix1 c)
      = Ideal.div (∑ k : Fin 10000,
            (v (ix2 k c) - Ideal.div (∑ k' : Fin 10000, v (ix2 k' c)) (Ideal.ofBits .f32 0x461C4000#32))
            * (v (ix2 k c) - Ideal.div (∑ k' : Fin 10000, v (ix2 k' c)) (Ideal.ofBits .f32 0x461C4000#32)))
          (Ideal.ofBits .f32 0x461C4000#32) := by
  unfold var
  rw [select_apply, broadcastInDim_scalar_apply, dofPos_zero, select_one, varRaw_apply]

/-! ## The normalization -/

/-- The small constant at every column. -/
theorem epsRow_apply (c : Fin 128) : epsRow (F := Ideal) (ix1 c) = Ideal.ofBits .f32 0x3727C5AC#32 := by
  unfold epsRow
  rw [broadcastInDim_scalar_apply, constant_apply]

/-- The column standard deviations: the square root of the variance plus the small constant. -/
theorem sd_apply (v : FVec Ideal S10000x128 .f32) (c : Fin 128) :
    sd (F := Ideal) v (ix1 c)
      = Ideal.sqrt (Ideal.div (∑ k : Fin 10000,
            (v (ix2 k c) - Ideal.div (∑ k' : Fin 10000, v (ix2 k' c)) (Ideal.ofBits .f32 0x461C4000#32))
            * (v (ix2 k c) - Ideal.div (∑ k' : Fin 10000, v (ix2 k' c)) (Ideal.ofBits .f32 0x461C4000#32)))
          (Ideal.ofBits .f32 0x461C4000#32) + Ideal.ofBits .f32 0x3727C5AC#32) := by
  unfold sd
  show Ideal.sqrt (addf (var (F := Ideal) v (constantI S_ 32 0#32)) (epsRow (F := Ideal)) (ix1 c)) = _
  rw [addf_apply, var_apply, epsRow_apply]

/-- The normalized array at (r, c): the entry less its column's mean, over the column's standard deviation. -/
theorem normed_apply (v : FVec Ideal S10000x128 .f32) (r : Fin 10000) (c : Fin 128) :
    normed (F := Ideal) v (ix2 r c)
      = Ideal.div (v (ix2 r c) - Ideal.div (∑ k : Fin 10000, v (ix2 k c)) (Ideal.ofBits .f32 0x461C4000#32))
          (Ideal.sqrt (Ideal.div (∑ k : Fin 10000,
              (v (ix2 k c) - Ideal.div (∑ k' : Fin 10000, v (ix2 k' c)) (Ideal.ofBits .f32 0x461C4000#32))
              * (v (ix2 k c) - Ideal.div (∑ k' : Fin 10000, v (ix2 k' c)) (Ideal.ofBits .f32 0x461C4000#32)))
            (Ideal.ofBits .f32 0x461C4000#32) + Ideal.ofBits .f32 0x3727C5AC#32)) := by
  unfold normed
  rw [hostDivf_apply, subf_apply, rows_apply, rows_apply, mean_apply, sd_apply]

/-- The scaled and shifted normalized array through the hyperbolic tangent, at (r, c). -/
theorem tail_apply (v : FVec Ideal S10000x128 .f32) (g b : FVec Ideal S128 .f32) (r : Fin 10000) (c : Fin 128) :
    tail (F := Ideal) v g b (ix2 r c)
      = Ideal.tanh (Ideal.div (v (ix2 r c) - Ideal.div (∑ k : Fin 10000, v (ix2 k c)) (Ideal.ofBits .f32 0x461C4000#32))
          (Ideal.sqrt (Ideal.div (∑ k : Fin 10000,
              (v (ix2 k c) - Ideal.div (∑ k' : Fin 10000, v (ix2 k' c)) (Ideal.ofBits .f32 0x461C4000#32))
              * (v (ix2 k c) - Ideal.div (∑ k' : Fin 10000, v (ix2 k' c)) (Ideal.ofBits .f32 0x461C4000#32)))
            (Ideal.ofBits .f32 0x461C4000#32) + Ideal.ofBits .f32 0x3727C5AC#32))
          * g (ix1 c) + b (ix1 c)) := by
  unfold tail
  show Ideal.tanh (addf (mulf (normed (F := Ideal) v) (rows (F := Ideal) g)) (rows (F := Ideal) b) (ix2 r c)) = _
  rw [addf_apply, mulf_apply, normed_apply, rows_apply, rows_apply]

/-- The reference's result at (r, c), in the column `Yc k = Y x adj (ham w) k c` of the aggregated product: with
    μ = (∑ Yc) / N, it is tanh (((Yc r − μ) / sqrt ((∑ (Yc − μ)²) / N + ε)) · γ c + β c). -/
theorem out_apply (x : FVec Ideal S10000x128 .f32) (adj : FVec Ideal S10000x10000 .f32) (w : FVec Ideal S16x128 .f32)
    (g b : FVec Ideal S128 .f32) (r : Fin 10000) (c : Fin 128) :
    out (F := Ideal) x adj w g b (ix2 r c)
      = Ideal.tanh (Ideal.div
            (Y x adj (ham (F := Ideal) w) r c
              - Ideal.div (∑ k : Fin 10000, Y x adj (ham (F := Ideal) w) k c) (Ideal.ofBits .f32 0x461C4000#32))
            (Ideal.sqrt (Ideal.div (∑ k : Fin 10000,
                (Y x adj (ham (F := Ideal) w) k c
                  - Ideal.div (∑ k' : Fin 10000, Y x adj (ham (F := Ideal) w) k' c) (Ideal.ofBits .f32 0x461C4000#32))
                * (Y x adj (ham (F := Ideal) w) k c
                  - Ideal.div (∑ k' : Fin 10000, Y x adj (ham (F := Ideal) w) k' c) (Ideal.ofBits .f32 0x461C4000#32)))
              (Ideal.ofBits .f32 0x461C4000#32) + Ideal.ofBits .f32 0x3727C5AC#32))
          * g (ix1 c) + b (ix1 c)) := by
  unfold out
  rw [tail_apply]
  simp only [y_apply]

end Cert.ReferenceIdeal.RefRead

end
-- ==== Proof.IdealEntry.lean ====
/-
  One entry of the kernel's product. The point's 400 rows of adjacency·support, read off the adjacency block and
  the support scratch, are the rows 400 t … 400 t + 399 of the whole product adj · (x · H): the adjacency block at
  point t is those rows of the adjacency array, and the support is x · H with H the Hamilton matrix of the weight.
-/
import proofs.«152943_g16630113370191_cont_week2b_735_29_alg».proof.Proof.IdealScratch
import proofs.«152943_g16630113370191_cont_week2b_735_29_alg».proof.Proof.IdealBlocks
import proofs.«152943_g16630113370191_cont_week2b_735_29_alg».proof.Proof.RefRead

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Cert.KernelIdeal.Layer

variable (m : (ℓ : Loc nD τ sig) → Buf (Elt Ideal) ℓ) (c : Dev nD)

/-- The five argument arrays as launched. -/
abbrev argX : FVec Ideal S10000x128 .f32 := m ((c.tc : Thread nD τ).loc main_arg0)
abbrev argAdj : FVec Ideal S10000x10000 .f32 := m ((c.tc : Thread nD τ).loc main_arg1)
abbrev argW : FVec Ideal S16x128 .f32 := m ((c.tc : Thread nD τ).loc main_arg2)
abbrev argG : FVec Ideal S128 .f32 := m ((c.tc : Thread nD τ).loc main_arg3)
abbrev argB : FVec Ideal S128 .f32 := m ((c.tc : Thread nD τ).loc main_arg4)

/-- Row q of point t's product block is row 400 t + q of adj · (x · H). -/
theorem yv_eq (t : Fin cfg0.N) (q : Fin 400) (col : Fin 128) :
    Scratch.yv m c t q col
      = Cert.ReferenceIdeal.RefRead.Y (argX m c) (argAdj m c) (Pay.hamK (argW m c)) ⟨400 * t.val + q.val, Blocks.row_lt t q⟩ col := by
  unfold Scratch.yv Cert.ReferenceIdeal.RefRead.Y
  refine Finset.sum_congr rfl fun k _ => ?_
  rw [Scratch.sup_apply m c 0 Scratch.N_pos k col]
  have e1 : Scratch.adjB m c t (ix2 q k) = argAdj m c (ix2 ⟨400 * t.val + q.val, Blocks.row_lt t q⟩ k) := Blocks.blk4 m c t q k
  rw [e1]
  refine congrArg _ (Finset.sum_congr rfl fun j _ => ?_)
  have e2 : Scratch.featB m c (ix2 k j) = argX m c (ix2 k j) := Blocks.blk0_apply m c Scratch.t0 (ix2 k j)
  have e3 : Scratch.wgtB m c = argW m c := Blocks.blk1 m c Scratch.t0
  rw [e2, e3]

/-- Row r of the whole product, through the block it sits in. -/
theorem yrow_eq (r : Fin 10000) (col : Fin 128) :
    Scratch.yrow m c r col = Cert.ReferenceIdeal.RefRead.Y (argX m c) (argAdj m c) (Pay.hamK (argW m c)) r col := by
  unfold Scratch.yrow
  rw [yv_eq]
  exact congrArg (fun i => Cert.ReferenceIdeal.RefRead.Y (argX m c) (argAdj m c) (Pay.hamK (argW m c)) i col)
    (Fin.ext (Nat.div_add_mod r.val 400))

end Cert.KernelIdeal.Entry

end
-- ==== Proof.LibConcatClosed.lean ====
/-
  A property that every element of every piece has is a property of every element of their concatenation.

  A concatenation along an axis reads, at each index, one element of one of the pieces: the piece whose span holds the
  index's coordinate on the joined axis.  So whatever holds of all elements of all pieces holds of every element of
  the result; which piece is read, and where, does not matter.
-/
import Idealize.ShloMosaic.PureOps.ShapeOps

namespace Cert.ConcatClosed

open Idealize.ShloMosaic

/-- Every element of a concatenation has the property `P` when every element of every piece has it. -/
theorem concatenate_closed {α : Type} (P : α → Prop) (t : Shape) (a : Fin t.rank) (xs : List ((s : Shape) × (s.Idx → α)))
    (h : Shape.Concatenates (xs.map (·.1)) t a) (hall : ∀ p ∈ xs, ∀ i, P (p.2 i)) (j : t.Idx) :
    P (concatenate t a xs h j) := by
  unfold concatenate
  exact hall _ (List.getElem_mem _) _

end Cert.ConcatClosed
-- ==== Proof.Bridge.lean ====
/-
  The two normalized results are one value at every entry.

  Both programs compute the same 10000×128 product y = adj · (x · H) with H the 128×128 matrix of the weights, and
  normalize each column of it. One writes the result at (r, c) as tanh (y · s + (β − μ · s)) with μ the column's mean,
  the variance taken as the mean of the squares less μ², and s = rsqrt (variance + ε) · γ; the other as
  tanh (((y − μ) / sqrt (variance' + ε)) · γ + β) with variance' the mean of the centred squares. For finite inputs
  every entry of H is an entry of the weights or its negation, hence finite; every entry of y is a finite sum of
  products of finite values, hence finite; and on a column of 10000 finite values the two forms agree.
-/
import proofs.«152943_g16630113370191_cont_week2b_735_29_alg».proof.Proof.RefRead
import proofs.«152943_g16630113370191_cont_week2b_735_29_alg».proof.Proof.LibBatchNorm
import proofs.«152943_g16630113370191_cont_week2b_735_29_alg».proof.Proof.LibConcatClosed

noncomputable section

namespace Cert.Bridge

open Cert.ReferenceIdeal Cert.ReferenceIdeal.Gen Cert.ReferenceIdeal.RefValue Cert.ReferenceIdeal.RefRead
open Idealize.ShloMosaic Idealize.ShloMosaic.ValueIdx Idealize.SL.Sem
open scoped BigOperators

/-! ## The folded form -/

/-- The folded form of one entry over the column `k ↦ Y x adj H k c` of the aggregated product: with S1 the column's
    sum, S2 the sum of its squares, N the row count and ε the small constant, μ = S1 / N,
    s = rsqrt (S2 / N − μ · μ + ε) · γ c, and the entry is tanh (Y r c · s + (β c − μ · s)). -/
def kOut (x : FVec Ideal S10000x128 .f32) (adj : FVec Ideal S10000x10000 .f32) (H : FVec Ideal S128x128 .f32)
    (g b : FVec Ideal S128 .f32) (r : Fin 10000) (c : Fin 128) : EReal :=
  Ideal.tanh
    (Y x adj H r c
        * (Ideal.rsqrt (Ideal.div (∑ k : Fin 10000, Y x adj H k c * Y x adj H k c) (Ideal.ofBits .f32 0x461C4000#32)
            - Ideal.div (∑ k : Fin 10000, Y x adj H k c) (Ideal.ofBits .f32 0x461C4000#32)
              * Ideal.div (∑ k : Fin 10000, Y x adj H k c) (Ideal.ofBits .f32 0x461C4000#32)
            + Ideal.ofBits .f32 0x3727C5AC#32) * g (ix1 c))
      + (b (ix1 c) - Ideal.div (∑ k : Fin 10000, Y x adj H k c) (Ideal.ofBits .f32 0x461C4000#32)
          * (Ideal.rsqrt (Ideal.div (∑ k : Fin 10000, Y x adj H k c * Y x adj H k c) (Ideal.ofBits .f32 0x461C4000#32)
            - Ideal.div (∑ k : Fin 10000, Y x adj H k c) (Ideal.ofBits .f32 0x461C4000#32)
              * Ideal.div (∑ k : Fin 10000, Y x adj H k c) (Ideal.ofBits .f32 0x461C4000#32)
            + Ideal.ofBits .f32 0x3727C5AC#32) * g (ix1 c))))

/-! ## The weight matrix is finite -/

/-- A block of finite weights is finite: each entry is an entry of the weights. -/
theorem slice_real (w : FVec Ideal S16x128 .f32) (hw : ∀ i, ∃ r : ℝ, w i = (r : EReal)) (off : Fin S16x128.rank → ℕ)
    (h : S16x128.Slices off S16x16) (i : S16x16.Idx) :
    ∃ r : ℝ, extractStridedSlice S16x16 off w h i = (r : EReal) := by
  unfold extractStridedSlice
  exact hw _

/-- The negation of a finite block is finite. -/
theorem neg_real (a : FVec Ideal S16x16 .f32) (ha : ∀ i, ∃ r : ℝ, a i = (r : EReal)) (i : S16x16.Idx) :
    ∃ r : ℝ, neg (F := Ideal) a i = (r : EReal) := by
  obtain ⟨r, hr⟩ := ha i
  refine ⟨-r, ?_⟩
  show -(a i) = ((-r : ℝ) : EReal)
  rw [hr, EReal.coe_neg]

/-- Eight finite blocks stacked are finite. -/
theorem stack_real (a0 a1 a2 a3 a4 a5 a6 a7 : FVec Ideal S16x16 .f32)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) (i : S128x16.Idx) :
    ∃ r : ℝ, stack (F := Ideal) a0 a1 a2 a3 a4 a5 a6 a7 i = (r : EReal) := by
  unfold stack
  refine Cert.ConcatClosed.concatenate_closed (fun a : EReal => ∃ r : ℝ, a = (r : EReal)) _ _ _ _ ?_ i
  intro p hp
  simp only [List.mem_cons, List.not_mem_nil, or_false] at hp
  rcases hp with rfl | rfl | rfl | rfl | rfl | rfl | rfl | rfl
  · exact h0
  · exact h1
  · exact h2
  · exact h3
  · exact h4
  · exact h5
  · exact h6
  · exact h7

/-- Eight finite block columns side by side are finite. -/
theorem beside_real (c0 c1 c2 c3 c4 c5 c6 c7 : FVec Ideal S128x16 .f32)
    (h0 : ∀ i, ∃ r : ℝ, c0 i = (r : EReal)) (h1 : ∀ i, ∃ r : ℝ, c1 i = (r : EReal))
    (h2 : ∀ i, ∃ r : ℝ, c2 i = (r : EReal)) (h3 : ∀ i, ∃ r : ℝ, c3 i = (r : EReal))
    (h4 : ∀ i, ∃ r : ℝ, c4 i = (r : EReal)) (h5 : ∀ i, ∃ r : ℝ, c5 i = (r : EReal))
    (h6 : ∀ i, ∃ r : ℝ, c6 i = (r : EReal)) (h7 : ∀ i, ∃ r : ℝ, c7 i = (r : EReal)) (i : S128x128.Idx) :
    ∃ r : ℝ, beside (F := Ideal) c0 c1 c2 c3 c4 c5 c6 c7 i = (r : EReal) := by
  unfold beside
  refine Cert.ConcatClosed.concatenate_closed (fun a : EReal => ∃ r : ℝ, a = (r : EReal)) _ _ _ _ ?_ i
  intro p hp
  simp only [List.mem_cons, List.not_mem_nil, or_false] at hp
  rcases hp with rfl | rfl | rfl | rfl | rfl | rfl | rfl | rfl
  · exact h0
  · exact h1
  · exact h2
  · exact h3
  · exact h4
  · exact h5
  · exact h6
  · exact h7

/-- The 128×128 matrix of finite weights is finite: every entry is an entry of the weights or its negation. -/
theorem ham_real (w : FVec Ideal S16x128 .f32) (hw : ∀ i, ∃ r : ℝ, w i = (r : EReal)) :
    ∀ i, ∃ r : ℝ, ham (F := Ideal) w i = (r : EReal) := by
  have b0 : ∀ i, ∃ r : ℝ, blk0 (F := Ideal) w i = (r : EReal) := slice_real w hw _ _
  have b1 : ∀ i, ∃ r : ℝ, blk1 (F := Ideal) w i = (r : EReal) := slice_real w hw _ _
  have b2 : ∀ i, ∃ r : ℝ, blk2 (F := Ideal) w i = (r : EReal) := slice_real w hw _ _
  have b3 : ∀ i, ∃ r : ℝ, blk3 (F := Ideal) w i = (r : EReal) := slice_real w hw _ _
  have b4 : ∀ i, ∃ r : ℝ, blk4 (F := Ideal) w i = (r : EReal) := slice_real w hw _ _
  have b5 : ∀ i, ∃ r : ℝ, blk5 (F := Ideal) w i = (r : EReal) := slice_real w hw _ _
  have b6 : ∀ i, ∃ r : ℝ, blk6 (F := Ideal) w i = (r : EReal) := slice_real w hw _ _
  have b7 : ∀ i, ∃ r : ℝ, blk7 (F := Ideal) w i = (r : EReal) := slice_real w hw _ _
  have n0 := neg_real _ b0
  have n1 := neg_real _ b1
  have n2 := neg_real _ b2
  have n3 := neg_real _ b3
  have n4 := neg_real _ b4
  have n5 := neg_real _ b5
  have n6 := neg_real _ b6
  have n7 := neg_real _ b7
  unfold ham
  exact beside_real _ _ _ _ _ _ _ _
    (stack_real _ _ _ _ _ _ _ _ b0 b1 b2 b3 b4 b5 b6 b7)
    (stack_real _ _ _ _ _ _ _ _ b1 n0 b3 n2 b5 n4 n7 b6)
    (stack_real _ _ _ _ _ _ _ _ b2 n3 n0 b1 b6 b7 n4 n5)
    (stack_real _ _ _ _ _ _ _ _ b3 b2 n1 n0 b7 n6 b5 n4)
    (stack_real _ _ _ _ _ _ _ _ b4 n5 n6 n7 n0 b1 b2 b3)
    (stack_real _ _ _ _ _ _ _ _ b5 b4 n7 b6 n1 n0 n3 b2)
    (stack_real _ _ _ _ _ _ _ _ b6 b7 b4 n5 n2 b3 n0 n1)
    (stack_real _ _ _ _ _ _ _ _ b7 n6 b5 b4 n3 n2 b1 n0)

/-! ## The aggregated product is finite -/

/-- For finite features, adjacency and matrix, every entry of the aggregated product is finite. -/
theorem Y_real (x : FVec Ideal S10000x128 .f32) (adj : FVec Ideal S10000x10000 .f32) (H : FVec Ideal S128x128 .f32)
    (hx : ∀ i, ∃ r : ℝ, x i = (r : EReal)) (hadj : ∀ i, ∃ r : ℝ, adj i = (r : EReal))
    (hH : ∀ i, ∃ r : ℝ, H i = (r : EReal)) (k : Fin 10000) (c : Fin 128) :
    ∃ z : ℝ, Y x adj H k c = (z : EReal) := by
  unfold Y
  exact Cert.BatchNorm.exists_real_sum_mul (fun q : Fin 10000 => adj (ix2 k q))
    (fun q : Fin 10000 => ∑ j : Fin 128, x (ix2 q j) * H (ix2 j c)) (fun q => hadj _)
    (fun q => Cert.BatchNorm.exists_real_sum_mul (fun j : Fin 128 => x (ix2 q j)) (fun j : Fin 128 => H (ix2 j c))
      (fun j => hx _) (fun j => hH _))

/-! ## The two forms agree -/

/-- For finite inputs the folded form over the reference's weight matrix is the reference's result, entry by entry. -/
theorem bridge (x : FVec Ideal S10000x128 .f32) (adj : FVec Ideal S10000x10000 .f32) (w : FVec Ideal S16x128 .f32)
    (g b : FVec Ideal S128 .f32)
    (hx : ∀ i, ∃ r : ℝ, x i = (r : EReal)) (hadj : ∀ i, ∃ r : ℝ, adj i = (r : EReal))
    (hw : ∀ i, ∃ r : ℝ, w i = (r : EReal)) (hg : ∀ i, ∃ r : ℝ, g i = (r : EReal))
    (hb : ∀ i, ∃ r : ℝ, b i = (r : EReal)) (r : Fin 10000) (c : Fin 128) :
    kOut x adj (ham (F := Ideal) w) g b r c = out (F := Ideal) x adj w g b (ix2 r c) := by
  rw [out_apply]
  unfold kOut
  exact congrArg Ideal.tanh
    (Cert.BatchNorm.norm_two_forms_of_real (fun k => Y x adj (ham (F := Ideal) w) k c) (g (ix1 c)) (b (ix1 c))
      (fun k => Y_real x adj _ hx hadj (ham_real w hw) k c) (hg _) (hb _) r)

end Cert.Bridge

end
-- ==== Proof.IdealResult.lean ====
/-
  One entry of the array the kernel leaves. After the last point the output buffer is what the last point was
  handed with its eleven stores written over it; the write-back copies it whole into the result array. What the
  last point was handed holds, in rows 0 … 9599, the rows of adj · (x · H) the earlier points stored; the last
  point stores rows 9600 … 9999, so the buffer holds the whole product, and then each slab is rewritten as
  tanh(row · scale + shift), the scale and the shift formed from the statistics scratch, which by then holds the
  column sums and the column sums of squares of all 10000 rows. That is the closed formula `Bridge.kOut`.
-/
import proofs.«152943_g16630113370191_cont_week2b_735_29_alg».proof.Proof.IdealBody
import proofs.«152943_g16630113370191_cont_week2b_735_29_alg».proof.Proof.IdealOutBuffer
import proofs.«152943_g16630113370191_cont_week2b_735_29_alg».proof.Proof.IdealLastRead
import proofs.«152943_g16630113370191_cont_week2b_735_29_alg».proof.Proof.IdealScratch
import proofs.«152943_g16630113370191_cont_week2b_735_29_alg».proof.Proof.IdealEntry
import proofs.«152943_g16630113370191_cont_week2b_735_29_alg».proof.Proof.Bridge

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat RDat Cfg Window cellOf)
open Cert.KernelIdeal Cert.KernelIdeal.Gen Cert.KernelIdeal.Layer Cert.KernelIdeal.Entry

variable (m : (ℓ : Loc nD τ sig) → Buf (Elt Ideal) ℓ) (c : Dev nD)

/-- The last point's stores into the output buffer are the last run's. -/
theorem outStores_last (h0 : (OutBuffer.tLast).val ≠ 0) (h1 : (OutBuffer.tLast).val = 24) (Y : Vec Ideal S10000x128 .f32) :
    outStores m c OutBuffer.tLast Y
      = (lastAt m c OutBuffer.tLast h0 h1 Y (prevScr m c OutBuffer.tLast).1 (prevScr m c OutBuffer.tLast).2).1 := by
  unfold outStores; rw [dif_neg h0, dif_pos h1]

/-- The statistics the last point leaves are the named ones after point 24. -/
theorem stat_last (h0 : (OutBuffer.tLast).val ≠ 0) (h1 : (OutBuffer.tLast).val = 24) (Y : Vec Ideal S10000x128 .f32) :
    LastRead.stat' m c OutBuffer.tLast h0 h1 Y (prevScr m c OutBuffer.tLast).1 (prevScr m c OutBuffer.tLast).2
      = (scrAt m c (OutBuffer.tLast).val (OutBuffer.tLast).isLt).2 :=
  ((congrArg Prod.snd (scrAt_last' m c OutBuffer.tLast h0 h1 Y) : _)).symm

/-- Before the slabs are rewritten the output buffer holds the whole product: the rows the earlier points stored
    and the last point's own 400. -/
theorem buffer_row (h0 : (OutBuffer.tLast).val ≠ 0) (Y : Vec Ideal S10000x128 .f32)
    (hF : (rdat m c).Finds 5 OutBuffer.tLast Y) (r : Fin 10000) (col : Fin 128) :
    LastRead.Bval m c OutBuffer.tLast Y (prevScr m c OutBuffer.tLast).1 r col = Scratch.yrow m c r col := by
  unfold LastRead.Bval
  by_cases h : 9600 ≤ r.val
  · rw [dif_pos h]
    refine (Scratch.pay2_eq_yv m c OutBuffer.tLast _ _ _ col).trans ?_
    unfold Scratch.yrow
    refine congrArg₂ (fun a b => Scratch.yv m c a b col) (Fin.ext ?_) (Fin.ext ?_)
    · show 24 = r.val / 400
      have := r.isLt; omega
    · show r.val - 9600 = r.val % 400
      have := r.isLt; omega
  · rw [dif_neg h]
    have hu : r.val / 400 < (OutBuffer.tLast).val := by show r.val / 400 < 24; omega
    have hq : r.val % 400 < 400 := Nat.mod_lt _ (by decide)
    have er : r = (⟨400 * (r.val / 400) + (⟨r.val % 400, hq⟩ : Fin 400).val, OutBuffer.row_lt_of_lt (OutBuffer.tLast).isLt hu ⟨r.val % 400, hq⟩⟩ : Fin 10000) :=
      Fin.ext (Nat.div_add_mod r.val 400).symm
    refine (congrArg (fun i => (Y : S10000x128.Idx → EReal) (ix2 i col)) er).trans ?_
    refine (OutBuffer.finds_rows m c OutBuffer.tLast Y hF (r.val / 400) hu ⟨r.val % 400, hq⟩ col).trans ?_
    unfold OutBuffer.yrow
    exact Scratch.pay2_eq_yv m c _ 0 _ _ col

/-- One entry of the result array. -/
theorem entry (Z : Buf (Elt Ideal) ((cfg0.win 5).arr.view.loc (c.tc : Thread nD τ))) (hZ : (rdat m c).ArrAt 5 cfg0.N Z)
    (r : Fin 10000) (col : Fin 128) :
    (Z : S10000x128.Idx → EReal) (ix2 r col)
      = Cert.Bridge.kOut (argX m c) (argAdj m c) (Pay.hamK (argW m c)) (argG m c) (argB m c) r col := by
  obtain ⟨Y, hF, hZ'⟩ := OutBuffer.final_array m c Z hZ
  have h0 : (OutBuffer.tLast).val ≠ 0 := by decide
  have h1 : (OutBuffer.tLast).val = 24 := rfl
  rw [hZ', outStores_last m c h0 h1 Y, LastRead.last_read m c OutBuffer.tLast h0 h1 Y _ _ r col]
  have hB := buffer_row m c h0 Y hF r col
  have hs0 : LastRead.stat' m c OutBuffer.tLast h0 h1 Y (prevScr m c OutBuffer.tLast).1 (prevScr m c OutBuffer.tLast).2 (ix2 (0 : Fin 8) col)
      = ∑ r : Fin 10000, Scratch.yrow m c r col := by
    rw [stat_last m c h0 h1 Y]; exact Scratch.stat_last_row0 m c (OutBuffer.tLast).isLt col
  have hs1 : LastRead.stat' m c OutBuffer.tLast h0 h1 Y (prevScr m c OutBuffer.tLast).1 (prevScr m c OutBuffer.tLast).2 (ix2 (1 : Fin 8) col)
      = ∑ r : Fin 10000, Scratch.yrow m c r col * Scratch.yrow m c r col := by
    rw [stat_last m c h0 h1 Y]; exact Scratch.stat_last_row1 m c (OutBuffer.tLast).isLt col
  have hg : LastRead.gainRow m c OutBuffer.tLast (ix2 (0 : Fin 1) col) = argG m c (ix1 col) := Blocks.blk2 m c OutBuffer.tLast col
  have hb : LastRead.offsetRow m c OutBuffer.tLast (ix2 (0 : Fin 1) col) = argB m c (ix1 col) := Blocks.blk3 m c OutBuffer.tLast col
  unfold LastRead.shiftAt LastRead.scaleAt Cert.Bridge.kOut
  rw [hB, hs0, hs1, hg, hb]
  simp only [yrow_eq]

end Cert.KernelIdeal.Result

end
-- ==== Proof.HamiltonEq.lean ====
/-
  The 128 × 128 matrix the kernel builds from the weight block and the one the reference builds are one array.
  Both are the same eight columns of eight 16 × 16 blocks: the eight column slices of the weights and their
  negations, in the same order with the same signs. The kernel writes a negation as 0 − a, the reference as −a;
  on the extended reals the zero pattern is 0 and 0 − a = −a.
-/
import proofs.«152943_g16630113370191_cont_week2b_735_29_alg».proof.Proof.IdealPayloads
import proofs.«152943_g16630113370191_cont_week2b_735_29_alg».proof.Proof.RefTerm

noncomputable section

namespace Cert.Hamilton

open Idealize.ShloMosaic
open Cert.KernelIdeal.Gen Cert.KernelIdeal.Pay Cert.ReferenceIdeal.RefValue

/-- Zero minus a block is the block negated. -/
theorem neg_eq (a : FVec Ideal Cert.KernelIdeal.S16x16 .f32) :
    subf (broadcast Cert.KernelIdeal.S16x16 (Scalar.ofBits (F := Ideal) .f32 0x00000000#32)) a
      = neg (F := Ideal) a := by
  funext i
  show Ideal.ofBits .f32 0x00000000#32 - a i = -(a i)
  rw [Ideal.ofBits_zero_f32, zero_sub]

/-- The kernel's slice 0 of the weights is the reference's block 0. -/
theorem slice0_eq (w : FVec Ideal Cert.KernelIdeal.S16x128 .f32) : k0_pay8 (F := Ideal) w = blk0 (F := Ideal) w := rfl
/-- The kernel's slice 1 of the weights is the reference's block 1. -/
theorem slice1_eq (w : FVec Ideal Cert.KernelIdeal.S16x128 .f32) : k0_pay9 (F := Ideal) w = blk1 (F := Ideal) w := rfl
/-- The kernel's slice 2 of the weights is the reference's block 2. -/
theorem slice2_eq (w : FVec Ideal Cert.KernelIdeal.S16x128 .f32) : k0_pay10 (F := Ideal) w = blk2 (F := Ideal) w := rfl
/-- The kernel's slice 3 of the weights is the reference's block 3. -/
theorem slice3_eq (w : FVec Ideal Cert.KernelIdeal.S16x128 .f32) : k0_pay11 (F := Ideal) w = blk3 (F := Ideal) w := rfl
/-- The kernel's slice 4 of the weights is the reference's block 4. -/
theorem slice4_eq (w : FVec Ideal Cert.KernelIdeal.S16x128 .f32) : k0_pay12 (F := Ideal) w = blk4 (F := Ideal) w := rfl
/-- The kernel's slice 5 of the weights is the reference's block 5. -/
theorem slice5_eq (w : FVec Ideal Cert.KernelIdeal.S16x128 .f32) : k0_pay13 (F := Ideal) w = blk5 (F := Ideal) w := rfl
/-- The kernel's slice 6 of the weights is the reference's block 6. -/
theorem slice6_eq (w : FVec Ideal Cert.KernelIdeal.S16x128 .f32) : k0_pay14 (F := Ideal) w = blk6 (F := Ideal) w := rfl
/-- The kernel's slice 7 of the weights is the reference's block 7. -/
theorem slice7_eq (w : FVec Ideal Cert.KernelIdeal.S16x128 .f32) : k0_pay15 (F := Ideal) w = blk7 (F := Ideal) w := rfl

theorem pay16_eq (w : FVec Ideal Cert.KernelIdeal.S16x128 .f32) : k0_pay16 (F := Ideal) w = neg (blk0 (F := Ideal) w) := neg_eq _
theorem pay17_eq (w : FVec Ideal Cert.KernelIdeal.S16x128 .f32) : k0_pay17 (F := Ideal) w = neg (blk2 (F := Ideal) w) := neg_eq _
theorem pay18_eq (w : FVec Ideal Cert.KernelIdeal.S16x128 .f32) : k0_pay18 (F := Ideal) w = neg (blk4 (F := Ideal) w) := neg_eq _
theorem pay19_eq (w : FVec Ideal Cert.KernelIdeal.S16x128 .f32) : k0_pay19 (F := Ideal) w = neg (blk7 (F := Ideal) w) := neg_eq _
theorem pay20_eq (w : FVec Ideal Cert.KernelIdeal.S16x128 .f32) : k0_pay20 (F := Ideal) w = neg (blk3 (F := Ideal) w) := neg_eq _
theorem pay21_eq (w : FVec Ideal Cert.KernelIdeal.S16x128 .f32) : k0_pay21 (F := Ideal) w = neg (blk0 (F := Ideal) w) := neg_eq _
theorem pay22_eq (w : FVec Ideal Cert.KernelIdeal.S16x128 .f32) : k0_pay22 (F := Ideal) w = neg (blk4 (F := Ideal) w) := neg_eq _
theorem pay23_eq (w : FVec Ideal Cert.KernelIdeal.S16x128 .f32) : k0_pay23 (F := Ideal) w = neg (blk5 (F := Ideal) w) := neg_eq _
theorem pay24_eq (w : FVec Ideal Cert.KernelIdeal.S16x128 .f32) : k0_pay24 (F := Ideal) w = neg (blk1 (F := Ideal) w) := neg_eq _
theorem pay25_eq (w : FVec Ideal Cert.KernelIdeal.S16x128 .f32) : k0_pay25 (F := Ideal) w = neg (blk0 (F := Ideal) w) := neg_eq _
theorem pay26_eq (w : FVec Ideal Cert.KernelIdeal.S16x128 .f32) : k0_pay26 (F := Ideal) w = neg (blk6 (F := Ideal) w) := neg_eq _
theorem pay27_eq (w : FVec Ideal Cert.KernelIdeal.S16x128 .f32) : k0_pay27 (F := Ideal) w = neg (blk4 (F := Ideal) w) := neg_eq _
theorem pay28_eq (w : FVec Ideal Cert.KernelIdeal.S16x128 .f32) : k0_pay28 (F := Ideal) w = neg (blk5 (F := Ideal) w) := neg_eq _
theorem pay29_eq (w : FVec Ideal Cert.KernelIdeal.S16x128 .f32) : k0_pay29 (F := Ideal) w = neg (blk6 (F := Ideal) w) := neg_eq _
theorem pay30_eq (w : FVec Ideal Cert.KernelIdeal.S16x128 .f32) : k0_pay30 (F := Ideal) w = neg (blk7 (F := Ideal) w) := neg_eq _
theorem pay31_eq (w : FVec Ideal Cert.KernelIdeal.S16x128 .f32) : k0_pay31 (F := Ideal) w = neg (blk0 (F := Ideal) w) := neg_eq _

/-- The kernel's matrix from any slices and negations handed to it, with its own twelve negations written as
    negations: eight stacks of eight blocks, side by side. -/
theorem hamOf_eq (v28 v29 v30 v31 v32 v33 v34 v35 v37 v39 v41 v43 v45 v47 v49 v51 v53 v55 v57 v59 v61 v63 v65 v67 : FVec Ideal Cert.KernelIdeal.S16x16 .f32) :
    hamOf v28 v29 v30 v31 v32 v33 v34 v35 v37 v39 v41 v43 v45 v47 v49 v51 v53 v55 v57 v59 v61 v63 v65 v67 (Scalar.ofBits (F := Ideal) .f32 0x00000000#32)
      = beside (F := Ideal)
        (stack v28 v29 v30 v31 v32 v33 v34 v35)
        (stack v29 v37 v31 v39 v33 v41 v43 v34)
        (stack v30 v45 v47 v29 v34 v35 v49 v51)
        (stack v31 v30 v53 v55 v35 v57 v33 v59)
        (stack v32 v61 v63 v65 v67 v29 v30 v31)
        (stack v33 v32 (neg v35) v34 (neg v29) (neg v28) (neg v31) v30)
        (stack v34 v35 v32 (neg v33) (neg v30) v31 (neg v28) (neg v29))
        (stack v35 (neg v34) v33 v32 (neg v31) (neg v30) v29 (neg v28)) := by
  have h : hamOf v28 v29 v30 v31 v32 v33 v34 v35 v37 v39 v41 v43 v45 v47 v49 v51 v53 v55 v57 v59 v61 v63 v65 v67 (Scalar.ofBits (F := Ideal) .f32 0x00000000#32)
      = beside (F := Ideal)
        (stack v28 v29 v30 v31 v32 v33 v34 v35)
        (stack v29 v37 v31 v39 v33 v41 v43 v34)
        (stack v30 v45 v47 v29 v34 v35 v49 v51)
        (stack v31 v30 v53 v55 v35 v57 v33 v59)
        (stack v32 v61 v63 v65 v67 v29 v30 v31)
        (stack v33 v32 (subf (broadcast Cert.KernelIdeal.S16x16 (Scalar.ofBits (F := Ideal) .f32 0x00000000#32)) v35) v34 (subf (broadcast Cert.KernelIdeal.S16x16 (Scalar.ofBits (F := Ideal) .f32 0x00000000#32)) v29) (subf (broadcast Cert.KernelIdeal.S16x16 (Scalar.ofBits (F := Ideal) .f32 0x00000000#32)) v28) (subf (broadcast Cert.KernelIdeal.S16x16 (Scalar.ofBits (F := Ideal) .f32 0x00000000#32)) v31) v30)
        (stack v34 v35 v32 (subf (broadcast Cert.KernelIdeal.S16x16 (Scalar.ofBits (F := Ideal) .f32 0x00000000#32)) v33) (subf (broadcast Cert.KernelIdeal.S16x16 (Scalar.ofBits (F := Ideal) .f32 0x00000000#32)) v30) v31 (subf (broadcast Cert.KernelIdeal.S16x16 (Scalar.ofBits (F := Ideal) .f32 0x00000000#32)) v28) (subf (broadcast Cert.KernelIdeal.S16x16 (Scalar.ofBits (F := Ideal) .f32 0x00000000#32)) v29))
        (stack v35 (subf (broadcast Cert.KernelIdeal.S16x16 (Scalar.ofBits (F := Ideal) .f32 0x00000000#32)) v34) v33 v32 (subf (broadcast Cert.KernelIdeal.S16x16 (Scalar.ofBits (F := Ideal) .f32 0x00000000#32)) v31) (subf (broadcast Cert.KernelIdeal.S16x16 (Scalar.ofBits (F := Ideal) .f32 0x00000000#32)) v30) v29 (subf (broadcast Cert.KernelIdeal.S16x16 (Scalar.ofBits (F := Ideal) .f32 0x00000000#32)) v28)) := rfl
  rw [h]
  simp only [neg_eq]

/-- The kernel's matrix of the weight block is the reference's. -/
theorem ham_eq (w : FVec Ideal Cert.KernelIdeal.S16x128 .f32) :
    Cert.KernelIdeal.Pay.hamK w = Cert.ReferenceIdeal.RefValue.ham (F := Ideal) w := by
  unfold Cert.KernelIdeal.Pay.hamK
  rw [slice0_eq, slice1_eq, slice2_eq, slice3_eq, slice4_eq, slice5_eq, slice6_eq, slice7_eq, pay16_eq, pay17_eq, pay18_eq, pay19_eq, pay20_eq, pay21_eq, pay22_eq, pay23_eq, pay24_eq, pay25_eq, pay26_eq, pay27_eq, pay28_eq, pay29_eq, pay30_eq, pay31_eq]
  rw [hamOf_eq]
  rfl

end Cert.Hamilton

end
-- ==== Proof.FiniteInputs.lean ====
/-
  Finite inputs are real. The precondition says of each of the five input arrays that every entry's absolute
  value is below +∞, and takes the conjunction. Over the extended reals the pattern of +∞ denotes ⊤, and
  max x (−x) < ⊤ excludes x = ⊤ and x = ⊥ (whose negation is ⊤): every entry is then a coerced real number.
-/
import proofs.«152943_g16630113370191_cont_week2b_735_29_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The f32 pattern of +∞ denotes the top of the extended reals. -/
theorem ofBits_inf : Ideal.ofBits .f32 0x7F800000#32 = (⊤ : EReal) := by
  simp [Ideal.ofBits, Ideal.ieee]

/-- An extended real whose absolute value max x (−x) compares below the pattern of +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- One conjunct of the precondition: if the conjunction over all entries of "|a| < +∞" is true, every entry of a is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) (i : s.Idx) : ∃ r : ℝ, a i = (r : EReal) := by
  haveI : Subsingleton S_.Idx := ⟨fun a b => funext fun d => d.elim0⟩
  exact real_of_abs_lt_inf (a i) (Host.reduce_andi_all _ _ hr hu ix0 e i)

/-- Under the precondition every entry of each of the five inputs is a real number. -/
theorem reals_of_pre [Cert.Pre_finite_inputs.Facts] (a0 : FVec Ideal S10000x128 .f32) (a1 : FVec Ideal S10000x10000 .f32)
    (a2 : FVec Ideal S16x128 .f32) (a3 a4 : FVec Ideal S128 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 : Cert.Pre_finite_inputs.fn (F := Ideal) a0 a1 a2 a3 a4 ix0 = 1#1 := congrFun h ix0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real a0 _ _ _ e0, all_real a1 _ _ _ e1, all_real a2 _ _ _ e2, all_real a3 _ _ _ e3, all_real a4 _ _ _ e4⟩

end Cert.Finite

end
-- ==== Proof.IdealRun.lean ====
/-
  The kernel's run with its result named. Every weakly fair execution of the idealized kernel program
  terminates with the argument arrays unchanged and the result array equal, entry by entry, to the reference's
  composed term of the arguments: an entry is the closed formula of the batch-normalised, tanh-squashed product
  (`Result.entry`), the kernel's Hamilton matrix is the reference's (`Hamilton.ham_eq`), and on finite inputs the
  kernel's normalisation (scale and shift from sums and sums of squares) is the reference's (centred variance,
  division by the standard deviation): `Bridge.bridge`. Finiteness of every input entry comes from the
  precondition.
-/
import proofs.«152943_g16630113370191_cont_week2b_735_29_alg».proof.Defs
import proofs.«152943_g16630113370191_cont_week2b_735_29_alg».proof.Proof.Gen.Pre_finite_inputs
import proofs.«152943_g16630113370191_cont_week2b_735_29_alg».proof.Proof.IdealFrame
import proofs.«152943_g16630113370191_cont_week2b_735_29_alg».proof.Proof.IdealResult
import proofs.«152943_g16630113370191_cont_week2b_735_29_alg».proof.Proof.HamiltonEq
import proofs.«152943_g16630113370191_cont_week2b_735_29_alg».proof.Proof.Bridge
import proofs.«152943_g16630113370191_cont_week2b_735_29_alg».proof.Proof.FiniteInputs

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Layer Cert.KernelIdeal.Entry

variable (m : (ℓ : Loc nD τ sig) → Buf (Elt Ideal) ℓ) (ρ : Dev nD → PrngReg)

/-- The result array is the reference's term of the arguments, on finite inputs. -/
theorem result_eq (hpre : Cert.Pre_KernelIdeal m) (c : Dev nD)
    (Z : Buf (Elt Ideal) ((cfg0.win 5).arr.view.loc (c.tc : Thread nD τ))) (hZ : (rdat m c).ArrAt 5 cfg0.N Z) :
    (Z : S10000x128.Idx → EReal)
      = Cert.ReferenceIdeal.RefValue.out (F := Ideal) (argX m c) (argAdj m c) (argW m c) (argG m c) (argB m c) := by
  obtain ⟨hx, hadj, hw, hg, hb⟩ := Cert.Finite.reals_of_pre _ _ _ _ _ (hpre c)
  funext i
  obtain ⟨r, col, rfl⟩ : ∃ (r : Fin 10000) (col : Fin 128), i = ix2 r col := ⟨i 0, i 1, eq_ix2 i⟩
  rw [← Cert.Bridge.bridge (argX m c) (argAdj m c) (argW m c) (argG m c) (argB m c) hx hadj hw hg hb r col,
    ← Cert.Hamilton.ham_eq (argW m c)]
  exact Result.entry m c Z hZ r col

/-- The run, with the result named. -/
theorem value (hpre : Cert.Pre_KernelIdeal m) :
    θ_run defs (onTc (τ := τ) (main (F := Ideal))) ⟨m, fun _ => 0, ρ⟩ (fun r => ∀ c : Dev nD,
      r.2.mem ((c.tc : Thread nD τ).loc main_v2)
          = Cert.ReferenceIdeal.RefValue.out (F := Ideal) (argX m c) (argAdj m c) (argW m c) (argG m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨result_eq m hpre c _ ((h c).1 5),
      (Eq.mp (congrFun ((rdat m c).ArrAt_in 0 rfl _) _) ((h c).1 0)).trans ((rdat_A m c 0).trans (V_main_arg0 m c)),
      (Eq.mp (congrFun ((rdat m c).ArrAt_in 4 rfl _) _) ((h c).1 4)).trans ((rdat_A m c 4).trans (V_main_arg1 m c)),
      (Eq.mp (congrFun ((rdat m c).ArrAt_in 1 rfl _) _) ((h c).1 1)).trans ((rdat_A m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main (F := Ideal) m ρ)

end Cert.KernelIdeal.Final

end
-- ==== Proof.RefRun.lean ====
/-
  The reference program's run, read back as one pure function of its arguments.

  The program is a straight line of 92 array operations (the variance's body and the selection inside it stand in
  the place of their calls, over the buffers of that call). Run in order from any contents of the buffers, each
  operation leaves its function of its operands' contents at its result buffer and every other buffer as it was; the
  result buffer therefore ends at the operations' composed term of the five argument arrays, which is `out`
  (the term module's definition: weight matrix, two products, column statistics, normalization, hyperbolic tangent),
  and no operation writes an argument.
-/
import proofs.«152943_g16630113370191_cont_week2b_735_29_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## An operation over eight literal operands

The result of an operation over a literal family of eight references, with each operand's contents at its own
reference (the family's lookup at the literals `0 … 7` done), so that the contents can be read further. -/

section Eight

variable {τ' : Topo} {sig' : RefSig} {Val : EltTy → Type}
variable {x0 x1 x2 x3 x4 x5 x6 x7 y : Ref sig' .tc}

theorem nary8_result
    (f : ((k : Fin 8) → ((![x0, x1, x2, x3, x4, x5, x6, x7] : Fin 8 → Ref sig' .tc) k).ty.Contents Val) → y.ty.Contents Val) (hxs hy)
    (V : Valuation τ' sig' Val) :
    (nary (τ := τ') ![x0, x1, x2, x3, x4, x5, x6, x7] y f hxs hy).result V (Proc.devRef .tc y)
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (fun i => i.elim0))))))))) := by
  rw [nary_result]; congr 1; funext k; fin_cases k <;> rfl

theorem nary8_result'
    (f : ((k : Fin 8) → ((![x0, x1, x2, x3, x4, x5, x6, x7] : Fin 8 → Ref sig' .tc) k).ty.Contents Val) → y.ty.Contents Val) (hxs hy)
    (V : Valuation τ' sig' Val) :
    (nary (τ := τ') ![x0, x1, x2, x3, x4, x5, x6, x7] y f hxs hy).result V (no_index (Proc.devRef .tc y))
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (fun i => i.elim0))))))))) :=
  nary8_result f hxs hy V

end Eight

variable {F : FTy → Type} [FloatOps F]

/-! ## The program as a list of operations -/

set_option maxRecDepth 8192 in
set_option maxHeartbeats 4000000 in
/-- The program's 92 operations in order: the 59 before the variance, the variance's 19 and its selection's 3 in the
    call's place, the 11 after. -/
abbrev ops : List (HloOp τ sig (Elt F)) :=
  [ StableHlo.unary main_arg2 main_v0 ((extractStridedSlice S16x16 ![0, 0] · slices_S16x128_S16x16_0_0) : (⟨S16x128, .f32⟩ : BufTy).Contents (Elt F) → (⟨S16x16, .f32⟩ : BufTy).Contents (Elt F)),
    StableHlo.unary main_arg2 main_v1 ((extractStridedSlice S16x16 ![0, 16] · slices_S16x128_S16x16_0_16) : (⟨S16x128, .f32⟩ : BufTy).Contents (Elt F) → (⟨S16x16, .f32⟩ : BufTy).Contents (Elt F)),
    StableHlo.unary main_arg2 main_v2 ((extractStridedSlice S16x16 ![0, 32] · slices_S16x128_S16x16_0_32) : (⟨S16x128, .f32⟩ : BufTy).Contents (Elt F) → (⟨S16x16, .f32⟩ : BufTy).Contents (Elt F)),
    StableHlo.unary main_arg2 main_v3 ((extractStridedSlice S16x16 ![0, 48] · slices_S16x128_S16x16_0_48) : (⟨S16x128, .f32⟩ : BufTy).Contents (Elt F) → (⟨S16x16, .f32⟩ : BufTy).Contents (Elt F)),
    StableHlo.unary main_arg2 main_v4 ((extractStridedSlice S16x16 ![0, 64] · slices_S16x128_S16x16_0_64) : (⟨S16x128, .f32⟩ : BufTy).Contents (Elt F) → (⟨S16x16, .f32⟩ : BufTy).Contents (Elt F)),
    StableHlo.unary main_arg2 main_v5 ((extractStridedSlice S16x16 ![0, 80] · slices_S16x128_S16x16_0_80) : (⟨S16x128, .f32⟩ : BufTy).Contents (Elt F) → (⟨S16x16, .f32⟩ : BufTy).Contents (Elt F)),
    StableHlo.unary main_arg2 main_v6 ((extractStridedSlice S16x16 ![0, 96] · slices_S16x128_S16x16_0_96) : (⟨S16x128, .f32⟩ : BufTy).Contents (Elt F) → (⟨S16x16, .f32⟩ : BufTy).Contents (Elt F)),
    StableHlo.unary main_arg2 main_v7 ((extractStridedSlice S16x16 ![0, 112] · slices_S16x128_S16x16_0_112) : (⟨S16x128, .f32⟩ : BufTy).Contents (Elt F) → (⟨S16x16, .f32⟩ : BufTy).Contents (Elt F)),
    StableHlo.unary main_v0 main_v8 (Host.negf : (⟨S16x16, .f32⟩ : BufTy).Contents (Elt F) → (⟨S16x16, .f32⟩ : BufTy).Contents (Elt F)),
    StableHlo.unary main_v2 main_v9 (Host.negf : (⟨S16x16, .f32⟩ : BufTy).Contents (Elt F) → (⟨S16x16, .f32⟩ : BufTy).Contents (Elt F)),
    StableHlo.unary main_v4 main_v10 (Host.negf : (⟨S16x16, .f32⟩ : BufTy).Contents (Elt F) → (⟨S16x16, .f32⟩ : BufTy).Contents (Elt F)),
    StableHlo.unary main_v7 main_v11 (Host.negf : (⟨S16x16, .f32⟩ : BufTy).Contents (Elt F) → (⟨S16x16, .f32⟩ : BufTy).Contents (Elt F)),
    StableHlo.unary main_v3 main_v12 (Host.negf : (⟨S16x16, .f32⟩ : BufTy).Contents (Elt F) → (⟨S16x16, .f32⟩ : BufTy).Contents (Elt F)),
    StableHlo.unary main_v0 main_v13 (Host.negf : (⟨S16x16, .f32⟩ : BufTy).Contents (Elt F) → (⟨S16x16, .f32⟩ : BufTy).Contents (Elt F)),
    StableHlo.unary main_v4 main_v14 (Host.negf : (⟨S16x16, .f32⟩ : BufTy).Contents (Elt F) → (⟨S16x16, .f32⟩ : BufTy).Contents (Elt F)),
    StableHlo.unary main_v5 main_v15 (Host.negf : (⟨S16x16, .f32⟩ : BufTy).Contents (Elt F) → (⟨S16x16, .f32⟩ : BufTy).Contents (Elt F)),
    StableHlo.unary main_v1 main_v16 (Host.negf : (⟨S16x16, .f32⟩ : BufTy).Contents (Elt F) → (⟨S16x16, .f32⟩ : BufTy).Contents (Elt F)),
    StableHlo.unary main_v0 main_v17 (Host.negf : (⟨S16x16, .f32⟩ : BufTy).Contents (Elt F) → (⟨S16x16, .f32⟩ : BufTy).Contents (Elt F)),
    StableHlo.unary main_v6 main_v18 (Host.negf : (⟨S16x16, .f32⟩ : BufTy).Contents (Elt F) → (⟨S16x16, .f32⟩ : BufTy).Contents (Elt F)),
    StableHlo.unary main_v4 main_v19 (Host.negf : (⟨S16x16, .f32⟩ : BufTy).Contents (Elt F) → (⟨S16x16, .f32⟩ : BufTy).Contents (Elt F)),
    StableHlo.unary main_v5 main_v20 (Host.negf : (⟨S16x16, .f32⟩ : BufTy).Contents (Elt F) → (⟨S16x16, .f32⟩ : BufTy).Contents (Elt F)),
    StableHlo.unary main_v6 main_v21 (Host.negf : (⟨S16x16, .f32⟩ : BufTy).Contents (Elt F) → (⟨S16x16, .f32⟩ : BufTy).Contents (Elt F)),
    StableHlo.unary main_v7 main_v22 (Host.negf : (⟨S16x16, .f32⟩ : BufTy).Contents (Elt F) → (⟨S16x16, .f32⟩ : BufTy).Contents (Elt F)),
    StableHlo.unary main_v0 main_v23 (Host.negf : (⟨S16x16, .f32⟩ : BufTy).Contents (Elt F) → (⟨S16x16, .f32⟩ : BufTy).Contents (Elt F)),
    StableHlo.unary main_v7 main_v24 (Host.negf : (⟨S16x16, .f32⟩ : BufTy).Contents (Elt F) → (⟨S16x16, .f32⟩ : BufTy).Contents (Elt F)),
    StableHlo.unary main_v1 main_v25 (Host.negf : (⟨S16x16, .f32⟩ : BufTy).Contents (Elt F) → (⟨S16x16, .f32⟩ : BufTy).Contents (Elt F)),
    StableHlo.unary main_v0 main_v26 (Host.negf : (⟨S16x16, .f32⟩ : BufTy).Contents (Elt F) → (⟨S16x16, .f32⟩ : BufTy).Contents (Elt F)),
    StableHlo.unary main_v3 main_v27 (Host.negf : (⟨S16x16, .f32⟩ : BufTy).Contents (Elt F) → (⟨S16x16, .f32⟩ : BufTy).Contents (Elt F)),
    StableHlo.unary main_v5 main_v28 (Host.negf : (⟨S16x16, .f32⟩ : BufTy).Contents (Elt F) → (⟨S16x16, .f32⟩ : BufTy).Contents (Elt F)),
    StableHlo.unary main_v2 main_v29 (Host.negf : (⟨S16x16, .f32⟩ : BufTy).Contents (Elt F) → (⟨S16x16, .f32⟩ : BufTy).Contents (Elt F)),
    StableHlo.unary main_v0 main_v30 (Host.negf : (⟨S16x16, .f32⟩ : BufTy).Contents (Elt F) → (⟨S16x16, .f32⟩ : BufTy).Contents (Elt F)),
    StableHlo.unary main_v1 main_v31 (Host.negf : (⟨S16x16, .f32⟩ : BufTy).Contents (Elt F) → (⟨S16x16, .f32⟩ : BufTy).Contents (Elt F)),
    StableHlo.unary main_v6 main_v32 (Host.negf : (⟨S16x16, .f32⟩ : BufTy).Contents (Elt F) → (⟨S16x16, .f32⟩ : BufTy).Contents (Elt F)),
    StableHlo.unary main_v3 main_v33 (Host.negf : (⟨S16x16, .f32⟩ : BufTy).Contents (Elt F) → (⟨S16x16, .f32⟩ : BufTy).Contents (Elt F)),
    StableHlo.unary main_v2 main_v34 (Host.negf : (⟨S16x16, .f32⟩ : BufTy).Contents (Elt F) → (⟨S16x16, .f32⟩ : BufTy).Contents (Elt F)),
    StableHlo.unary main_v0 main_v35 (Host.negf : (⟨S16x16, .f32⟩ : BufTy).Contents (Elt F) → (⟨S16x16, .f32⟩ : BufTy).Contents (Elt F)),
    StableHlo.nary ![main_v0, main_v1, main_v2, main_v3, main_v4, main_v5, main_v6, main_v7] main_v36 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v1, main_v8, main_v3, main_v9, main_v5, main_v10, main_v11, main_v6] main_v37 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v2, main_v12, main_v13, main_v1, main_v6, main_v7, main_v14, main_v15] main_v38 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v3, main_v2, main_v16, main_v17, main_v7, main_v18, main_v5, main_v19] main_v39 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v4, main_v20, main_v21, main_v22, main_v23, main_v1, main_v2, main_v3] main_v40 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v5, main_v4, main_v24, main_v6, main_v25, main_v26, main_v27, main_v2] main_v41 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v6, main_v7, main_v4, main_v28, main_v29, main_v3, main_v30, main_v31] main_v42 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v7, main_v32, main_v5, main_v4, main_v33, main_v34, main_v1, main_v35] main_v43 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v36, main_v37, main_v38, main_v39, main_v40, main_v41, main_v42, main_v43] main_v44 (fun u => concatenate S128x128 1 [⟨S128x16, u 0⟩, ⟨S128x16, u 1⟩, ⟨S128x16, u 2⟩, ⟨S128x16, u 3⟩, ⟨S128x16, u 4⟩, ⟨S128x16, u 5⟩, ⟨S128x16, u 6⟩, ⟨S128x16, u 7⟩] concatenates_S128x16_S128x16_S128x16_S128x16_S128x16_S128x16_S128x16_S128x16_S128x128_d1),
    StableHlo.binary main_arg0 main_v44 main_v45 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg1 main_v45 main_v46 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.nullary main_cst (constant S_ .f32 0x00000000#32),
    StableHlo.binary main_v46 main_cst main_v47 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_0 (constant S_ .f32 0x461C4000#32),
    StableHlo.unary main_cst_0 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_v46 : TRef sig ⟨S10000x128, .f32⟩) main_call0.cst main_call0.v0 (fun x v => Host.reduceAdd x v reducesTo_S10000x128_S128_d0 h_S_),
    StableHlo.TRef.unary main_call0.v0 main_call0.v1 (broadcastInDim S1x128 ![1] bcast_S128_S1x128_1),
    StableHlo.TRef.nullary main_call0.cst_0 (constant S_ .f32 0x461C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S10000x128 ![0, 1] bcast_S1x128_S10000x128_0_1),
    StableHlo.TRef.binary (.of main_v46 : TRef sig ⟨S10000x128, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S10000x128 ![0, 1] bcast_S1x128_S10000x128_0_1 : (⟨S1x128, .f32⟩ : BufTy).Contents (Elt F) → (⟨S10000x128, .f32⟩ : BufTy).Contents (Elt F)),
    StableHlo.binary main_v46 main_v52 main_v53 (subf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v54 (broadcastInDim S128 ![] bcast_S_S128 : (⟨S_, .f32⟩ : BufTy).Contents (Elt F) → (⟨S128, .f32⟩ : BufTy).Contents (Elt F)),
    StableHlo.binary main_v50 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.sqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S10000x128 ![0, 1] bcast_S1x128_S10000x128_0_1 : (⟨S1x128, .f32⟩ : BufTy).Contents (Elt F) → (⟨S10000x128, .f32⟩ : BufTy).Contents (Elt F)),
    StableHlo.binary main_v53 main_v58 main_v59 (Host.divf : (⟨S10000x128, .f32⟩ : BufTy).Contents (Elt F) → (⟨S10000x128, .f32⟩ : BufTy).Contents (Elt F) → (⟨S10000x128, .f32⟩ : BufTy).Contents (Elt F)),
    StableHlo.unary main_arg3 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S10000x128 ![0, 1] bcast_S1x128_S10000x128_0_1 : (⟨S1x128, .f32⟩ : BufTy).Contents (Elt F) → (⟨S10000x128, .f32⟩ : BufTy).Contents (Elt F)),
    StableHlo.binary main_v59 main_v61 main_v62 (mulf : (⟨S10000x128, .f32⟩ : BufTy).Contents (Elt F) → (⟨S10000x128, .f32⟩ : BufTy).Contents (Elt F) → (⟨S10000x128, .f32⟩ : BufTy).Contents (Elt F)),
    StableHlo.unary main_arg4 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S10000x128 ![0, 1] bcast_S1x128_S10000x128_0_1 : (⟨S1x128, .f32⟩ : BufTy).Contents (Elt F) → (⟨S10000x128, .f32⟩ : BufTy).Contents (Elt F)),
    StableHlo.binary main_v62 main_v64 main_v65 (addf : (⟨S10000x128, .f32⟩ : BufTy).Contents (Elt F) → (⟨S10000x128, .f32⟩ : BufTy).Contents (Elt F) → (⟨S10000x128, .f32⟩ : BufTy).Contents (Elt F)),
    StableHlo.unary main_v65 main_v66 (Host.tanh : (⟨S10000x128, .f32⟩ : BufTy).Contents (Elt F) → (⟨S10000x128, .f32⟩ : BufTy).Contents (Elt F)) ]

set_option maxRecDepth 8192 in
set_option maxHeartbeats 4000000 in
/-- The program is that straight line: its two windows in order, the variance's body and its selection's unfolded at
    their calls, are one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    nary_bufs_sub .., nary_bufs_sub .., nary_bufs_sub .., nary_bufs_sub .., nary_bufs_sub .., nary_bufs_sub ..,
    nary_bufs_sub .., nary_bufs_sub .., nary_bufs_sub .., binary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., unary_bufs_sub ..⟩

/-! ## The contents after the operations -/

set_option maxRecDepth 8192 in
set_option maxHeartbeats 4000000 in
/-- No operation writes argument 0: it keeps its contents. -/
theorem after_arg0 (V : Valuation τ sig (Elt F)) :
    after ops V (Proc.devRef .tc main_arg0) = V (Proc.devRef .tc main_arg0) := by
  simp (disch := decide) only [after_cons, after_nil, nullary_result_ne', unary_result_ne', binary_result_ne', ternary_result_ne', nary_result_ne']

set_option maxRecDepth 8192 in
set_option maxHeartbeats 4000000 in
/-- No operation writes argument 1: it keeps its contents. -/
theorem after_arg1 (V : Valuation τ sig (Elt F)) :
    after ops V (Proc.devRef .tc main_arg1) = V (Proc.devRef .tc main_arg1) := by
  simp (disch := decide) only [after_cons, after_nil, nullary_result_ne', unary_result_ne', binary_result_ne', ternary_result_ne', nary_result_ne']

set_option maxRecDepth 8192 in
set_option maxHeartbeats 4000000 in
/-- No operation writes argument 2: it keeps its contents. -/
theorem after_arg2 (V : Valuation τ sig (Elt F)) :
    after ops V (Proc.devRef .tc main_arg2) = V (Proc.devRef .tc main_arg2) := by
  simp (disch := decide) only [after_cons, after_nil, nullary_result_ne', unary_result_ne', binary_result_ne', ternary_result_ne', nary_result_ne']

set_option maxRecDepth 8192 in
set_option maxHeartbeats 4000000 in
/-- No operation writes argument 3: it keeps its contents. -/
theorem after_arg3 (V : Valuation τ sig (Elt F)) :
    after ops V (Proc.devRef .tc main_arg3) = V (Proc.devRef .tc main_arg3) := by
  simp (disch := decide) only [after_cons, after_nil, nullary_result_ne', unary_result_ne', binary_result_ne', ternary_result_ne', nary_result_ne']

set_option maxRecDepth 8192 in
set_option maxHeartbeats 4000000 in
/-- No operation writes argument 4: it keeps its contents. -/
theorem after_arg4 (V : Valuation τ sig (Elt F)) :
    after ops V (Proc.devRef .tc main_arg4) = V (Proc.devRef .tc main_arg4) := by
  simp (disch := decide) only [after_cons, after_nil, nullary_result_ne', unary_result_ne', binary_result_ne', ternary_result_ne', nary_result_ne']

set_option maxRecDepth 8192 in
set_option maxHeartbeats 40000000 in
/-- The result buffer after the operations is the composed term of the arguments' contents: each operation's
    result read at its own buffer is its function of its operands' contents, and at any other buffer what was there. -/
theorem after_out (V : Valuation τ sig (Elt F)) :
    after ops V (Proc.devRef .tc main_v66)
      = out (V (Proc.devRef .tc main_arg0)) (V (Proc.devRef .tc main_arg1)) (V (Proc.devRef .tc main_arg2))
          (V (Proc.devRef .tc main_arg3)) (V (Proc.devRef .tc main_arg4)) := by
  simp (disch := decide) only [after_cons, after_nil, nullary_result', unary_result', binary_result', ternary_result', nary8_result',
    nullary_result_ne', unary_result_ne', binary_result_ne', ternary_result_ne', nary_result_ne']
  rfl

/-! ## The run -/

set_option maxRecDepth 8192 in
set_option maxHeartbeats 4000000 in
/-- On every device, for any float values, from any memory with zero counters: every weakly fair execution of the
    program terminates with the result buffer at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v66)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v66).trans (after_out (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c))⟩)
    (run_seq scopedRefs_eq scopedSems_eq defs main (fun _ => ops) main_eq (fun _ => ops_sub) m ρ)

end Cert.ReferenceIdeal.RefValue

end
-- ==== Proof.lean ====
/-
  The graph layer: features x [10000,128], a dense adjacency adj [10000,10000], an octonion weight w [16,128] whose
  128×128 Hamilton matrix H is built from its eight 16-column slices and their negations, a gain γ and an offset β.
  Both programs compute tanh(BN(adj · (x · H))) where BN normalises each column over the 10000 rows and applies γ, β.
  The kernel keeps x · H in a scratch, walks the adjacency in 25 blocks of 400 rows, stores each block's product rows
  into a resident output buffer while accumulating column sums and sums of squares, and at the last block rewrites
  the buffer as tanh(row · scale + shift) with scale = rsqrt(E[y²] − E[y]² + ε) · γ and shift = β − E[y] · scale.
  The reference forms the centred variance and divides by its square root. On the extended reals the two agree
  when every input is finite: the sums are real, E[(y − μ)²] = E[y²] − μ², and the radicand is positive.
  The three frames: each kernel program by the launch rule over relational proof data for the resident output
  buffer; the reference by its run. Nothing was rewritten by the idealization, so the fourth conjunct is trivial.
-/
import proofs.«152943_g16630113370191_cont_week2b_735_29_alg».proof.Defs
import proofs.«152943_g16630113370191_cont_week2b_735_29_alg».proof.Proof.Gen.Kernel
import proofs.«152943_g16630113370191_cont_week2b_735_29_alg».proof.Proof.Gen.KernelIdeal
import proofs.«152943_g16630113370191_cont_week2b_735_29_alg».proof.Proof.Gen.ReferenceIdeal
import proofs.«152943_g16630113370191_cont_week2b_735_29_alg».proof.Proof.Gen.Pre_finite_inputs
import proofs.«152943_g16630113370191_cont_week2b_735_29_alg».proof.Proof.BitsFrame
import proofs.«152943_g16630113370191_cont_week2b_735_29_alg».proof.Proof.IdealFrame
import proofs.«152943_g16630113370191_cont_week2b_735_29_alg».proof.Proof.IdealRun
import proofs.«152943_g16630113370191_cont_week2b_735_29_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Layer.frame (F := Bits) m ρ

theorem frame_ki : Cert.frame_KernelIdeal := fun m ρ _ => Cert.KernelIdeal.Layer.frame (F := Ideal) m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both idealized programs end with the same result array: the kernel's run names it as the reference's composed
    term of the arguments, and the reference's run ends at that term of arguments that agree. -/
theorem algebraic : Cert.algebraic_KernelIdeal_ReferenceIdeal := by
  intro m ρ m' ρ' hpre hagree
  refine ⟨_, Cert.KernelIdeal.Final.value m ρ hpre, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
